-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S512x2048 : Shape := ⟨2, ![512, 2048]⟩
abbrev S4096x64 : Shape := ⟨2, ![4096, 64]⟩
abbrev S4096x128 : Shape := ⟨2, ![4096, 128]⟩
abbrev S2048x1024 : Shape := ⟨2, ![2048, 1024]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S4096x64 : S_.BroadcastsInDim S4096x64 (![] : Fin 0 → Fin S4096x64.rank)
  reducesTo_S4096x64_S_d0_1 : S4096x64.ReducesTo [0, 1] S_
  bcast_S_S4096x128 : S_.BroadcastsInDim S4096x128 (![] : Fin 0 → Fin S4096x128.rank)
  reducesTo_S4096x128_S_d0_1 : S4096x128.ReducesTo [0, 1] S_
  bcast_S_S2048x1024 : S_.BroadcastsInDim S2048x1024 (![] : Fin 0 → Fin S2048x1024.rank)
  reducesTo_S2048x1024_S_d0_1 : S2048x1024.ReducesTo [0, 1] S_

variable [Facts]

def fn_part1 {F : FTy → Type} [FloatOps F] (main_arg4 : FVec F S2048x1024 .f32) (main_v13 : IVec S_ 1) (main_v16 : IVec S4096x128 1) : IVec S_ 1 :=
  let main_c_5 : IVec S_ 1 := constantI S_ 1 1#1
  let main_v17 : IVec S_ 1 := (fun x v => Host.reduce IntOp.andi x v reducesTo_S4096x128_S_d0_1 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  main_v23

def fn {F : FTy → Type} [FloatOps F] (main_arg0 : FVec F S4096x2048 .f32) (main_arg1 : FVec F S512x2048 .f32) (main_arg2 : FVec F S4096x64 .f32) (main_arg3 : FVec F S4096x128 .f32) (main_arg4 : FVec F S2048x1024 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S4096x128 .f32 := Host.absf main_arg3
  let main_cst_4 : FVec F S_ .f32 := constant S_ .f32 0x7F800000#32
  let main_v15 : FVec F S4096x128 .f32 := broadcastInDim S4096x128 ![] bcast_S_S4096x128 main_cst_4
  let main_v16 : IVec S4096x128 1 := cmpf .olt main_v14 main_v15
  fn_part1 (F := F) main_arg4 main_v13 main_v16
-- ==== Kernel.lean ====
abbrev S4096x2048 : Shape := ⟨2, ![4096, 2048]⟩
abbrev S512x2048 : Shape := ⟨2, ![512, 2048]⟩
abbrev S4096x64 : Shape := ⟨2, ![4096, 64]⟩
abbrev S4096x128 : Shape := ⟨2, ![4096, 128]⟩
abbrev S2048x1024 : Shape := ⟨2, ![2048, 1024]⟩
abbrev S2048x512 : Shape := ⟨2, ![2048, 512]⟩
abbrev S4096x512 : Shape := ⟨2, ![4096, 512]⟩
abbrev S512x512 : Shape := ⟨2, ![512, 512]⟩
abbrev S32768x64 : Shape := ⟨2, ![32768, 64]⟩
abbrev S64x4096 : Shape := ⟨2, ![64, 4096]⟩
abbrev S32768x1 : Shape := ⟨2, ![32768, 1]⟩
abbrev S2048x64 : Shape := ⟨2, ![2048, 64]⟩
abbrev S64x1024 : Shape := ⟨2, ![64, 1024]⟩
abbrev S2048x1 : Shape := ⟨2, ![2048, 1]⟩
abbrev S2048 : Shape := ⟨1, ![2048]⟩
abbrev S4096x8 : Shape := ⟨2, ![4096, 8]⟩
abbrev S_ : Shape := ⟨0, ![]⟩
abbrev S128 : Shape := ⟨1, ![128]⟩
abbrev S1x128 : Shape := ⟨2, ![1, 128]⟩
abbrev S8x128 : Shape := ⟨2, ![8, 128]⟩
abbrev S1024 : Shape := ⟨1, ![1024]⟩
abbrev S4096x8x128 : Shape := ⟨3, ![4096, 8, 128]⟩
abbrev S4096x1024 : Shape := ⟨2, ![4096, 1024]⟩
abbrev S1x1024 : Shape := ⟨2, ![1, 1024]⟩
abbrev S1024x2048 : Shape := ⟨2, ![1024, 2048]⟩
abbrev S512x1024 : Shape := ⟨2, ![512, 1024]⟩

abbrev nBuf : Space → Nat
  | .hbm => 32
  | .vmem => 20
  | .smem => 0
  | _ => 0

abbrev bufTy : (tb : Table) → Fin (tcTables nBuf tb) → BufTy
  | .hbm, ⟨0, _⟩ => ⟨S4096x2048, .f32⟩
  | .hbm, ⟨1, _⟩ => ⟨S512x2048, .f32⟩
  | .hbm, ⟨2, _⟩ => ⟨S4096x64, .f32⟩
  | .hbm, ⟨3, _⟩ => ⟨S4096x128, .f32⟩
  | .hbm, ⟨4, _⟩ => ⟨S2048x1024, .f32⟩
  | .hbm, ⟨5, _⟩ => ⟨S4096x2048, .bf16⟩
  | .hbm, ⟨6, _⟩ => ⟨S2048x512, .f32⟩
  | .hbm, ⟨7, _⟩ => ⟨S2048x512, .bf16⟩
  | .hbm, ⟨8, _⟩ => ⟨S4096x512, .f32⟩
  | .hbm, ⟨9, _⟩ => ⟨S32768x64, .f32⟩
  | .hbm, ⟨10, _⟩ => ⟨S32768x64, .bf16⟩
  | .hbm, ⟨11, _⟩ => ⟨S64x4096, .f32⟩
  | .hbm, ⟨12, _⟩ => ⟨S64x4096, .bf16⟩
  | .hbm, ⟨13, _⟩ => ⟨S32768x1, .f32⟩
  | .hbm, ⟨14, _⟩ => ⟨S4096x8, .f32⟩
  | .hbm, ⟨15, _⟩ => ⟨S_, .f32⟩
  | .hbm, ⟨16, _⟩ => ⟨S128, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S1x128, .f32⟩
  | .hbm, ⟨21, _⟩ => ⟨S8x128, .f32⟩
  | .hbm, ⟨22, _⟩ => ⟨S1024, .f32⟩
  | .hbm, ⟨23, _⟩ => ⟨S4096x8x128, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .bf16⟩
  | .hbm, ⟨29, _⟩ => ⟨S1024x2048, .f32⟩
  | .hbm, ⟨30, _⟩ => ⟨S1024x2048, .bf16⟩
  | .hbm, ⟨31, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S512x512, .f32⟩
  | .local _ .vmem, ⟨4, _⟩ => ⟨S512x512, .f32⟩
  | .local _ .vmem, ⟨5, _⟩ => ⟨S2048x64, .bf16⟩
  | .local _ .vmem, ⟨6, _⟩ => ⟨S2048x64, .bf16⟩
  | .local _ .vmem, ⟨7, _⟩ => ⟨S64x1024, .bf16⟩
  | .local _ .vmem, ⟨8, _⟩ => ⟨S64x1024, .bf16⟩
  | .local _ .vmem, ⟨9, _⟩ => ⟨S2048x1, .f32⟩
  | .local _ .vmem, ⟨10, _⟩ => ⟨S2048x1, .f32⟩
  | .local _ .vmem, ⟨11, _⟩ => ⟨S2048x1, .f32⟩
  | .local _ .vmem, ⟨12, _⟩ => ⟨S2048x1, .f32⟩
  | .local _ .vmem, ⟨13, _⟩ => ⟨S512x1024, .bf16⟩
  | .local _ .vmem, ⟨14, _⟩ => ⟨S512x1024, .bf16⟩
  | .local _ .vmem, ⟨15, _⟩ => ⟨S1024x2048, .bf16⟩
  | .local _ .vmem, ⟨16, _⟩ => ⟨S512x2048, .f32⟩
  | .local _ .vmem, ⟨17, _⟩ => ⟨S512x2048, .f32⟩
  | .local _ .vmem, ⟨18, _⟩ => ⟨S512x2048, .f32⟩
  | .local _ .vmem, ⟨19, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc1_scratch1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 4], ![false, false]⟩

def k1_cond2 (i : grid1.Coords) : BitVec 1 :=
  let arg1 : BitVec 32 := BitVec.ofNat 32 (i 1).val
  let c3_i32 : BitVec 32 := 3#32
  let v31 : BitVec 1 := Scalar.cmpi .eq arg1 c3_i32
  let v32 : BitVec 32 := Scalar.extui v31
  let c0_i32_17 : BitVec 32 := 0#32
  let v33 : BitVec 1 := Scalar.cmpi .ne v32 c0_i32_17
  v33

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S64x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bitsLt_bf16_f32 : FTy.bits .bf16 < FTy.bits .f32
  transposes_S512x2048_S2048x512_1_0 : S512x2048.Transposes [1, 0] S2048x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  shapeCasts_S4096x512_S32768x64 : S4096x512.ShapeCasts S32768x64
  transposes_S4096x64_S64x4096_1_0 : S4096x64.Transposes [1, 0] S64x4096
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  reduces_S2048x1024_S2048 : S2048x1024.Reduces [1] S2048
  shapeCasts_S2048_S2048x1 : S2048.ShapeCasts S2048x1
  broadcasts_S2048x1_S2048x1024 : S2048x1.Broadcasts S2048x1024
  shapeCasts_S32768x1_S4096x8 : S32768x1.ShapeCasts S4096x8
  reducesTo_S4096x128_S128_d0 : S4096x128.ReducesTo [0] S128
  h_S_ : 0 < S_.numel
  bcast_S_S128 : S_.BroadcastsInDim S128 (![] : Fin 0 → Fin S128.rank)
  shapeCasts_S128_S1x128 : S128.ShapeCasts S1x128
  bcast_S1x128_S8x128_0_1 : S1x128.BroadcastsInDim S8x128 (![0, 1] : Fin 2 → Fin S8x128.rank)
  shapeCasts_S8x128_S1024 : S8x128.ShapeCasts S1024
  bcast_S4096x8_S4096x8x128_0_1 : S4096x8.BroadcastsInDim S4096x8x128 (![0, 1] : Fin 2 → Fin S4096x8x128.rank)
  shapeCasts_S4096x8x128_S4096x1024 : S4096x8x128.ShapeCasts S4096x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  transposes_S2048x1024_S1024x2048_1_0 : S2048x1024.Transposes [1, 0] S1024x2048
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  dot_S512x2048_S2048x512_S512x512_1_0_0_1_n_n_wf : DotDims.WF S512x2048 S2048x512 S512x512 [1] [0] [0] [1] [] []
  dot_S2048x64_S64x1024_S2048x1024_1_0_0_1_n_n_wf : DotDims.WF S2048x64 S64x1024 S2048x1024 [1] [0] [0] [1] [] []
  dot_S512x1024_S1024x2048_S512x2048_1_0_0_1_n_n_wf : DotDims.WF S512x1024 S1024x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .bf16 = 32 ∨ (Rect.block (s := S4096x2048) S512x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x512.size a
  hwx0_1 : ∀ i : grid0.Coords, EltTy.bits .bf16 = 32 ∨ (Rect.block (s := S2048x512) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x512.size a
  hwx0_2 : ∀ i : grid0.Coords, EltTy.bits .f32 = 32 ∨ (Rect.block (s := S4096x512) S512x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x64.size a ≤ S32768x64.size a
  hwx1_0 : ∀ i : grid1.Coords, EltTy.bits .bf16 = 32 ∨ (Rect.block (s := S32768x64) S2048x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x1024.size a ≤ S64x4096.size a
  hwx1_1 : ∀ i : grid1.Coords, EltTy.bits .bf16 = 32 ∨ (Rect.block (s := S64x4096) S64x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S32768x1.size a
  hwx1_2 : ∀ i : grid1.Coords, EltTy.bits .f32 = 32 ∨ (Rect.block (s := S32768x1) S2048x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x2048.size a ≤ S1024x2048.size a
  hwx2_1 : ∀ i : grid2.Coords, EltTy.bits .bf16 = 32 ∨ (Rect.block (s := S1024x2048) S1024x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x2048.size a ≤ S4096x2048.size a
  hwx2_2 : ∀ i : grid2.Coords, EltTy.bits .f32 = 32 ∨ (Rect.block (s := S4096x2048) S512x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x2048.size a ≤ S4096x2048.size a
  hwx2_3 : ∀ i : grid2.Coords, EltTy.bits .f32 = 32 ∨ (Rect.block (s := S4096x2048) S512x2048.size (cc2_transform_3 i) (hinb2_3 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S2048x64_S64x1024_S2048x1024_1_0_0_1_n_n : DotDims S2048x64 S64x1024 S2048x1024 where
  lhsContracting := [1]
  rhsContracting := [0]
  lhsNonContracting := [0]
  rhsNonContracting := [1]
  lhsBatch := []
  rhsBatch := []
  wf := dot_S2048x64_S64x1024_S2048x1024_1_0_0_1_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5) S2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S64x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S2048x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v21) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S1024x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg0) S512x2048.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v24) S512x2048.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4096x2048 : Shape := ⟨2, ![4096, 2048]⟩
abbrev S512x2048 : Shape := ⟨2, ![512, 2048]⟩
abbrev S4096x64 : Shape := ⟨2, ![4096, 64]⟩
abbrev S4096x128 : Shape := ⟨2, ![4096, 128]⟩
abbrev S2048x1024 : Shape := ⟨2, ![2048, 1024]⟩
abbrev S2048x512 : Shape := ⟨2, ![2048, 512]⟩
abbrev S4096x512 : Shape := ⟨2, ![4096, 512]⟩
abbrev S4096x8x64 : Shape := ⟨3, ![4096, 8, 64]⟩
abbrev S4096x8x4096 : Shape := ⟨3, ![4096, 8, 4096]⟩
abbrev S_ : Shape := ⟨0, ![]⟩
abbrev S4096x8 : Shape := ⟨2, ![4096, 8]⟩
abbrev S4096x8x1 : Shape := ⟨3, ![4096, 8, 1]⟩
abbrev S128 : Shape := ⟨1, ![128]⟩
abbrev S1x1x128 : Shape := ⟨3, ![1, 1, 128]⟩
abbrev S4096x8x128 : Shape := ⟨3, ![4096, 8, 128]⟩
abbrev S4096x1024 : Shape := ⟨2, ![4096, 1024]⟩
abbrev S1024x2048 : Shape := ⟨2, ![1024, 2048]⟩

abbrev nBuf : Space → Nat
  | .hbm => 43
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S512x2048, .f32⟩
  | .hbm, ⟨2, _⟩ => ⟨S4096x64, .f32⟩
  | .hbm, ⟨3, _⟩ => ⟨S4096x128, .f32⟩
  | .hbm, ⟨4, _⟩ => ⟨S2048x1024, .f32⟩
  | .hbm, ⟨5, _⟩ => ⟨S2048x512, .f32⟩
  | .hbm, ⟨6, _⟩ => ⟨S4096x512, .f32⟩
  | .hbm, ⟨7, _⟩ => ⟨S4096x8x64, .f32⟩
  | .hbm, ⟨8, _⟩ => ⟨S4096x8x4096, .f32⟩
  | .hbm, ⟨9, _⟩ => ⟨S_, .f32⟩
  | .hbm, ⟨10, _⟩ => ⟨S_, .f32⟩
  | .hbm, ⟨11, _⟩ => ⟨S4096x8x4096, .f32⟩
  | .hbm, ⟨12, _⟩ => ⟨S4096x8x4096, .f32⟩
  | .hbm, ⟨13, _⟩ => ⟨S_, .f32⟩
  | .hbm, ⟨14, _⟩ => ⟨S4096x8, .f32⟩
  | .hbm, ⟨15, _⟩ => ⟨S_, .f32⟩
  | .hbm, ⟨16, _⟩ => ⟨S4096x8, .f32⟩
  | .hbm, ⟨17, _⟩ => ⟨S4096x8, .f32⟩
  | .hbm, ⟨18, _⟩ => ⟨S4096x8x1, .f32⟩
  | .hbm, ⟨19, _⟩ => ⟨S4096x8x4096, .f32⟩
  | .hbm, ⟨20, _⟩ => ⟨S4096x8x4096, .f32⟩
  | .hbm, ⟨21, _⟩ => ⟨S4096x8x4096, .f32⟩
  | .hbm, ⟨22, _⟩ => ⟨S_, .f32⟩
  | .hbm, ⟨23, _⟩ => ⟨S4096x8, .f32⟩
  | .hbm, ⟨24, _⟩ => ⟨S4096x8x1, .f32⟩
  | .hbm, ⟨25, _⟩ => ⟨S4096x8x4096, .f32⟩
  | .hbm, ⟨26, _⟩ => ⟨S4096x8x4096, .f32⟩
  | .hbm, ⟨27, _⟩ => ⟨S_, .f32⟩
  | .hbm, ⟨28, _⟩ => ⟨S4096x8, .f32⟩
  | .hbm, ⟨29, _⟩ => ⟨S_, .f32⟩
  | .hbm, ⟨30, _⟩ => ⟨S128, .f32⟩
  | .hbm, ⟨31, _⟩ => ⟨S_, .f32⟩
  | .hbm, ⟨32, _⟩ => ⟨S128, .f32⟩
  | .hbm, ⟨33, _⟩ => ⟨S128, .f32⟩
  | .hbm, ⟨34, _⟩ => ⟨S4096x8x1, .f32⟩
  | .hbm, ⟨35, _⟩ => ⟨S1x1x128, .f32⟩
  | .hbm, ⟨36, _⟩ => ⟨S4096x8x128, .f32⟩
  | .hbm, ⟨37, _⟩ => ⟨S4096x8x128, .f32⟩
  | .hbm, ⟨38, _⟩ => ⟨S4096x8x128, .f32⟩
  | .hbm, ⟨39, _⟩ => ⟨S4096x1024, .f32⟩
  | .hbm, ⟨40, _⟩ => ⟨S1024x2048, .f32⟩
  | .hbm, ⟨41, _⟩ => ⟨S4096x2048, .f32⟩
  | .hbm, ⟨42, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]

class Facts₀ : Prop where
  transposes_S512x2048_S2048x512_1_0 : S512x2048.Transposes [1, 0] S2048x512
  shapeCasts_S4096x512_S4096x8x64 : S4096x512.ShapeCasts S4096x8x64
  bcast_S_S4096x8x4096 : S_.BroadcastsInDim S4096x8x4096 (![] : Fin 0 → Fin S4096x8x4096.rank)
  reducesTo_S4096x8x4096_S4096x8_d2 : S4096x8x4096.ReducesTo [2] S4096x8
  h_S_ : 0 < S_.numel
  bcast_S_S4096x8 : S_.BroadcastsInDim S4096x8 (![] : Fin 0 → Fin S4096x8.rank)
  bcast_S4096x8_S4096x8x1_0_1 : S4096x8.BroadcastsInDim S4096x8x1 (![0, 1] : Fin 2 → Fin S4096x8x1.rank)
  bcast_S4096x8x1_S4096x8x4096_0_1_2 : S4096x8x1.BroadcastsInDim S4096x8x4096 (![0, 1, 2] : Fin 3 → Fin S4096x8x4096.rank)
  reducesTo_S4096x128_S128_d0 : S4096x128.ReducesTo [0] S128
  bcast_S_S128 : S_.BroadcastsInDim S128 (![] : Fin 0 → Fin S128.rank)
  bcast_S128_S1x1x128_2 : S128.BroadcastsInDim S1x1x128 (![2] : Fin 1 → Fin S1x1x128.rank)
  bcast_S4096x8x1_S4096x8x128_0_1_2 : S4096x8x1.BroadcastsInDim S4096x8x128 (![0, 1, 2] : Fin 3 → Fin S4096x8x128.rank)
  bcast_S1x1x128_S4096x8x128_0_1_2 : S1x1x128.BroadcastsInDim S4096x8x128 (![0, 1, 2] : Fin 3 → Fin S4096x8x128.rank)
  shapeCasts_S4096x8x128_S4096x1024 : S4096x8x128.ShapeCasts S4096x1024
  transposes_S2048x1024_S1024x2048_1_0 : S2048x1024.Transposes [1, 0] S1024x2048
  dot_S4096x2048_S2048x512_S4096x512_1_0_0_1_n_n_wf : DotDims.WF S4096x2048 S2048x512 S4096x512 [1] [0] [0] [1] [] []
  dot_S4096x8x64_S4096x64_S4096x8x4096_2_1_01_0_n_n_wf : DotDims.WF S4096x8x64 S4096x64 S4096x8x4096 [2] [1] [0, 1] [0] [] []
  dot_S4096x1024_S1024x2048_S4096x2048_1_0_0_1_n_n_wf : DotDims.WF S4096x1024 S1024x2048 S4096x2048 [1] [0] [0] [1] [] []

variable [Facts₀]

def dot_S4096x2048_S2048x512_S4096x512_1_0_0_1_n_n : DotDims S4096x2048 S2048x512 S4096x512 where
  lhsContracting := [1]
  rhsContracting := [0]
  lhsNonContracting := [0]
  rhsNonContracting := [1]
  lhsBatch := []
  rhsBatch := []
  wf := dot_S4096x2048_S2048x512_S4096x512_1_0_0_1_n_n_wf
def dot_S4096x8x64_S4096x64_S4096x8x4096_2_1_01_0_n_n : DotDims S4096x8x64 S4096x64 S4096x8x4096 where
  lhsContracting := [2]
  rhsContracting := [1]
  lhsNonContracting := [0, 1]
  rhsNonContracting := [0]
  lhsBatch := []
  rhsBatch := []
  wf := dot_S4096x8x64_S4096x64_S4096x8x4096_2_1_01_0_n_n_wf
def dot_S4096x1024_S1024x2048_S4096x2048_1_0_0_1_n_n : DotDims S4096x1024 S1024x2048 S4096x2048 where
  lhsContracting := [1]
  rhsContracting := [0]
  lhsNonContracting := [0]
  rhsNonContracting := [1]
  lhsBatch := []
  rhsBatch := []
  wf := dot_S4096x1024_S1024x2048_S4096x2048_1_0_0_1_n_n_wf

class Facts : Prop extends Facts₀ where

variable [Facts]
-- ==== Proof.Kernel.Region0.lean ====
/- The first matrix product (q = x·Wqᵀ, a row block of x against the whole of Wqᵀ per grid point), as one pipelined region of the program: what each of its windows holds at a grid
    point, what the body leaves in the output window's buffer, the body's Hoare triple, and the proof data the
    pipeline's frame theorem takes — all stated at a PARAMETER `V`, the contents of the core's buffers when the
    region is entered. -/
import proofs.«145297_j7275674600023_1_alg».proof.Proof.Gen.Kernel.Launch
import proofs.«145297_j7275674600023_1_alg».proof.Proof.Gen.Kernel.Skeleton
import proofs.«145297_j7275674600023_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with extents in the thousands is decided by a structural
-- recursion one step per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The windows' blocks -/

/-- The block of window `w` at grid point `t`: the window's index map applied to the point selects a
    sub-rectangle of the window's array, read here off the entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: at every grid point its current staging buffer holds the window's block at that point,
    whether the pipeline fetched it there or kept it from an earlier point (then the block index has not moved
    since the fetch). Holds for any proof data whose array is `V`'s and whose body leaves the input in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1: at every grid point its current staging buffer holds the window's block at that point,
    whether the pipeline fetched it there or kept it from an earlier point (then the block index has not moved
    since the fetch). Holds for any proof data whose array is `V`'s and whose body leaves the input in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole staging buffer -/

abbrev r0_0 : Rect S512x2048 := Rect.unit (s := S512x2048) ![0, 0] S512x2048.size inb_S512x2048_S512x2048_0_0
abbrev r0_1 : Rect S2048x512 := Rect.unit (s := S2048x512) ![0, 0] S2048x512.size inb_S2048x512_S2048x512_0_0
abbrev r0_2 : Rect S512x512 := Rect.unit (s := S512x512) ![0, 0] S512x512.size inb_S512x512_S512x512_0_0

/-! ## What the body leaves in the output window's buffer -/

/-- The output buffer after the body, as a function of the input buffers: the body's single store covers the
    whole buffer with the payload computed from the loaded inputs. -/
def out0_2 (x0 : Vec F S512x2048 .bf16) (x1 : Vec F S2048x512 .bf16) : Vec F S512x512 .f32 :=
  View.canon [⟨r0_2, k0_pay1 (View.ld x0 r0_0) (View.ld x1 r0_1)⟩]

/-- The one store's rectangle is the whole buffer, so every index of the buffer lies in it. -/
theorem cover0_2 (p0 : Vec F S512x512 .f32) (y : S512x512.Idx) :
    ∃ pc ∈ ([⟨r0_2, p0⟩] : List (View.Piece (Elt F) S512x512 .f32)), y ∈ pc.1.set :=
  View.cover_of_tiled [⟨r0_2, p0⟩] S512x512.size (by rfl) y

/-! ## The body's triple -/

set_option maxHeartbeats 1000000 in
/-- The body run on whole staging buffers — the inputs' at known contents, the output's at anything — ends with
    the inputs' unchanged and the output's at `out0_2` of the inputs: the body is a sequence of whole-buffer
    loads followed by one whole-buffer store (it also loads the output buffer, a value it never uses). -/
theorem sound_kernel0 (c : Dev nD) (E : Set ℕ) (i : grid0.Coords) (arg1 : Memref sig .tc .vmem S512x2048 .bf16) (harg1 : arg1.IsWhole) (arg2 : Memref sig .tc .vmem S2048x512 .bf16) (harg2 : arg2.IsWhole) (arg3 : Memref sig .tc .vmem S512x512 .f32) (harg3 : arg3.IsWhole)
    (x0 : Vec F S512x2048 .bf16) (x1 : Vec F S2048x512 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__qproj_kernel i arg1 harg1 arg2 harg2 arg3 harg3) K := by
  simp only [cc0__qproj_kernel_eq_skeleton]; unfold cc0__qproj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The region's proof data on core `c`: the windows' arrays as the region finds them; after the body at point
    `t` every input buffer still at its block and the output buffer at `out0_2` of the input blocks; the
    invariant carried between points is the region-independent one (the other scoped buffers and the generator
    register, untouched); full shares; nothing owed to another core. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`: the invariant, the core's debts, and each window's current staging
    buffer at what the pipeline put there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns: the same, each buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and
    the debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.Kernel.Region1Runs.lean ====
import proofs.«145297_j7275674600023_1_alg».proof.Proof.Gen.Kernel.Launch
import proofs.«145297_j7275674600023_1_alg».proof.Proof.Gen.Kernel.Skeleton
import proofs.«145297_j7275674600023_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the online softmax row-sum kernel on the grid (16, 4) — what its three cases share

The kernel walks 4 column tiles per row tile. Two scratch buffers persist between grid points: the running row
maximum and the running row sum. At the first column tile of a row tile both are re-initialised; at every tile
both are updated from the tile's scores; at the last column tile the output block is stored. -/

section Blocks
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the query rows) holds its block at every point, fetched there or not: within a row tile the block
    index does not move, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the key columns) holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The body's two branch conditions, in closed form -/

/-- The first conditional's condition (the column-tile index is 0), from the grid coordinates. -/
abbrev cond1_0 (i : grid1.Coords) : Prop := (Scalar.cmpi .ne (Scalar.extui (Scalar.cmpi .eq (BitVec.ofNat 32 (i 1).val) 0#32)) 0#32) = 1#1
/-- It holds exactly at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional's condition (the column-tile index is 3, the last). -/
abbrev cond1_1 (i : grid1.Coords) : Prop := k1_cond2 i = 1#1
/-- It holds exactly at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- The two inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- At a first column tile the output window is idle and not written back. -/
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
/-- At a middle column tile likewise. -/
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
/-- At a last column tile the output window is live: the body stores into it. -/
theorem liveAt1_2_C : ∀ t : Fin cfg1.N, ¬cond1_0 (grid1.coords t) → cond1_1 (grid1.coords t) → cfg1.idle 2 (grid1.coords t) = false := by decide +kernel

/-! ## The memrefs the body is called with -/

/-- One staging buffer of the output window, through which its contents are stated. -/
abbrev VO1_2 : View sig .tc .vmem S2048x1 .f32 := (Memref.whole cc1_stg2_0 : Memref sig .tc .vmem S2048x1 .f32).view
/-- Each window's current staging memref at point `t`, and its wholeness. -/
abbrev ms1_0 (t : Fin cfg1.N) : Memref sig .tc .vmem S2048x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .f32 := win1_2.stage (cfg1.slots t 2)
abbrev hs1_2 (t : Fin cfg1.N) : (ms1_2 t).IsWhole := hstage1_2 ((cfg1.slots t 2).cast nbuf1_2)
/-- The two scratch operands: the running row maximum and the running row sum. -/
abbrev scM1_0 : Memref sig .tc .vmem S2048x1 .f32 := Memref.whole cc1_scratch0
abbrev scM1_1 : Memref sig .tc .vmem S2048x1 .f32 := Memref.whole cc1_scratch1
/-- The same as views: what they hold is stated through these. -/
abbrev VS1_0 : View sig .tc .vmem S2048x1 .f32 := scM1_0.view
abbrev VS1_1 : View sig .tc .vmem S2048x1 .f32 := scM1_1.view

/-- The region invariant with the two scratch operands as memrefs owned at some contents; the other scoped buffers
    (the other two kernels' staging buffers) stay as they are. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ d, owns (c : Thread nD τ) scM1_1 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f)) ∗ (∃ r, prngReg c r)) := by
  unfold Pipeline.ΦA; rw [scopedRest1_eq]; simp only [scM1_0, scM1_1, owns_whole]; try rfl

end Cert.Kernel.Fr

end
-- ==== Proof.Kernel.Region1RunA.lean ====
import proofs.«145297_j7275674600023_1_alg».proof.Proof.Kernel.Region1Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a FIRST column tile (first conditional taken, second not). On whole memrefs — the two inputs at their
    blocks, the output buffer at contents handed back untouched, the two scratch buffers at anything — it runs to the
    continuation with the inputs and the output buffer as they were and each scratch buffer with the listed pieces
    written (last first): the re-initialisation, then the update. The piece lists are found by the run. -/
noncomputable def kernelRun1_A (c : Dev nD) (i : grid1.Coords) (arg2 : Memref sig .tc .vmem S2048x64 .bf16) (harg2 : arg2.IsWhole) (arg3 : Memref sig .tc .vmem S64x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond1_0 i) (hc1 : ¬cond1_1 i)
    (x0 : Vec F S2048x64 .bf16) (x1 : Vec F S64x1024 .bf16) :
    Σ' (L2 : List (View.Piece (Elt F) S2048x1 .f32)), Σ' (LS0 : List (View.Piece (Elt F) S2048x1 .f32)), { LS1 : List (View.Piece (Elt F) S2048x1 .f32) //
      ∀ (xi2 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__softsum_kernel i arg2 harg2 arg3 harg3 arg4 harg4 arg5 harg5 arg6 harg6) K } := by
  refine ⟨[], ?_, ?_, fun xi2 E K => ?run⟩
  case run =>
    simp only [cc1__softsum_kernel_eq_skeleton]; unfold cc1__softsum_kernel_skel
    simp only [k1_part1_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Fr

end
-- ==== Proof.Kernel.Region1RunB.lean ====
import proofs.«145297_j7275674600023_1_alg».proof.Proof.Kernel.Region1RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a MIDDLE column tile (neither conditional taken). On whole memrefs — the two inputs at their blocks, the
    output buffer at contents handed back untouched, the two scratch buffers at what the point before left — it runs to
    the continuation with the inputs and the output buffer as they were and each scratch buffer with the listed pieces
    written: the update. The piece lists are found by the run. -/
noncomputable def kernelRun1_B (c : Dev nD) (i : grid1.Coords) (arg2 : Memref sig .tc .vmem S2048x64 .bf16) (harg2 : arg2.IsWhole) (arg3 : Memref sig .tc .vmem S64x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond1_0 i) (hc1 : ¬cond1_1 i)
    (x0 : Vec F S2048x64 .bf16) (x1 : Vec F S64x1024 .bf16) (xs0 : Vec F S2048x1 .f32) (xs1 : Vec F S2048x1 .f32) :
    Σ' (L2 : List (View.Piece (Elt F) S2048x1 .f32)), Σ' (LS0 : List (View.Piece (Elt F) S2048x1 .f32)), { LS1 : List (View.Piece (Elt F) S2048x1 .f32) //
      ∀ (xi2 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__softsum_kernel i arg2 harg2 arg3 harg3 arg4 harg4 arg5 harg5 arg6 harg6) K } := by
  refine ⟨[], ?_, ?_, fun xi2 E K => ?run⟩
  case run =>
    simp only [cc1__softsum_kernel_eq_skeleton]; unfold cc1__softsum_kernel_skel
    simp only [k1_part1_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Fr

end
-- ==== Proof.Kernel.Region1RunC.lean ====
import proofs.«145297_j7275674600023_1_alg».proof.Proof.Kernel.Region1RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a LAST column tile (first conditional not taken, second taken). On whole memrefs — the two inputs at
    their blocks, the output buffer at anything, the two scratch buffers at what the point before left — it runs to the
    continuation with the inputs as they were, each scratch buffer with the listed pieces written (the update) and the
    output buffer with its listed piece written (the final sum divided by itself). The piece lists are found by the run. -/
noncomputable def kernelRun1_C (c : Dev nD) (i : grid1.Coords) (arg2 : Memref sig .tc .vmem S2048x64 .bf16) (harg2 : arg2.IsWhole) (arg3 : Memref sig .tc .vmem S64x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond1_0 i) (hc1 : cond1_1 i)
    (x0 : Vec F S2048x64 .bf16) (x1 : Vec F S64x1024 .bf16) (xs0 : Vec F S2048x1 .f32) (xs1 : Vec F S2048x1 .f32) :
    Σ' (L2 : List (View.Piece (Elt F) S2048x1 .f32)), Σ' (LS0 : List (View.Piece (Elt F) S2048x1 .f32)), { LS1 : List (View.Piece (Elt F) S2048x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__softsum_kernel i arg2 harg2 arg3 harg3 arg4 harg4 arg5 harg5 arg6 harg6) K } := by
  refine ⟨?_, ?_, ?_, fun E K => ?run⟩
  case run =>
    simp only [cc1__softsum_kernel_eq_skeleton]; unfold cc1__softsum_kernel_skel
    simp only [k1_part1_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.Kernel.Fr

end
-- ==== Proof.Kernel.Region1.lean ====
import proofs.«145297_j7275674600023_1_alg».proof.Proof.Kernel.Region1RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the frame half of the online softmax row-sum kernel

What each case of the body leaves in the output window's staging buffer and in the two scratch buffers (read back
from the pieces the runs found), the same point by point along the grid, the region invariant that carries the two
scratch buffers from one grid point to the next, the proof data and the body obligation. -/

/-- A first column tile stores nothing into the output window: no pieces — a placeholder that nothing consults, since there the window is neither written back nor read at the next point. -/
def out1_A_2 (c : Dev nD) (i : grid1.Coords) (arg2 : Memref sig .tc .vmem S2048x64 .bf16) (harg2 : arg2.IsWhole) (arg3 : Memref sig .tc .vmem S64x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond1_0 i) (hc1 : ¬cond1_1 i)
    (x0 : Vec F S2048x64 .bf16) (x1 : Vec F S64x1024 .bf16) : Vec F S2048x1 .f32 :=
  VO1_2.read (Elt F) (VO1_2.writes (Elt F) VO1_2.junk (kernelRun1_A c i arg2 harg2 arg3 harg3 arg4 harg4 arg5 harg5 arg6 harg6 hc0 hc1 x0 x1).1)

/-- At a first column tile the running maximum's pieces cover its buffer. -/
theorem scover1_A_0 (c : Dev nD) (i : grid1.Coords) (arg2 : Memref sig .tc .vmem S2048x64 .bf16) (harg2 : arg2.IsWhole) (arg3 : Memref sig .tc .vmem S64x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond1_0 i) (hc1 : ¬cond1_1 i)
    (x0 : Vec F S2048x64 .bf16) (x1 : Vec F S64x1024 .bf16) (y : S2048x1.Idx) :
    ∃ pc ∈ (kernelRun1_A c i arg2 harg2 arg3 harg3 arg4 harg4 arg5 harg5 arg6 harg6 hc0 hc1 x0 x1).2.1, y ∈ pc.1.set :=
  View.cover_of_tiledL (kernelRun1_A c i arg2 harg2 arg3 harg3 arg4 harg4 arg5 harg5 arg6 harg6 hc0 hc1 x0 x1).2.1 S2048x1.size (by sl_kernel_rfl) y

/-- What it leaves in the running maximum: the pieces read back. -/
def sout1_A_0 (c : Dev nD) (i : grid1.Coords) (arg2 : Memref sig .tc .vmem S2048x64 .bf16) (harg2 : arg2.IsWhole) (arg3 : Memref sig .tc .vmem S64x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond1_0 i) (hc1 : ¬cond1_1 i)
    (x0 : Vec F S2048x64 .bf16) (x1 : Vec F S64x1024 .bf16) : Vec F S2048x1 .f32 :=
  VS1_0.read (Elt F) (VS1_0.writes (Elt F) VS1_0.junk (kernelRun1_A c i arg2 harg2 arg3 harg3 arg4 harg4 arg5 harg5 arg6 harg6 hc0 hc1 x0 x1).2.1)

/-- At a first column tile the running sum's pieces cover its buffer. -/
theorem scover1_A_1 (c : Dev nD) (i : grid1.Coords) (arg2 : Memref sig .tc .vmem S2048x64 .bf16) (harg2 : arg2.IsWhole) (arg3 : Memref sig .tc .vmem S64x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond1_0 i) (hc1 : ¬cond1_1 i)
    (x0 : Vec F S2048x64 .bf16) (x1 : Vec F S64x1024 .bf16) (y : S2048x1.Idx) :
    ∃ pc ∈ (kernelRun1_A c i arg2 harg2 arg3 harg3 arg4 harg4 arg5 harg5 arg6 harg6 hc0 hc1 x0 x1).2.2.1, y ∈ pc.1.set :=
  View.cover_of_tiledL (kernelRun1_A c i arg2 harg2 arg3 harg3 arg4 harg4 arg5 harg5 arg6 harg6 hc0 hc1 x0 x1).2.2.1 S2048x1.size (by sl_kernel_rfl) y

/-- What it leaves in the running sum: the pieces read back. -/
def sout1_A_1 (c : Dev nD) (i : grid1.Coords) (arg2 : Memref sig .tc .vmem S2048x64 .bf16) (harg2 : arg2.IsWhole) (arg3 : Memref sig .tc .vmem S64x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond1_0 i) (hc1 : ¬cond1_1 i)
    (x0 : Vec F S2048x64 .bf16) (x1 : Vec F S64x1024 .bf16) : Vec F S2048x1 .f32 :=
  VS1_1.read (Elt F) (VS1_1.writes (Elt F) VS1_1.junk (kernelRun1_A c i arg2 harg2 arg3 harg3 arg4 harg4 arg5 harg5 arg6 harg6 hc0 hc1 x0 x1).2.2.1)

/-- A middle column tile stores nothing into the output window either: a placeholder again. -/
def out1_B_2 (c : Dev nD) (i : grid1.Coords) (arg2 : Memref sig .tc .vmem S2048x64 .bf16) (harg2 : arg2.IsWhole) (arg3 : Memref sig .tc .vmem S64x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond1_0 i) (hc1 : ¬cond1_1 i)
    (x0 : Vec F S2048x64 .bf16) (x1 : Vec F S64x1024 .bf16) (xs0 : Vec F S2048x1 .f32) (xs1 : Vec F S2048x1 .f32) : Vec F S2048x1 .f32 :=
  VO1_2.read (Elt F) (VO1_2.writes (Elt F) VO1_2.junk (kernelRun1_B c i arg2 harg2 arg3 harg3 arg4 harg4 arg5 harg5 arg6 harg6 hc0 hc1 x0 x1 xs0 xs1).1)

/-- At a middle column tile the running maximum's pieces cover its buffer. -/
theorem scover1_B_0 (c : Dev nD) (i : grid1.Coords) (arg2 : Memref sig .tc .vmem S2048x64 .bf16) (harg2 : arg2.IsWhole) (arg3 : Memref sig .tc .vmem S64x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond1_0 i) (hc1 : ¬cond1_1 i)
    (x0 : Vec F S2048x64 .bf16) (x1 : Vec F S64x1024 .bf16) (xs0 : Vec F S2048x1 .f32) (xs1 : Vec F S2048x1 .f32) (y : S2048x1.Idx) :
    ∃ pc ∈ (kernelRun1_B c i arg2 harg2 arg3 harg3 arg4 harg4 arg5 harg5 arg6 harg6 hc0 hc1 x0 x1 xs0 xs1).2.1, y ∈ pc.1.set :=
  View.cover_of_tiledL (kernelRun1_B c i arg2 harg2 arg3 harg3 arg4 harg4 arg5 harg5 arg6 harg6 hc0 hc1 x0 x1 xs0 xs1).2.1 S2048x1.size (by sl_kernel_rfl) y

/-- What it leaves in the running maximum: the pieces read back. -/
def sout1_B_0 (c : Dev nD) (i : grid1.Coords) (arg2 : Memref sig .tc .vmem S2048x64 .bf16) (harg2 : arg2.IsWhole) (arg3 : Memref sig .tc .vmem S64x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond1_0 i) (hc1 : ¬cond1_1 i)
    (x0 : Vec F S2048x64 .bf16) (x1 : Vec F S64x1024 .bf16) (xs0 : Vec F S2048x1 .f32) (xs1 : Vec F S2048x1 .f32) : Vec F S2048x1 .f32 :=
  VS1_0.read (Elt F) (VS1_0.writes (Elt F) VS1_0.junk (kernelRun1_B c i arg2 harg2 arg3 harg3 arg4 harg4 arg5 harg5 arg6 harg6 hc0 hc1 x0 x1 xs0 xs1).2.1)

/-- At a middle column tile the running sum's pieces cover its buffer. -/
theorem scover1_B_1 (c : Dev nD) (i : grid1.Coords) (arg2 : Memref sig .tc .vmem S2048x64 .bf16) (harg2 : arg2.IsWhole) (arg3 : Memref sig .tc .vmem S64x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond1_0 i) (hc1 : ¬cond1_1 i)
    (x0 : Vec F S2048x64 .bf16) (x1 : Vec F S64x1024 .bf16) (xs0 : Vec F S2048x1 .f32) (xs1 : Vec F S2048x1 .f32) (y : S2048x1.Idx) :
    ∃ pc ∈ (kernelRun1_B c i arg2 harg2 arg3 harg3 arg4 harg4 arg5 harg5 arg6 harg6 hc0 hc1 x0 x1 xs0 xs1).2.2.1, y ∈ pc.1.set :=
  View.cover_of_tiledL (kernelRun1_B c i arg2 harg2 arg3 harg3 arg4 harg4 arg5 harg5 arg6 harg6 hc0 hc1 x0 x1 xs0 xs1).2.2.1 S2048x1.size (by sl_kernel_rfl) y

/-- What it leaves in the running sum: the pieces read back. -/
def sout1_B_1 (c : Dev nD) (i : grid1.Coords) (arg2 : Memref sig .tc .vmem S2048x64 .bf16) (harg2 : arg2.IsWhole) (arg3 : Memref sig .tc .vmem S64x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond1_0 i) (hc1 : ¬cond1_1 i)
    (x0 : Vec F S2048x64 .bf16) (x1 : Vec F S64x1024 .bf16) (xs0 : Vec F S2048x1 .f32) (xs1 : Vec F S2048x1 .f32) : Vec F S2048x1 .f32 :=
  VS1_1.read (Elt F) (VS1_1.writes (Elt F) VS1_1.junk (kernelRun1_B c i arg2 harg2 arg3 harg3 arg4 harg4 arg5 harg5 arg6 harg6 hc0 hc1 x0 x1 xs0 xs1).2.2.1)

/-- At a last column tile the one store into the output window covers its block. -/
theorem cover1_C_2 (c : Dev nD) (i : grid1.Coords) (arg2 : Memref sig .tc .vmem S2048x64 .bf16) (harg2 : arg2.IsWhole) (arg3 : Memref sig .tc .vmem S64x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond1_0 i) (hc1 : cond1_1 i)
    (x0 : Vec F S2048x64 .bf16) (x1 : Vec F S64x1024 .bf16) (xs0 : Vec F S2048x1 .f32) (xs1 : Vec F S2048x1 .f32) (y : S2048x1.Idx) :
    ∃ pc ∈ (kernelRun1_C c i arg2 harg2 arg3 harg3 arg4 harg4 arg5 harg5 arg6 harg6 hc0 hc1 x0 x1 xs0 xs1).1, y ∈ pc.1.set :=
  View.cover_of_tiledL (kernelRun1_C c i arg2 harg2 arg3 harg3 arg4 harg4 arg5 harg5 arg6 harg6 hc0 hc1 x0 x1 xs0 xs1).1 S2048x1.size (by sl_kernel_rfl) y

/-- What that case leaves in the output window's staging buffer: its piece read back. -/
def out1_C_2 (c : Dev nD) (i : grid1.Coords) (arg2 : Memref sig .tc .vmem S2048x64 .bf16) (harg2 : arg2.IsWhole) (arg3 : Memref sig .tc .vmem S64x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond1_0 i) (hc1 : cond1_1 i)
    (x0 : Vec F S2048x64 .bf16) (x1 : Vec F S64x1024 .bf16) (xs0 : Vec F S2048x1 .f32) (xs1 : Vec F S2048x1 .f32) : Vec F S2048x1 .f32 :=
  VO1_2.read (Elt F) (VO1_2.writes (Elt F) VO1_2.junk (kernelRun1_C c i arg2 harg2 arg3 harg3 arg4 harg4 arg5 harg5 arg6 harg6 hc0 hc1 x0 x1 xs0 xs1).1)

/-- At a last column tile the running maximum's pieces cover its buffer. -/
theorem scover1_C_0 (c : Dev nD) (i : grid1.Coords) (arg2 : Memref sig .tc .vmem S2048x64 .bf16) (harg2 : arg2.IsWhole) (arg3 : Memref sig .tc .vmem S64x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond1_0 i) (hc1 : cond1_1 i)
    (x0 : Vec F S2048x64 .bf16) (x1 : Vec F S64x1024 .bf16) (xs0 : Vec F S2048x1 .f32) (xs1 : Vec F S2048x1 .f32) (y : S2048x1.Idx) :
    ∃ pc ∈ (kernelRun1_C c i arg2 harg2 arg3 harg3 arg4 harg4 arg5 harg5 arg6 harg6 hc0 hc1 x0 x1 xs0 xs1).2.1, y ∈ pc.1.set :=
  View.cover_of_tiledL (kernelRun1_C c i arg2 harg2 arg3 harg3 arg4 harg4 arg5 harg5 arg6 harg6 hc0 hc1 x0 x1 xs0 xs1).2.1 S2048x1.size (by sl_kernel_rfl) y

/-- What it leaves in the running maximum: the pieces read back. -/
def sout1_C_0 (c : Dev nD) (i : grid1.Coords) (arg2 : Memref sig .tc .vmem S2048x64 .bf16) (harg2 : arg2.IsWhole) (arg3 : Memref sig .tc .vmem S64x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond1_0 i) (hc1 : cond1_1 i)
    (x0 : Vec F S2048x64 .bf16) (x1 : Vec F S64x1024 .bf16) (xs0 : Vec F S2048x1 .f32) (xs1 : Vec F S2048x1 .f32) : Vec F S2048x1 .f32 :=
  VS1_0.read (Elt F) (VS1_0.writes (Elt F) VS1_0.junk (kernelRun1_C c i arg2 harg2 arg3 harg3 arg4 harg4 arg5 harg5 arg6 harg6 hc0 hc1 x0 x1 xs0 xs1).2.1)

/-- At a last column tile the running sum's pieces cover its buffer. -/
theorem scover1_C_1 (c : Dev nD) (i : grid1.Coords) (arg2 : Memref sig .tc .vmem S2048x64 .bf16) (harg2 : arg2.IsWhole) (arg3 : Memref sig .tc .vmem S64x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond1_0 i) (hc1 : cond1_1 i)
    (x0 : Vec F S2048x64 .bf16) (x1 : Vec F S64x1024 .bf16) (xs0 : Vec F S2048x1 .f32) (xs1 : Vec F S2048x1 .f32) (y : S2048x1.Idx) :
    ∃ pc ∈ (kernelRun1_C c i arg2 harg2 arg3 harg3 arg4 harg4 arg5 harg5 arg6 harg6 hc0 hc1 x0 x1 xs0 xs1).2.2.1, y ∈ pc.1.set :=
  View.cover_of_tiledL (kernelRun1_C c i arg2 harg2 arg3 harg3 arg4 harg4 arg5 harg5 arg6 harg6 hc0 hc1 x0 x1 xs0 xs1).2.2.1 S2048x1.size (by sl_kernel_rfl) y

/-- What it leaves in the running sum: the pieces read back. -/
def sout1_C_1 (c : Dev nD) (i : grid1.Coords) (arg2 : Memref sig .tc .vmem S2048x64 .bf16) (harg2 : arg2.IsWhole) (arg3 : Memref sig .tc .vmem S64x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond1_0 i) (hc1 : cond1_1 i)
    (x0 : Vec F S2048x64 .bf16) (x1 : Vec F S64x1024 .bf16) (xs0 : Vec F S2048x1 .f32) (xs1 : Vec F S2048x1 .f32) : Vec F S2048x1 .f32 :=
  VS1_1.read (Elt F) (VS1_1.writes (Elt F) VS1_1.junk (kernelRun1_C c i arg2 harg2 arg3 harg3 arg4 harg4 arg5 harg5 arg6 harg6 hc0 hc1 x0 x1 xs0 xs1).2.2.1)

section Region
-- the TensorCore's buffer contents when the region is entered
variable (V : (c : Dev nD) → (b : Ref sig .tc) → Buf (Elt F) ((c : Thread nD τ).loc b))

/-! ## What the buffers hold after each point -/

/-- THE ACCUMULATION. After the body at position `n`: the output window's staging buffer, the running maximum, the
    running sum. The case is the one the closed forms select at `n`; a case that reads the scratch buffers before
    covering them reads what position `n - 1` left. -/
def outsAt1 (c : Dev nD) : (n : ℕ) → n < cfg1.N → Vec F S2048x1 .f32 × Vec F S2048x1 .f32 × Vec F S2048x1 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.1 (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.1 (outsAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.1 (outsAt1 c n (Nat.lt_of_succ_lt hn)).2.2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2)

/-- `outsAt1` at a first column tile. -/
theorem outsAt1_A (c : Dev nD) (t : Fin cfg1.N) (h0 : t.val % 4 = 0) (h1 : ¬t.val % 4 = 3) :
    outsAt1 V c t.val t.isLt = (out1_A_2 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t), sout1_A_1 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a middle column tile: over what the point before left. -/
theorem outsAt1_B (c : Dev nD) (t : Fin cfg1.N) (h0 : ¬t.val % 4 = 0) (h1 : ¬t.val % 4 = 3) :
    outsAt1 V c t.val t.isLt = (out1_B_2 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last column tile: over what the point before left. -/
theorem outsAt1_C (c : Dev nD) (t : Fin cfg1.N) (h0 : ¬t.val % 4 = 0) (h1 : t.val % 4 = 3) :
    outsAt1 V c t.val t.isLt = (out1_C_2 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the scratch buffers -/

/-- Before position `n`: before the first point every scoped buffer that is no staging buffer of this kernel at
    anything; afterwards the same with the running maximum and the running sum at what the point before left. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2.1) ∗ owns (c : Thread nD τ) scM1_1 fullShare ((outsAt1 V c n hn).2.2) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f)) ∗ (∃ r, prngReg c r))

theorem PhiS1_zero (c : Dev nD) (n : ℕ) (h : n ≤ cfg1.N) (hz : n = 0) : PhiS1 V c n h = Pipeline.ΦA spec1 c := by
  subst hz; rfl

/-- After point `n`: the scratch buffers at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2.1) ∗ owns (c : Thread nD τ) scM1_1 fullShare ((outsAt1 V c n hn).2.2) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f)) ∗ (∃ r, prngReg c r)) := rfl

/-- Before a point that is not the first: the scratch buffers at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c (n - 1) (by omega)).2.1) ∗ owns (c : Thread nD τ) scM1_1 fullShare ((outsAt1 V c (n - 1) (by omega)).2.2) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f)) ∗ (∃ r, prngReg c r)) := by
  cases n with
  | zero => exact absurd rfl hz
  | succ n => rfl

/-! ## The proof data -/

/-- The proof data of this pipeline on core `c`: the arrays as the region finds them; after the body each input's
    buffer at its block and the output's at `outsAt1`'s first component; the invariant `PhiS1`; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; the closed forms say which case the point is in; the
    invariant hands the body the two scratch buffers at what the point before left (at anything before the first
    point) and takes them back at this point's contents, the pieces covering each; the other scoped buffers and the
    generator register pass through; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0 sout1_A_1; (try dsimp only)
      by_cases hz : t.val = 0
      · rw [PhiS1_castSucc V c t, PhiS1_zero V c _ _ hz, PhiA1_eq]
        iintro ⟨⟨⟨HR0, HR1, HR2, HR3, HR4, HS0, HS1, HR7, HR8, HR9, HR10, HR11, HR12, HR13⟩, Hg⟩, Ho, ⟨%d0, H0⟩, ⟨%d1, H1⟩, ⟨%d2, H2⟩⟩
        iapply ((kernelRun1_A c (grid1.coords t) _ _ _ _ _ _ _ _ _ _ ((hcond1_0 t).mpr h0) (fun h => h1 ((hcond1_1 t).mp h)) (iblk1 V c 0 t) (iblk1 V c 1 t)).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HR0 HR1 HR2 HR3 HR4 HS0 HS1 HR7 HR8 HR9 HR10 HR11 HR12 HR13 Hg]
        · isplitl [HR0 HR1 HR2 HR3 HR4 HS0 HS1 HR7 HR8 HR9 HR10 HR11 HR12 HR13]
          · isplitl [HR0]; · iexact HR0
            isplitl [HR1]; · iexact HR1
            isplitl [HR2]; · iexact HR2
            isplitl [HR3]; · iexact HR3
            isplitl [HR4]; · iexact HR4
            isplitl [HS0]
            · unfold owns; iexists _; isplitr
              swap; · iexact HS0
              ipureintro; exact View.read_writes_of_cover _ _ _ _ _ (scover1_A_0 c _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _)
            isplitl [HR7]; · iexact HR7
            isplitl [HR8]; · iexact HR8
            isplitl [HR9]; · iexact HR9
            isplitl [HR10]; · iexact HR10
            isplitl [HR11]; · iexact HR11
            isplitl [HR12]; · iexact HR12
            iexact HR13
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HR0, HR1, HR2, HR3, HR4, HS0, HS1, HR7, HR8, HR9, HR10, HR11, HR12, HR13⟩, Hg⟩, Ho, ⟨%d0, H0⟩, ⟨%d1, H1⟩, ⟨%d2, H2⟩⟩
        iapply ((kernelRun1_A c (grid1.coords t) _ _ _ _ _ _ _ _ _ _ ((hcond1_0 t).mpr h0) (fun h => h1 ((hcond1_1 t).mp h)) (iblk1 V c 0 t) (iblk1 V c 1 t)).2.2.2 _ Set.univ _)
        isplitl [H0]; · iexact H0
        isplitl [H1]; · iexact H1
        isplitl [H2]; · iexact H2
        isplitl [HS0]; · iexists _; iexact HS0
        isplitl [HS1]; · iexists _; iexact HS1
        iintro ⟨H0, H1, H2, ⟨%es0, HS0⟩, ⟨%es1, HS1⟩⟩
        isplitl [HR0 HR1 HR2 HR3 HR4 HS0 HS1 HR7 HR8 HR9 HR10 HR11 HR12 HR13 Hg]
        · isplitl [HR0 HR1 HR2 HR3 HR4 HS0 HS1 HR7 HR8 HR9 HR10 HR11 HR12 HR13]
          · isplitl [HR0]; · iexact HR0
            isplitl [HR1]; · iexact HR1
            isplitl [HR2]; · iexact HR2
            isplitl [HR3]; · iexact HR3
            isplitl [HR4]; · iexact HR4
            isplitl [HS0]
            · unfold owns; iexists _; isplitr
              swap; · iexact HS0
              ipureintro; exact View.read_writes_of_cover _ _ _ _ _ (scover1_A_0 c _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _)
            isplitl [HR7]; · iexact HR7
            isplitl [HR8]; · iexact HR8
            isplitl [HR9]; · iexact HR9
            isplitl [HR10]; · iexact HR10
            isplitl [HR11]; · iexact HR11
            isplitl [HR12]; · iexact HR12
            iexact HR13
          iexact Hg
        isplitl [Ho]; · iexact Ho
        isplitl [H0]; · iexact H0
        isplitl [H1]; · iexact H1
        iexists _; iexact H2
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0 sout1_C_1; (try dsimp only)
      by_cases hz : t.val = 0
      · exfalso; omega
      · rw [PhiS1_castSucc V c t, PhiS1_pos V c _ _ hz]
        iintro ⟨⟨⟨HR0, HR1, HR2, HR3, HR4, HS0, HS1, HR7, HR8, HR9, HR10, HR11, HR12, HR13⟩, Hg⟩, Ho, ⟨%d0, H0⟩, ⟨%d1, H1⟩, ⟨%d2, H2⟩⟩
        iapply ((kernelRun1_C c (grid1.coords t) _ _ _ _ _ _ _ _ _ _ (fun h => h0 ((hcond1_0 t).mp h)) ((hcond1_1 t).mpr h1) (iblk1 V c 0 t) (iblk1 V c 1 t) _ _).2.2.2 Set.univ _)
        isplitl [H0]; · iexact H0
        isplitl [H1]; · iexact H1
        isplitl [H2]; · iexists _; iexact H2
        isplitl [HS0]; · iexact HS0
        isplitl [HS1]; · iexact HS1
        iintro ⟨H0, H1, ⟨%e2, H2⟩, ⟨%es0, HS0⟩, ⟨%es1, HS1⟩⟩
        isplitl [HR0 HR1 HR2 HR3 HR4 HS0 HS1 HR7 HR8 HR9 HR10 HR11 HR12 HR13 Hg]
        · isplitl [HR0 HR1 HR2 HR3 HR4 HS0 HS1 HR7 HR8 HR9 HR10 HR11 HR12 HR13]
          · isplitl [HR0]; · iexact HR0
            isplitl [HR1]; · iexact HR1
            isplitl [HR2]; · iexact HR2
            isplitl [HR3]; · iexact HR3
            isplitl [HR4]; · iexact HR4
            isplitl [HS0]
            · unfold owns; iexists _; isplitr
              swap; · iexact HS0
              ipureintro; exact View.read_writes_of_cover _ _ _ _ _ (scover1_C_0 c _ _ _ _ _ _ _ _ _ _ _ _ _ _ _ _ _)
            isplitl [HS1]
            · unfold owns; iexists _; isplitr
              swap; · iexact HS1
              ipureintro; exact View.read_writes_of_cover _ _ _ _ _ (scover1_C_1 c _ _ _ _ _ _ _ _ _ _ _ _ _ _ _ _ _)
            isplitl [HR7]; · iexact HR7
            isplitl [HR8]; · iexact HR8
            isplitl [HR9]; · iexact HR9
            isplitl [HR10]; · iexact HR10
            isplitl [HR11]; · iexact HR11
            isplitl [HR12]; · iexact HR12
            iexact HR13
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0 sout1_B_1; (try dsimp only)
      by_cases hz : t.val = 0
      · exfalso; omega
      · rw [PhiS1_castSucc V c t, PhiS1_pos V c _ _ hz]
        iintro ⟨⟨⟨HR0, HR1, HR2, HR3, HR4, HS0, HS1, HR7, HR8, HR9, HR10, HR11, HR12, HR13⟩, Hg⟩, Ho, ⟨%d0, H0⟩, ⟨%d1, H1⟩, ⟨%d2, H2⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) _ _).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HR0 HR1 HR2 HR3 HR4 HS0 HS1 HR7 HR8 HR9 HR10 HR11 HR12 HR13 Hg]
        · isplitl [HR0 HR1 HR2 HR3 HR4 HS0 HS1 HR7 HR8 HR9 HR10 HR11 HR12 HR13]
          · isplitl [HR0]; · iexact HR0
            isplitl [HR1]; · iexact HR1
            isplitl [HR2]; · iexact HR2
            isplitl [HR3]; · iexact HR3
            isplitl [HR4]; · iexact HR4
            isplitl [HS0]
            · unfold owns; iexists _; isplitr
              swap; · iexact HS0
              ipureintro; exact View.read_writes_of_cover _ _ _ _ _ (scover1_B_0 c _ _ _ _ _ _ _ _ _ _ _ _ _ _ _ _ _)
            isplitl [HS1]
            · unfold owns; iexists _; isplitr
              swap; · iexact HS1
              ipureintro; exact View.read_writes_of_cover _ _ _ _ _ (scover1_B_1 c _ _ _ _ _ _ _ _ _ _ _ _ _ _ _ _ _)
            isplitl [HR7]; · iexact HR7
            isplitl [HR8]; · iexact HR8
            isplitl [HR9]; · iexact HR9
            isplitl [HR10]; · iexact HR10
            isplitl [HR11]; · iexact HR11
            isplitl [HR12]; · iexact HR12
            iexact HR13
          iexact Hg
        isplitl [Ho]; · iexact Ho
        isplitl [H0]; · iexact H0
        isplitl [H1]; · iexact H1
        iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: what the scratch buffers hold is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HS0, HS1, HR7, HR8, HR9, HR10, HR11, HR12, HR13⟩, Hg⟩
  isplitl [HR0 HR1 HR2 HR3 HR4 HS0 HS1 HR7 HR8 HR9 HR10 HR11 HR12 HR13]
  · isplitl [HR0]; · iexact HR0
    isplitl [HR1]; · iexact HR1
    isplitl [HR2]; · iexact HR2
    isplitl [HR3]; · iexact HR3
    isplitl [HR4]; · iexact HR4
    isplitl [HS0]
    · iexists _; iexact HS0
    isplitl [HS1]
    · iexists _; iexact HS1
    isplitl [HR7]; · iexact HR7
    isplitl [HR8]; · iexact HR8
    isplitl [HR9]; · iexact HR9
    isplitl [HR10]; · iexact HR10
    isplitl [HR11]; · iexact HR11
    isplitl [HR12]; · iexact HR12
    iexact HR13
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Region

end Cert.Kernel.Fr

end
-- ==== Proof.Kernel.Region2.lean ====
/- The last matrix product with the residual added (out = ov·Woᵀ + x, a row block of ov against the whole of Woᵀ, plus the same row block of x, per grid point), as one pipelined region of the program: what each of its windows holds at a grid
    point, what the body leaves in the output window's buffer, the body's Hoare triple, and the proof data the
    pipeline's frame theorem takes — all stated at a PARAMETER `V`, the contents of the core's buffers when the
    region is entered. -/
import proofs.«145297_j7275674600023_1_alg».proof.Proof.Gen.Kernel.Launch
import proofs.«145297_j7275674600023_1_alg».proof.Proof.Gen.Kernel.Skeleton
import proofs.«145297_j7275674600023_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with extents in the thousands is decided by a structural
-- recursion one step per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The windows' blocks -/

/-- The block of window `w` at grid point `t`: the window's index map applied to the point selects a
    sub-rectangle of the window's array, read here off the entry contents `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0: at every grid point its current staging buffer holds the window's block at that point,
    whether the pipeline fetched it there or kept it from an earlier point (then the block index has not moved
    since the fetch). Holds for any proof data whose array is `V`'s and whose body leaves the input in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1: at every grid point its current staging buffer holds the window's block at that point,
    whether the pipeline fetched it there or kept it from an earlier point (then the block index has not moved
    since the fetch). Holds for any proof data whose array is `V`'s and whose body leaves the input in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2: at every grid point its current staging buffer holds the window's block at that point,
    whether the pipeline fetched it there or kept it from an earlier point (then the block index has not moved
    since the fetch). Holds for any proof data whose array is `V`'s and whose body leaves the input in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole staging buffer -/

abbrev r2_0 : Rect S512x1024 := Rect.unit (s := S512x1024) ![0, 0] S512x1024.size inb_S512x1024_S512x1024_0_0
abbrev r2_1 : Rect S1024x2048 := Rect.unit (s := S1024x2048) ![0, 0] S1024x2048.size inb_S1024x2048_S1024x2048_0_0
abbrev r2_2 : Rect S512x2048 := Rect.unit (s := S512x2048) ![0, 0] S512x2048.size inb_S512x2048_S512x2048_0_0
abbrev r2_3 : Rect S512x2048 := Rect.unit (s := S512x2048) ![0, 0] S512x2048.size inb_S512x2048_S512x2048_0_0

/-! ## What the body leaves in the output window's buffer -/

/-- The output buffer after the body, as a function of the input buffers: the body's single store covers the
    whole buffer with the payload computed from the loaded inputs. -/
def out2_3 (x0 : Vec F S512x1024 .bf16) (x1 : Vec F S1024x2048 .bf16) (x2 : Vec F S512x2048 .f32) : Vec F S512x2048 .f32 :=
  View.canon [⟨r2_3, k2_pay1 (View.ld x0 r2_0) (View.ld x1 r2_1) (View.ld x2 r2_2)⟩]

/-- The one store's rectangle is the whole buffer, so every index of the buffer lies in it. -/
theorem cover2_3 (p0 : Vec F S512x2048 .f32) (y : S512x2048.Idx) :
    ∃ pc ∈ ([⟨r2_3, p0⟩] : List (View.Piece (Elt F) S512x2048 .f32)), y ∈ pc.1.set :=
  View.cover_of_tiled [⟨r2_3, p0⟩] S512x2048.size (by rfl) y

/-! ## The body's triple -/

set_option maxHeartbeats 1000000 in
/-- The body run on whole staging buffers — the inputs' at known contents, the output's at anything — ends with
    the inputs' unchanged and the output's at `out2_3` of the inputs: the body is a sequence of whole-buffer
    loads followed by one whole-buffer store (it also loads the output buffer, a value it never uses). -/
theorem sound_kernel2 (c : Dev nD) (E : Set ℕ) (i : grid2.Coords) (arg1 : Memref sig .tc .vmem S512x1024 .bf16) (harg1 : arg1.IsWhole) (arg2 : Memref sig .tc .vmem S1024x2048 .bf16) (harg2 : arg2.IsWhole) (arg3 : Memref sig .tc .vmem S512x2048 .f32) (harg3 : arg3.IsWhole) (arg4 : Memref sig .tc .vmem S512x2048 .f32) (harg4 : arg4.IsWhole)
    (x0 : Vec F S512x1024 .bf16) (x1 : Vec F S1024x2048 .bf16) (x2 : Vec F S512x2048 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__combine_kernel i arg1 harg1 arg2 harg2 arg3 harg3 arg4 harg4) K := by
  simp only [cc2__combine_kernel_eq_skeleton]; unfold cc2__combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The region's proof data on core `c`: the windows' arrays as the region finds them; after the body at point
    `t` every input buffer still at its block and the output buffer at `out2_3` of the input blocks; the
    invariant carried between points is the region-independent one (the other scoped buffers and the generator
    register, untouched); full shares; nothing owed to another core. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`: the invariant, the core's debts, and each window's current staging
    buffer at what the pipeline put there, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns: the same, each buffer at what the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the invariant and
    the debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.Kernel.Main.lean ====
/- The program's whole run. @main is six segments: a stretch of host operations before each of the three pipelined
   regions. The contents of a core's buffers at the seven segment boundaries are written as a fold from the launch
   memory (a host stretch applies its operations; a region replaces its windows' arrays by what its write-backs
   leave and keeps every other buffer); each region's proof data is taken at its entry contents; the segments are
   chained into the run of @main; and every argument array is read back through the fold to its launch contents. -/
import proofs.«145297_j7275674600023_1_alg».proof.Proof.Gen.Kernel.Launch
import proofs.«145297_j7275674600023_1_alg».proof.Proof.Gen.Kernel.Skeleton
import proofs.«145297_j7275674600023_1_alg».proof.Proof.Gen.Kernel.Points
import proofs.«145297_j7275674600023_1_alg».proof.Proof.Kernel.Region0
import proofs.«145297_j7275674600023_1_alg».proof.Proof.Kernel.Region1
import proofs.«145297_j7275674600023_1_alg».proof.Proof.Kernel.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with extents in the thousands is decided by a structural
-- recursion one step per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)

/-- After the host stretch `hostOps0`: what region 0 is entered from. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- At region 0's exit: each of its windows' arrays at what the pipeline leaves there (an input as entered, an
    output with every write-back folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references. -/
abbrev V2 : (c : Dev nD) → (b : Ref sig .tc) → Buf (Elt F) ((c : Thread nD τ).loc b) := fun c b => W2 m ρ c b
/-- At region 0's exit its arrays hold what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1`: what region 1 is entered from. -/
abbrev W3 : Dev nD → Valuation τ sig (Elt F) := fun c => StableHlo.after hostOps1 (W2 m ρ c)
/-- The same, read at the TensorCore's references. -/
abbrev V3 : (c : Dev nD) → (b : Ref sig .tc) → Buf (Elt F) ((c : Thread nD τ).loc b) := fun c b => W3 m ρ c b
/-- At region 1's exit: each of its windows' arrays at what the pipeline leaves there (an input as entered, an
    output with every write-back folded in), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, read at the TensorCore's references. -/
abbrev V4 : (c : Dev nD) → (b : Ref sig .tc) → Buf (Elt F) ((c : Thread nD τ).loc b) := fun c b => W4 m ρ c b
/-- At region 1's exit its arrays hold what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2`: what region 2 is entered from. -/
abbrev W5 : Dev nD → Valuation τ sig (Elt F) := fun c => StableHlo.after hostOps2 (W4 m ρ c)
/-- The same, read at the TensorCore's references. -/
abbrev V5 : (c : Dev nD) → (b : Ref sig .tc) → Buf (Elt F) ((c : Thread nD τ).loc b) := fun c b => W5 m ρ c b
/-- At region 2's exit: each of its windows' arrays at what the pipeline leaves there (an input as entered, an
    output with every write-back folded in), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same, read at the TensorCore's references. -/
abbrev V6 : (c : Dev nD) → (b : Ref sig .tc) → Buf (Elt F) ((c : Thread nD τ).loc b) := fun c b => W6 m ρ c b
/-- At region 2's exit its arrays hold what the pipeline leaves, and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The arguments end as launched

No host operation writes an argument array, and no region writes one either: a region either stages it through an
input window (never written back) or does not touch it. So the fold, read at an argument's buffer, walks back to the
launch memory — stated at every boundary, each the one before it and one more step. -/

/-- A reference no operation of a host stretch writes keeps its contents across the stretch: each operation writes
    one named buffer, distinct from the reference. -/
local macro "host_keeps" : tactic => `(tactic| (
  simp only [hostOps0, hostOps1, hostOps2, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ### `main_arg0` (staged by region 2 through an input window, never written back; the other regions do not touch it) -/

theorem W1_main_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by host_keeps))
    _ = m ((c : Thread nD τ).loc main_arg0) := rfl
theorem W2_main_arg0 (c : Dev nD) : W2 m ρ c (Proc.devRef .tc main_arg0) = m ((c : Thread nD τ).loc main_arg0) :=
  (W2_of_ne m ρ c main_arg0 (by decide)).trans (W1_main_arg0 m ρ c)
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by host_keeps))
    _ = m ((c : Thread nD τ).loc main_arg0) := W2_main_arg0 m ρ c
theorem W4_main_arg0 (c : Dev nD) : W4 m ρ c (Proc.devRef .tc main_arg0) = m ((c : Thread nD τ).loc main_arg0) :=
  (W4_of_ne m ρ c main_arg0 (by decide)).trans (W3_main_arg0 m ρ c)
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by host_keeps))
    _ = m ((c : Thread nD τ).loc main_arg0) := W4_main_arg0 m ρ c
theorem W6_main_arg0 (c : Dev nD) : W6 m ρ c (Proc.devRef .tc main_arg0) = m ((c : Thread nD τ).loc main_arg0) :=
  ((W6_arr m ρ c 2).trans (((dat2 (V5 m ρ) c).arrAt_in 2 rfl _).trans (A_eq2 (V5 m ρ) c 2))).trans (W5_main_arg0 m ρ c)

/-! ### `main_arg1` (no region touches it) -/

theorem W1_main_arg1 (c : Dev nD) : W1 m ρ c (Proc.devRef .tc main_arg1) = m ((c : Thread nD τ).loc main_arg1) :=
  calc W1 m ρ c (Proc.devRef .tc main_arg1)
    _ = W0 m ρ c (Proc.devRef .tc main_arg1) := StableHlo.after_of_forall_not_mem (b := Proc.devRef .tc main_arg1) _ _ (List.forall_iff_forall_mem.mp (by host_keeps))
    _ = m ((c : Thread nD τ).loc main_arg1) := rfl
theorem W2_main_arg1 (c : Dev nD) : W2 m ρ c (Proc.devRef .tc main_arg1) = m ((c : Thread nD τ).loc main_arg1) :=
  (W2_of_ne m ρ c main_arg1 (by decide)).trans (W1_main_arg1 m ρ c)
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by host_keeps))
    _ = m ((c : Thread nD τ).loc main_arg1) := W2_main_arg1 m ρ c
theorem W4_main_arg1 (c : Dev nD) : W4 m ρ c (Proc.devRef .tc main_arg1) = m ((c : Thread nD τ).loc main_arg1) :=
  (W4_of_ne m ρ c main_arg1 (by decide)).trans (W3_main_arg1 m ρ c)
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_forall_not_mem (b := Proc.devRef .tc main_arg1) _ _ (List.forall_iff_forall_mem.mp (by host_keeps))
    _ = m ((c : Thread nD τ).loc main_arg1) := W4_main_arg1 m ρ c
theorem W6_main_arg1 (c : Dev nD) : W6 m ρ c (Proc.devRef .tc main_arg1) = m ((c : Thread nD τ).loc main_arg1) :=
  (W6_of_ne m ρ c main_arg1 (by decide)).trans (W5_main_arg1 m ρ c)

/-! ### `main_arg2` (no region touches it) -/

theorem W1_main_arg2 (c : Dev nD) : W1 m ρ c (Proc.devRef .tc main_arg2) = m ((c : Thread nD τ).loc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by host_keeps))
    _ = m ((c : Thread nD τ).loc main_arg2) := rfl
theorem W2_main_arg2 (c : Dev nD) : W2 m ρ c (Proc.devRef .tc main_arg2) = m ((c : Thread nD τ).loc main_arg2) :=
  (W2_of_ne m ρ c main_arg2 (by decide)).trans (W1_main_arg2 m ρ c)
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by host_keeps))
    _ = m ((c : Thread nD τ).loc main_arg2) := W2_main_arg2 m ρ c
theorem W4_main_arg2 (c : Dev nD) : W4 m ρ c (Proc.devRef .tc main_arg2) = m ((c : Thread nD τ).loc main_arg2) :=
  (W4_of_ne m ρ c main_arg2 (by decide)).trans (W3_main_arg2 m ρ c)
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_forall_not_mem (b := Proc.devRef .tc main_arg2) _ _ (List.forall_iff_forall_mem.mp (by host_keeps))
    _ = m ((c : Thread nD τ).loc main_arg2) := W4_main_arg2 m ρ c
theorem W6_main_arg2 (c : Dev nD) : W6 m ρ c (Proc.devRef .tc main_arg2) = m ((c : Thread nD τ).loc main_arg2) :=
  (W6_of_ne m ρ c main_arg2 (by decide)).trans (W5_main_arg2 m ρ c)

/-! ### `main_arg3` (no region touches it) -/

theorem W1_main_arg3 (c : Dev nD) : W1 m ρ c (Proc.devRef .tc main_arg3) = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by host_keeps))
    _ = m ((c : Thread nD τ).loc main_arg3) := rfl
theorem W2_main_arg3 (c : Dev nD) : W2 m ρ c (Proc.devRef .tc main_arg3) = m ((c : Thread nD τ).loc main_arg3) :=
  (W2_of_ne m ρ c main_arg3 (by decide)).trans (W1_main_arg3 m ρ c)
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by host_keeps))
    _ = m ((c : Thread nD τ).loc main_arg3) := W2_main_arg3 m ρ c
theorem W4_main_arg3 (c : Dev nD) : W4 m ρ c (Proc.devRef .tc main_arg3) = m ((c : Thread nD τ).loc main_arg3) :=
  (W4_of_ne m ρ c main_arg3 (by decide)).trans (W3_main_arg3 m ρ c)
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_forall_not_mem (b := Proc.devRef .tc main_arg3) _ _ (List.forall_iff_forall_mem.mp (by host_keeps))
    _ = m ((c : Thread nD τ).loc main_arg3) := W4_main_arg3 m ρ c
theorem W6_main_arg3 (c : Dev nD) : W6 m ρ c (Proc.devRef .tc main_arg3) = m ((c : Thread nD τ).loc main_arg3) :=
  (W6_of_ne m ρ c main_arg3 (by decide)).trans (W5_main_arg3 m ρ c)

/-! ### `main_arg4` (no region touches it) -/

theorem W1_main_arg4 (c : Dev nD) : W1 m ρ c (Proc.devRef .tc main_arg4) = m ((c : Thread nD τ).loc main_arg4) :=
  calc W1 m ρ c (Proc.devRef .tc main_arg4)
    _ = W0 m ρ c (Proc.devRef .tc main_arg4) := StableHlo.after_of_forall_not_mem (b := Proc.devRef .tc main_arg4) _ _ (List.forall_iff_forall_mem.mp (by host_keeps))
    _ = m ((c : Thread nD τ).loc main_arg4) := rfl
theorem W2_main_arg4 (c : Dev nD) : W2 m ρ c (Proc.devRef .tc main_arg4) = m ((c : Thread nD τ).loc main_arg4) :=
  (W2_of_ne m ρ c main_arg4 (by decide)).trans (W1_main_arg4 m ρ c)
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := StableHlo.after_of_forall_not_mem (b := Proc.devRef .tc main_arg4) _ _ (List.forall_iff_forall_mem.mp (by host_keeps))
    _ = m ((c : Thread nD τ).loc main_arg4) := W2_main_arg4 m ρ c
theorem W4_main_arg4 (c : Dev nD) : W4 m ρ c (Proc.devRef .tc main_arg4) = m ((c : Thread nD τ).loc main_arg4) :=
  (W4_of_ne m ρ c main_arg4 (by decide)).trans (W3_main_arg4 m ρ c)
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_forall_not_mem (b := Proc.devRef .tc main_arg4) _ _ (List.forall_iff_forall_mem.mp (by host_keeps))
    _ = m ((c : Thread nD τ).loc main_arg4) := W4_main_arg4 m ρ c
theorem W6_main_arg4 (c : Dev nD) : W6 m ρ c (Proc.devRef .tc main_arg4) = m ((c : Thread nD τ).loc main_arg4) :=
  (W6_of_ne m ρ c main_arg4 (by decide)).trans (W5_main_arg4 m ρ c)

/-! ## The proof data family and the thread state -/

/-- The prefetched tables' admissible contents: no region has a table. -/
abbrev adm : (p : Fin 3) → (pcfgs (F := F) p).Adm := fun p => (cfgs p).toPCfg_adm
/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and its debts,
    which are none. -/
abbrev R (c : Dev nD) : sProp 𝕄 := iprop((∃ r, prngReg c r) ∗ ∃ W, owes (c : Thread nD τ) (0 : CellTallies nD τ sig Unit) W)
/-- A host stretch as a segment: from every unscoped buffer held at `W` to every unscoped buffer held at the
    stretch's operations applied to `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator
    register at some state. -/
abbrev Tₙ (c : Dev nD) : sProp 𝕄 := iprop(StableHlo.held (c : Thread nD τ) (Pipeline.ucRefs τ sig) (W6 m ρ c) ∗ ∃ r, prngReg c r)

/-! ## The regions as segments -/

-- applying a library lemma stated over the pinned configuration needs unification to unfold plain definitions in a
-- metavariable's type
set_option backward.isDefEq.respectTransparency.types false in
/-- REGION 0 over the thread state: entered from every unscoped buffer at `W1`, left at `W2`. Its windows'
    arrays are split out of the unscoped buffers at entry and put back at the exit contents; the generator register and the other
    scoped buffers are the region's invariant, unchanged throughout; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration needs unification to unfold plain definitions in a
-- metavariable's type
set_option backward.isDefEq.respectTransparency.types false in
/-- REGION 1 over the thread state: entered from every unscoped buffer at `W3`, left at `W4`. Its windows'
    arrays are split out of the unscoped buffers at entry and put back at the exit contents; the generator register and the other
    scoped buffers enter the region's own invariant at the first point (through the region-independent one) and
    come back from it at the last; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (fun w => A_eq1 (V3 m ρ) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    have h := hin1 (V3 m ρ) c
    unfold Pipeline.ΦA at h
    iintro ⟨Hp, -, Hr⟩
    iapply h
    isplitl [Hr]; · iexact Hr
    iexact Hp
  hout c := by
    rw [Pipeline.ownSems0_none, show (pdats m ρ 1 c).Φ (Fin.last _) = (dat1 (V3 m ρ) c).Φ (Fin.last cfg1.N) from rfl]
    have h := hout1 (V3 m ρ) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration needs unification to unfold plain definitions in a
-- metavariable's type
set_option backward.isDefEq.respectTransparency.types false in
/-- REGION 2 over the thread state: entered from every unscoped buffer at `W5`, left at `W6`. Its windows'
    arrays are split out of the unscoped buffers at entry and put back at the exit contents; the generator register and the other
    scoped buffers are the region's invariant, unchanged throughout; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order: a host stretch from its boundary's contents, then the region it leads to. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- @main is the run of the segments: it is the chain of its items, and the segments' run unfolds to that chain. -/
theorem main_run (c : Dev nD) : main (F := F) c = Pipeline.Seg.run (segs m ρ) := (main_chain c).trans (by chain_rfl)

-- the launch theorem's implicit arguments are found by unifying its conclusion with this one, which needs unfolding
-- plain definitions in a metavariable's type
set_option backward.isDefEq.respectTransparency.types false in
/-- THE RUN. From any memory with zero counters, every weakly fair execution of @main on the TensorCores terminates
    without a fault, and in every final state each core's unscoped buffers hold the last boundary's contents `W6`:
    the launch over the six segments, whose thread states chain by construction, the last one read against the final
    state. -/
theorem run_all : θ_run defs (onTc (τ := τ) (main (F := F))) ⟨m, fun _ => 0, ρ⟩ (fun r => ∀ c : Dev nD, ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- THE FRAME: every run terminates without a fault and every argument array ends at its launch contents — the run's
    final buffers are `W6`, which at each argument is the launch memory. -/
theorem frame : θ_run defs (onTc (τ := τ) (main (F := F))) ⟨m, fun _ => 0, ρ⟩ (fun r => ∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4)) :=
  (θ_run defs _ _).mono (fun r h c =>
    ⟨(h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c)⟩) (run_all m ρ)

end Cert.Kernel.Fr

end
-- ==== Proof.KernelIdeal.Region0.lean ====
/- The first matrix product (q = x·Wqᵀ, a row block of x against the whole of Wqᵀ per grid point), as one pipelined region of the program: what each of its windows holds at a grid
    point, what the body leaves in the output window's buffer, the body's Hoare triple, and the proof data the
    pipeline's frame theorem takes — all stated at a PARAMETER `V`, the contents of the core's buffers when the
    region is entered. -/
import proofs.«145297_j7275674600023_1_alg».proof.Proof.Gen.KernelIdeal.Launch
import proofs.«145297_j7275674600023_1_alg».proof.Proof.Gen.KernelIdeal.Skeleton
import proofs.«145297_j7275674600023_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with extents in the thousands is decided by a structural
-- recursion one step per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The windows' blocks -/

/-- The block of window `w` at grid point `t`: the window's index map applied to the point selects a
    sub-rectangle of the window's array, read here off the entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: at every grid point its current staging buffer holds the window's block at that point,
    whether the pipeline fetched it there or kept it from an earlier point (then the block index has not moved
    since the fetch). Holds for any proof data whose array is `V`'s and whose body leaves the input in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1: at every grid point its current staging buffer holds the window's block at that point,
    whether the pipeline fetched it there or kept it from an earlier point (then the block index has not moved
    since the fetch). Holds for any proof data whose array is `V`'s and whose body leaves the input in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole staging buffer -/

abbrev r0_0 : Rect S512x2048 := Rect.unit (s := S512x2048) ![0, 0] S512x2048.size inb_S512x2048_S512x2048_0_0
abbrev r0_1 : Rect S2048x512 := Rect.unit (s := S2048x512) ![0, 0] S2048x512.size inb_S2048x512_S2048x512_0_0
abbrev r0_2 : Rect S512x512 := Rect.unit (s := S512x512) ![0, 0] S512x512.size inb_S512x512_S512x512_0_0

/-! ## What the body leaves in the output window's buffer -/

/-- The output buffer after the body, as a function of the input buffers: the body's single store covers the
    whole buffer with the payload computed from the loaded inputs. -/
def out0_2 (x0 : Vec F S512x2048 .bf16) (x1 : Vec F S2048x512 .bf16) : Vec F S512x512 .f32 :=
  View.canon [⟨r0_2, k0_pay1 (View.ld x0 r0_0) (View.ld x1 r0_1)⟩]

/-- The one store's rectangle is the whole buffer, so every index of the buffer lies in it. -/
theorem cover0_2 (p0 : Vec F S512x512 .f32) (y : S512x512.Idx) :
    ∃ pc ∈ ([⟨r0_2, p0⟩] : List (View.Piece (Elt F) S512x512 .f32)), y ∈ pc.1.set :=
  View.cover_of_tiled [⟨r0_2, p0⟩] S512x512.size (by rfl) y

/-! ## The body's triple -/

set_option maxHeartbeats 1000000 in
/-- The body run on whole staging buffers — the inputs' at known contents, the output's at anything — ends with
    the inputs' unchanged and the output's at `out0_2` of the inputs: the body is a sequence of whole-buffer
    loads followed by one whole-buffer store (it also loads the output buffer, a value it never uses). -/
theorem sound_kernel0 (c : Dev nD) (E : Set ℕ) (i : grid0.Coords) (arg1 : Memref sig .tc .vmem S512x2048 .bf16) (harg1 : arg1.IsWhole) (arg2 : Memref sig .tc .vmem S2048x512 .bf16) (harg2 : arg2.IsWhole) (arg3 : Memref sig .tc .vmem S512x512 .f32) (harg3 : arg3.IsWhole)
    (x0 : Vec F S512x2048 .bf16) (x1 : Vec F S2048x512 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__qproj_kernel i arg1 harg1 arg2 harg2 arg3 harg3) K := by
  simp only [cc0__qproj_kernel_eq_skeleton]; unfold cc0__qproj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The region's proof data on core `c`: the windows' arrays as the region finds them; after the body at point
    `t` every input buffer still at its block and the output buffer at `out0_2` of the input blocks; the
    invariant carried between points is the region-independent one (the other scoped buffers and the generator
    register, untouched); full shares; nothing owed to another core. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`: the invariant, the core's debts, and each window's current staging
    buffer at what the pipeline put there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns: the same, each buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and
    the debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KernelIdeal.Region1Runs.lean ====
import proofs.«145297_j7275674600023_1_alg».proof.Proof.Gen.KernelIdeal.Launch
import proofs.«145297_j7275674600023_1_alg».proof.Proof.Gen.KernelIdeal.Skeleton
import proofs.«145297_j7275674600023_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the online softmax row-sum kernel on the grid (16, 4) — what its three cases share

The kernel walks 4 column tiles per row tile. Two scratch buffers persist between grid points: the running row
maximum and the running row sum. At the first column tile of a row tile both are re-initialised; at every tile
both are updated from the tile's scores; at the last column tile the output block is stored. -/

section Blocks
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the query rows) holds its block at every point, fetched there or not: within a row tile the block
    index does not move, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the key columns) holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The body's two branch conditions, in closed form -/

/-- The first conditional's condition (the column-tile index is 0), from the grid coordinates. -/
abbrev cond1_0 (i : grid1.Coords) : Prop := (Scalar.cmpi .ne (Scalar.extui (Scalar.cmpi .eq (BitVec.ofNat 32 (i 1).val) 0#32)) 0#32) = 1#1
/-- It holds exactly at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional's condition (the column-tile index is 3, the last). -/
abbrev cond1_1 (i : grid1.Coords) : Prop := k1_cond2 i = 1#1
/-- It holds exactly at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- The two inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- At a first column tile the output window is idle and not written back. -/
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
/-- At a middle column tile likewise. -/
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
/-- At a last column tile the output window is live: the body stores into it. -/
theorem liveAt1_2_C : ∀ t : Fin cfg1.N, ¬cond1_0 (grid1.coords t) → cond1_1 (grid1.coords t) → cfg1.idle 2 (grid1.coords t) = false := by decide +kernel

/-! ## The memrefs the body is called with -/

/-- One staging buffer of the output window, through which its contents are stated. -/
abbrev VO1_2 : View sig .tc .vmem S2048x1 .f32 := (Memref.whole cc1_stg2_0 : Memref sig .tc .vmem S2048x1 .f32).view
/-- Each window's current staging memref at point `t`, and its wholeness. -/
abbrev ms1_0 (t : Fin cfg1.N) : Memref sig .tc .vmem S2048x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .f32 := win1_2.stage (cfg1.slots t 2)
abbrev hs1_2 (t : Fin cfg1.N) : (ms1_2 t).IsWhole := hstage1_2 ((cfg1.slots t 2).cast nbuf1_2)
/-- The two scratch operands: the running row maximum and the running row sum. -/
abbrev scM1_0 : Memref sig .tc .vmem S2048x1 .f32 := Memref.whole cc1_scratch0
abbrev scM1_1 : Memref sig .tc .vmem S2048x1 .f32 := Memref.whole cc1_scratch1
/-- The same as views: what they hold is stated through these. -/
abbrev VS1_0 : View sig .tc .vmem S2048x1 .f32 := scM1_0.view
abbrev VS1_1 : View sig .tc .vmem S2048x1 .f32 := scM1_1.view

/-- The region invariant with the two scratch operands as memrefs owned at some contents; the other scoped buffers
    (the other two kernels' staging buffers) stay as they are. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ d, owns (c : Thread nD τ) scM1_1 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f)) ∗ (∃ r, prngReg c r)) := by
  unfold Pipeline.ΦA; rw [scopedRest1_eq]; simp only [scM1_0, scM1_1, owns_whole]; try rfl

end Cert.KernelIdeal.Fr

end
-- ==== Proof.KernelIdeal.Region1RunA.lean ====
import proofs.«145297_j7275674600023_1_alg».proof.Proof.KernelIdeal.Region1Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a FIRST column tile (first conditional taken, second not). On whole memrefs — the two inputs at their
    blocks, the output buffer at contents handed back untouched, the two scratch buffers at anything — it runs to the
    continuation with the inputs and the output buffer as they were and each scratch buffer with the listed pieces
    written (last first): the re-initialisation, then the update. The piece lists are found by the run. -/
noncomputable def kernelRun1_A (c : Dev nD) (i : grid1.Coords) (arg2 : Memref sig .tc .vmem S2048x64 .bf16) (harg2 : arg2.IsWhole) (arg3 : Memref sig .tc .vmem S64x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond1_0 i) (hc1 : ¬cond1_1 i)
    (x0 : Vec F S2048x64 .bf16) (x1 : Vec F S64x1024 .bf16) :
    Σ' (L2 : List (View.Piece (Elt F) S2048x1 .f32)), Σ' (LS0 : List (View.Piece (Elt F) S2048x1 .f32)), { LS1 : List (View.Piece (Elt F) S2048x1 .f32) //
      ∀ (xi2 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__softsum_kernel i arg2 harg2 arg3 harg3 arg4 harg4 arg5 harg5 arg6 harg6) K } := by
  refine ⟨[], ?_, ?_, fun xi2 E K => ?run⟩
  case run =>
    simp only [cc1__softsum_kernel_eq_skeleton]; unfold cc1__softsum_kernel_skel
    simp only [k1_part1_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Fr

end
-- ==== Proof.KernelIdeal.Region1RunB.lean ====
import proofs.«145297_j7275674600023_1_alg».proof.Proof.KernelIdeal.Region1RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a MIDDLE column tile (neither conditional taken). On whole memrefs — the two inputs at their blocks, the
    output buffer at contents handed back untouched, the two scratch buffers at what the point before left — it runs to
    the continuation with the inputs and the output buffer as they were and each scratch buffer with the listed pieces
    written: the update. The piece lists are found by the run. -/
noncomputable def kernelRun1_B (c : Dev nD) (i : grid1.Coords) (arg2 : Memref sig .tc .vmem S2048x64 .bf16) (harg2 : arg2.IsWhole) (arg3 : Memref sig .tc .vmem S64x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond1_0 i) (hc1 : ¬cond1_1 i)
    (x0 : Vec F S2048x64 .bf16) (x1 : Vec F S64x1024 .bf16) (xs0 : Vec F S2048x1 .f32) (xs1 : Vec F S2048x1 .f32) :
    Σ' (L2 : List (View.Piece (Elt F) S2048x1 .f32)), Σ' (LS0 : List (View.Piece (Elt F) S2048x1 .f32)), { LS1 : List (View.Piece (Elt F) S2048x1 .f32) //
      ∀ (xi2 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__softsum_kernel i arg2 harg2 arg3 harg3 arg4 harg4 arg5 harg5 arg6 harg6) K } := by
  refine ⟨[], ?_, ?_, fun xi2 E K => ?run⟩
  case run =>
    simp only [cc1__softsum_kernel_eq_skeleton]; unfold cc1__softsum_kernel_skel
    simp only [k1_part1_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Fr

end
-- ==== Proof.KernelIdeal.Region1RunC.lean ====
import proofs.«145297_j7275674600023_1_alg».proof.Proof.KernelIdeal.Region1RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a LAST column tile (first conditional not taken, second taken). On whole memrefs — the two inputs at
    their blocks, the output buffer at anything, the two scratch buffers at what the point before left — it runs to the
    continuation with the inputs as they were, each scratch buffer with the listed pieces written (the update) and the
    output buffer with its listed piece written (the final sum divided by itself). The piece lists are found by the run. -/
noncomputable def kernelRun1_C (c : Dev nD) (i : grid1.Coords) (arg2 : Memref sig .tc .vmem S2048x64 .bf16) (harg2 : arg2.IsWhole) (arg3 : Memref sig .tc .vmem S64x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond1_0 i) (hc1 : cond1_1 i)
    (x0 : Vec F S2048x64 .bf16) (x1 : Vec F S64x1024 .bf16) (xs0 : Vec F S2048x1 .f32) (xs1 : Vec F S2048x1 .f32) :
    Σ' (L2 : List (View.Piece (Elt F) S2048x1 .f32)), Σ' (LS0 : List (View.Piece (Elt F) S2048x1 .f32)), { LS1 : List (View.Piece (Elt F) S2048x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__softsum_kernel i arg2 harg2 arg3 harg3 arg4 harg4 arg5 harg5 arg6 harg6) K } := by
  refine ⟨?_, ?_, ?_, fun E K => ?run⟩
  case run =>
    simp only [cc1__softsum_kernel_eq_skeleton]; unfold cc1__softsum_kernel_skel
    simp only [k1_part1_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.KernelIdeal.Fr

end
-- ==== Proof.KernelIdeal.Region1.lean ====
import proofs.«145297_j7275674600023_1_alg».proof.Proof.KernelIdeal.Region1RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the frame half of the online softmax row-sum kernel

What each case of the body leaves in the output window's staging buffer and in the two scratch buffers (read back
from the pieces the runs found), the same point by point along the grid, the region invariant that carries the two
scratch buffers from one grid point to the next, the proof data and the body obligation. -/

/-- A first column tile stores nothing into the output window: no pieces — a placeholder that nothing consults, since there the window is neither written back nor read at the next point. -/
def out1_A_2 (c : Dev nD) (i : grid1.Coords) (arg2 : Memref sig .tc .vmem S2048x64 .bf16) (harg2 : arg2.IsWhole) (arg3 : Memref sig .tc .vmem S64x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond1_0 i) (hc1 : ¬cond1_1 i)
    (x0 : Vec F S2048x64 .bf16) (x1 : Vec F S64x1024 .bf16) : Vec F S2048x1 .f32 :=
  VO1_2.read (Elt F) (VO1_2.writes (Elt F) VO1_2.junk (kernelRun1_A c i arg2 harg2 arg3 harg3 arg4 harg4 arg5 harg5 arg6 harg6 hc0 hc1 x0 x1).1)

/-- At a first column tile the running maximum's pieces cover its buffer. -/
theorem scover1_A_0 (c : Dev nD) (i : grid1.Coords) (arg2 : Memref sig .tc .vmem S2048x64 .bf16) (harg2 : arg2.IsWhole) (arg3 : Memref sig .tc .vmem S64x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond1_0 i) (hc1 : ¬cond1_1 i)
    (x0 : Vec F S2048x64 .bf16) (x1 : Vec F S64x1024 .bf16) (y : S2048x1.Idx) :
    ∃ pc ∈ (kernelRun1_A c i arg2 harg2 arg3 harg3 arg4 harg4 arg5 harg5 arg6 harg6 hc0 hc1 x0 x1).2.1, y ∈ pc.1.set :=
  View.cover_of_tiledL (kernelRun1_A c i arg2 harg2 arg3 harg3 arg4 harg4 arg5 harg5 arg6 harg6 hc0 hc1 x0 x1).2.1 S2048x1.size (by sl_kernel_rfl) y

/-- What it leaves in the running maximum: the pieces read back. -/
def sout1_A_0 (c : Dev nD) (i : grid1.Coords) (arg2 : Memref sig .tc .vmem S2048x64 .bf16) (harg2 : arg2.IsWhole) (arg3 : Memref sig .tc .vmem S64x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond1_0 i) (hc1 : ¬cond1_1 i)
    (x0 : Vec F S2048x64 .bf16) (x1 : Vec F S64x1024 .bf16) : Vec F S2048x1 .f32 :=
  VS1_0.read (Elt F) (VS1_0.writes (Elt F) VS1_0.junk (kernelRun1_A c i arg2 harg2 arg3 harg3 arg4 harg4 arg5 harg5 arg6 harg6 hc0 hc1 x0 x1).2.1)

/-- At a first column tile the running sum's pieces cover its buffer. -/
theorem scover1_A_1 (c : Dev nD) (i : grid1.Coords) (arg2 : Memref sig .tc .vmem S2048x64 .bf16) (harg2 : arg2.IsWhole) (arg3 : Memref sig .tc .vmem S64x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond1_0 i) (hc1 : ¬cond1_1 i)
    (x0 : Vec F S2048x64 .bf16) (x1 : Vec F S64x1024 .bf16) (y : S2048x1.Idx) :
    ∃ pc ∈ (kernelRun1_A c i arg2 harg2 arg3 harg3 arg4 harg4 arg5 harg5 arg6 harg6 hc0 hc1 x0 x1).2.2.1, y ∈ pc.1.set :=
  View.cover_of_tiledL (kernelRun1_A c i arg2 harg2 arg3 harg3 arg4 harg4 arg5 harg5 arg6 harg6 hc0 hc1 x0 x1).2.2.1 S2048x1.size (by sl_kernel_rfl) y

/-- What it leaves in the running sum: the pieces read back. -/
def sout1_A_1 (c : Dev nD) (i : grid1.Coords) (arg2 : Memref sig .tc .vmem S2048x64 .bf16) (harg2 : arg2.IsWhole) (arg3 : Memref sig .tc .vmem S64x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond1_0 i) (hc1 : ¬cond1_1 i)
    (x0 : Vec F S2048x64 .bf16) (x1 : Vec F S64x1024 .bf16) : Vec F S2048x1 .f32 :=
  VS1_1.read (Elt F) (VS1_1.writes (Elt F) VS1_1.junk (kernelRun1_A c i arg2 harg2 arg3 harg3 arg4 harg4 arg5 harg5 arg6 harg6 hc0 hc1 x0 x1).2.2.1)

/-- A middle column tile stores nothing into the output window either: a placeholder again. -/
def out1_B_2 (c : Dev nD) (i : grid1.Coords) (arg2 : Memref sig .tc .vmem S2048x64 .bf16) (harg2 : arg2.IsWhole) (arg3 : Memref sig .tc .vmem S64x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond1_0 i) (hc1 : ¬cond1_1 i)
    (x0 : Vec F S2048x64 .bf16) (x1 : Vec F S64x1024 .bf16) (xs0 : Vec F S2048x1 .f32) (xs1 : Vec F S2048x1 .f32) : Vec F S2048x1 .f32 :=
  VO1_2.read (Elt F) (VO1_2.writes (Elt F) VO1_2.junk (kernelRun1_B c i arg2 harg2 arg3 harg3 arg4 harg4 arg5 harg5 arg6 harg6 hc0 hc1 x0 x1 xs0 xs1).1)

/-- At a middle column tile the running maximum's pieces cover its buffer. -/
theorem scover1_B_0 (c : Dev nD) (i : grid1.Coords) (arg2 : Memref sig .tc .vmem S2048x64 .bf16) (harg2 : arg2.IsWhole) (arg3 : Memref sig .tc .vmem S64x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond1_0 i) (hc1 : ¬cond1_1 i)
    (x0 : Vec F S2048x64 .bf16) (x1 : Vec F S64x1024 .bf16) (xs0 : Vec F S2048x1 .f32) (xs1 : Vec F S2048x1 .f32) (y : S2048x1.Idx) :
    ∃ pc ∈ (kernelRun1_B c i arg2 harg2 arg3 harg3 arg4 harg4 arg5 harg5 arg6 harg6 hc0 hc1 x0 x1 xs0 xs1).2.1, y ∈ pc.1.set :=
  View.cover_of_tiledL (kernelRun1_B c i arg2 harg2 arg3 harg3 arg4 harg4 arg5 harg5 arg6 harg6 hc0 hc1 x0 x1 xs0 xs1).2.1 S2048x1.size (by sl_kernel_rfl) y

/-- What it leaves in the running maximum: the pieces read back. -/
def sout1_B_0 (c : Dev nD) (i : grid1.Coords) (arg2 : Memref sig .tc .vmem S2048x64 .bf16) (harg2 : arg2.IsWhole) (arg3 : Memref sig .tc .vmem S64x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond1_0 i) (hc1 : ¬cond1_1 i)
    (x0 : Vec F S2048x64 .bf16) (x1 : Vec F S64x1024 .bf16) (xs0 : Vec F S2048x1 .f32) (xs1 : Vec F S2048x1 .f32) : Vec F S2048x1 .f32 :=
  VS1_0.read (Elt F) (VS1_0.writes (Elt F) VS1_0.junk (kernelRun1_B c i arg2 harg2 arg3 harg3 arg4 harg4 arg5 harg5 arg6 harg6 hc0 hc1 x0 x1 xs0 xs1).2.1)

/-- At a middle column tile the running sum's pieces cover its buffer. -/
theorem scover1_B_1 (c : Dev nD) (i : grid1.Coords) (arg2 : Memref sig .tc .vmem S2048x64 .bf16) (harg2 : arg2.IsWhole) (arg3 : Memref sig .tc .vmem S64x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond1_0 i) (hc1 : ¬cond1_1 i)
    (x0 : Vec F S2048x64 .bf16) (x1 : Vec F S64x1024 .bf16) (xs0 : Vec F S2048x1 .f32) (xs1 : Vec F S2048x1 .f32) (y : S2048x1.Idx) :
    ∃ pc ∈ (kernelRun1_B c i arg2 harg2 arg3 harg3 arg4 harg4 arg5 harg5 arg6 harg6 hc0 hc1 x0 x1 xs0 xs1).2.2.1, y ∈ pc.1.set :=
  View.cover_of_tiledL (kernelRun1_B c i arg2 harg2 arg3 harg3 arg4 harg4 arg5 harg5 arg6 harg6 hc0 hc1 x0 x1 xs0 xs1).2.2.1 S2048x1.size (by sl_kernel_rfl) y

/-- What it leaves in the running sum: the pieces read back. -/
def sout1_B_1 (c : Dev nD) (i : grid1.Coords) (arg2 : Memref sig .tc .vmem S2048x64 .bf16) (harg2 : arg2.IsWhole) (arg3 : Memref sig .tc .vmem S64x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond1_0 i) (hc1 : ¬cond1_1 i)
    (x0 : Vec F S2048x64 .bf16) (x1 : Vec F S64x1024 .bf16) (xs0 : Vec F S2048x1 .f32) (xs1 : Vec F S2048x1 .f32) : Vec F S2048x1 .f32 :=
  VS1_1.read (Elt F) (VS1_1.writes (Elt F) VS1_1.junk (kernelRun1_B c i arg2 harg2 arg3 harg3 arg4 harg4 arg5 harg5 arg6 harg6 hc0 hc1 x0 x1 xs0 xs1).2.2.1)

/-- At a last column tile the one store into the output window covers its block. -/
theorem cover1_C_2 (c : Dev nD) (i : grid1.Coords) (arg2 : Memref sig .tc .vmem S2048x64 .bf16) (harg2 : arg2.IsWhole) (arg3 : Memref sig .tc .vmem S64x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond1_0 i) (hc1 : cond1_1 i)
    (x0 : Vec F S2048x64 .bf16) (x1 : Vec F S64x1024 .bf16) (xs0 : Vec F S2048x1 .f32) (xs1 : Vec F S2048x1 .f32) (y : S2048x1.Idx) :
    ∃ pc ∈ (kernelRun1_C c i arg2 harg2 arg3 harg3 arg4 harg4 arg5 harg5 arg6 harg6 hc0 hc1 x0 x1 xs0 xs1).1, y ∈ pc.1.set :=
  View.cover_of_tiledL (kernelRun1_C c i arg2 harg2 arg3 harg3 arg4 harg4 arg5 harg5 arg6 harg6 hc0 hc1 x0 x1 xs0 xs1).1 S2048x1.size (by sl_kernel_rfl) y

/-- What that case leaves in the output window's staging buffer: its piece read back. -/
def out1_C_2 (c : Dev nD) (i : grid1.Coords) (arg2 : Memref sig .tc .vmem S2048x64 .bf16) (harg2 : arg2.IsWhole) (arg3 : Memref sig .tc .vmem S64x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond1_0 i) (hc1 : cond1_1 i)
    (x0 : Vec F S2048x64 .bf16) (x1 : Vec F S64x1024 .bf16) (xs0 : Vec F S2048x1 .f32) (xs1 : Vec F S2048x1 .f32) : Vec F S2048x1 .f32 :=
  VO1_2.read (Elt F) (VO1_2.writes (Elt F) VO1_2.junk (kernelRun1_C c i arg2 harg2 arg3 harg3 arg4 harg4 arg5 harg5 arg6 harg6 hc0 hc1 x0 x1 xs0 xs1).1)

/-- At a last column tile the running maximum's pieces cover its buffer. -/
theorem scover1_C_0 (c : Dev nD) (i : grid1.Coords) (arg2 : Memref sig .tc .vmem S2048x64 .bf16) (harg2 : arg2.IsWhole) (arg3 : Memref sig .tc .vmem S64x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond1_0 i) (hc1 : cond1_1 i)
    (x0 : Vec F S2048x64 .bf16) (x1 : Vec F S64x1024 .bf16) (xs0 : Vec F S2048x1 .f32) (xs1 : Vec F S2048x1 .f32) (y : S2048x1.Idx) :
    ∃ pc ∈ (kernelRun1_C c i arg2 harg2 arg3 harg3 arg4 harg4 arg5 harg5 arg6 harg6 hc0 hc1 x0 x1 xs0 xs1).2.1, y ∈ pc.1.set :=
  View.cover_of_tiledL (kernelRun1_C c i arg2 harg2 arg3 harg3 arg4 harg4 arg5 harg5 arg6 harg6 hc0 hc1 x0 x1 xs0 xs1).2.1 S2048x1.size (by sl_kernel_rfl) y

/-- What it leaves in the running maximum: the pieces read back. -/
def sout1_C_0 (c : Dev nD) (i : grid1.Coords) (arg2 : Memref sig .tc .vmem S2048x64 .bf16) (harg2 : arg2.IsWhole) (arg3 : Memref sig .tc .vmem S64x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond1_0 i) (hc1 : cond1_1 i)
    (x0 : Vec F S2048x64 .bf16) (x1 : Vec F S64x1024 .bf16) (xs0 : Vec F S2048x1 .f32) (xs1 : Vec F S2048x1 .f32) : Vec F S2048x1 .f32 :=
  VS1_0.read (Elt F) (VS1_0.writes (Elt F) VS1_0.junk (kernelRun1_C c i arg2 harg2 arg3 harg3 arg4 harg4 arg5 harg5 arg6 harg6 hc0 hc1 x0 x1 xs0 xs1).2.1)

/-- At a last column tile the running sum's pieces cover its buffer. -/
theorem scover1_C_1 (c : Dev nD) (i : grid1.Coords) (arg2 : Memref sig .tc .vmem S2048x64 .bf16) (harg2 : arg2.IsWhole) (arg3 : Memref sig .tc .vmem S64x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond1_0 i) (hc1 : cond1_1 i)
    (x0 : Vec F S2048x64 .bf16) (x1 : Vec F S64x1024 .bf16) (xs0 : Vec F S2048x1 .f32) (xs1 : Vec F S2048x1 .f32) (y : S2048x1.Idx) :
    ∃ pc ∈ (kernelRun1_C c i arg2 harg2 arg3 harg3 arg4 harg4 arg5 harg5 arg6 harg6 hc0 hc1 x0 x1 xs0 xs1).2.2.1, y ∈ pc.1.set :=
  View.cover_of_tiledL (kernelRun1_C c i arg2 harg2 arg3 harg3 arg4 harg4 arg5 harg5 arg6 harg6 hc0 hc1 x0 x1 xs0 xs1).2.2.1 S2048x1.size (by sl_kernel_rfl) y

/-- What it leaves in the running sum: the pieces read back. -/
def sout1_C_1 (c : Dev nD) (i : grid1.Coords) (arg2 : Memref sig .tc .vmem S2048x64 .bf16) (harg2 : arg2.IsWhole) (arg3 : Memref sig .tc .vmem S64x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond1_0 i) (hc1 : cond1_1 i)
    (x0 : Vec F S2048x64 .bf16) (x1 : Vec F S64x1024 .bf16) (xs0 : Vec F S2048x1 .f32) (xs1 : Vec F S2048x1 .f32) : Vec F S2048x1 .f32 :=
  VS1_1.read (Elt F) (VS1_1.writes (Elt F) VS1_1.junk (kernelRun1_C c i arg2 harg2 arg3 harg3 arg4 harg4 arg5 harg5 arg6 harg6 hc0 hc1 x0 x1 xs0 xs1).2.2.1)

section Region
-- the TensorCore's buffer contents when the region is entered
variable (V : (c : Dev nD) → (b : Ref sig .tc) → Buf (Elt F) ((c : Thread nD τ).loc b))

/-! ## What the buffers hold after each point -/

/-- THE ACCUMULATION. After the body at position `n`: the output window's staging buffer, the running maximum, the
    running sum. The case is the one the closed forms select at `n`; a case that reads the scratch buffers before
    covering them reads what position `n - 1` left. -/
def outsAt1 (c : Dev nD) : (n : ℕ) → n < cfg1.N → Vec F S2048x1 .f32 × Vec F S2048x1 .f32 × Vec F S2048x1 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.1 (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.1 (outsAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.1 (outsAt1 c n (Nat.lt_of_succ_lt hn)).2.2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2)

/-- `outsAt1` at a first column tile. -/
theorem outsAt1_A (c : Dev nD) (t : Fin cfg1.N) (h0 : t.val % 4 = 0) (h1 : ¬t.val % 4 = 3) :
    outsAt1 V c t.val t.isLt = (out1_A_2 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t), sout1_A_1 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a middle column tile: over what the point before left. -/
theorem outsAt1_B (c : Dev nD) (t : Fin cfg1.N) (h0 : ¬t.val % 4 = 0) (h1 : ¬t.val % 4 = 3) :
    outsAt1 V c t.val t.isLt = (out1_B_2 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last column tile: over what the point before left. -/
theorem outsAt1_C (c : Dev nD) (t : Fin cfg1.N) (h0 : ¬t.val % 4 = 0) (h1 : t.val % 4 = 3) :
    outsAt1 V c t.val t.isLt = (out1_C_2 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the scratch buffers -/

/-- Before position `n`: before the first point every scoped buffer that is no staging buffer of this kernel at
    anything; afterwards the same with the running maximum and the running sum at what the point before left. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2.1) ∗ owns (c : Thread nD τ) scM1_1 fullShare ((outsAt1 V c n hn).2.2) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f)) ∗ (∃ r, prngReg c r))

theorem PhiS1_zero (c : Dev nD) (n : ℕ) (h : n ≤ cfg1.N) (hz : n = 0) : PhiS1 V c n h = Pipeline.ΦA spec1 c := by
  subst hz; rfl

/-- After point `n`: the scratch buffers at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2.1) ∗ owns (c : Thread nD τ) scM1_1 fullShare ((outsAt1 V c n hn).2.2) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f)) ∗ (∃ r, prngReg c r)) := rfl

/-- Before a point that is not the first: the scratch buffers at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c (n - 1) (by omega)).2.1) ∗ owns (c : Thread nD τ) scM1_1 fullShare ((outsAt1 V c (n - 1) (by omega)).2.2) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f)) ∗ (∃ r, prngReg c r)) := by
  cases n with
  | zero => exact absurd rfl hz
  | succ n => rfl

/-! ## The proof data -/

/-- The proof data of this pipeline on core `c`: the arrays as the region finds them; after the body each input's
    buffer at its block and the output's at `outsAt1`'s first component; the invariant `PhiS1`; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; the closed forms say which case the point is in; the
    invariant hands the body the two scratch buffers at what the point before left (at anything before the first
    point) and takes them back at this point's contents, the pieces covering each; the other scoped buffers and the
    generator register pass through; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0 sout1_A_1; (try dsimp only)
      by_cases hz : t.val = 0
      · rw [PhiS1_castSucc V c t, PhiS1_zero V c _ _ hz, PhiA1_eq]
        iintro ⟨⟨⟨HR0, HR1, HR2, HR3, HR4, HS0, HS1, HR7, HR8, HR9, HR10, HR11, HR12, HR13⟩, Hg⟩, Ho, ⟨%d0, H0⟩, ⟨%d1, H1⟩, ⟨%d2, H2⟩⟩
        iapply ((kernelRun1_A c (grid1.coords t) _ _ _ _ _ _ _ _ _ _ ((hcond1_0 t).mpr h0) (fun h => h1 ((hcond1_1 t).mp h)) (iblk1 V c 0 t) (iblk1 V c 1 t)).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HR0 HR1 HR2 HR3 HR4 HS0 HS1 HR7 HR8 HR9 HR10 HR11 HR12 HR13 Hg]
        · isplitl [HR0 HR1 HR2 HR3 HR4 HS0 HS1 HR7 HR8 HR9 HR10 HR11 HR12 HR13]
          · isplitl [HR0]; · iexact HR0
            isplitl [HR1]; · iexact HR1
            isplitl [HR2]; · iexact HR2
            isplitl [HR3]; · iexact HR3
            isplitl [HR4]; · iexact HR4
            isplitl [HS0]
            · unfold owns; iexists _; isplitr
              swap; · iexact HS0
              ipureintro; exact View.read_writes_of_cover _ _ _ _ _ (scover1_A_0 c _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _)
            isplitl [HR7]; · iexact HR7
            isplitl [HR8]; · iexact HR8
            isplitl [HR9]; · iexact HR9
            isplitl [HR10]; · iexact HR10
            isplitl [HR11]; · iexact HR11
            isplitl [HR12]; · iexact HR12
            iexact HR13
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HR0, HR1, HR2, HR3, HR4, HS0, HS1, HR7, HR8, HR9, HR10, HR11, HR12, HR13⟩, Hg⟩, Ho, ⟨%d0, H0⟩, ⟨%d1, H1⟩, ⟨%d2, H2⟩⟩
        iapply ((kernelRun1_A c (grid1.coords t) _ _ _ _ _ _ _ _ _ _ ((hcond1_0 t).mpr h0) (fun h => h1 ((hcond1_1 t).mp h)) (iblk1 V c 0 t) (iblk1 V c 1 t)).2.2.2 _ Set.univ _)
        isplitl [H0]; · iexact H0
        isplitl [H1]; · iexact H1
        isplitl [H2]; · iexact H2
        isplitl [HS0]; · iexists _; iexact HS0
        isplitl [HS1]; · iexists _; iexact HS1
        iintro ⟨H0, H1, H2, ⟨%es0, HS0⟩, ⟨%es1, HS1⟩⟩
        isplitl [HR0 HR1 HR2 HR3 HR4 HS0 HS1 HR7 HR8 HR9 HR10 HR11 HR12 HR13 Hg]
        · isplitl [HR0 HR1 HR2 HR3 HR4 HS0 HS1 HR7 HR8 HR9 HR10 HR11 HR12 HR13]
          · isplitl [HR0]; · iexact HR0
            isplitl [HR1]; · iexact HR1
            isplitl [HR2]; · iexact HR2
            isplitl [HR3]; · iexact HR3
            isplitl [HR4]; · iexact HR4
            isplitl [HS0]
            · unfold owns; iexists _; isplitr
              swap; · iexact HS0
              ipureintro; exact View.read_writes_of_cover _ _ _ _ _ (scover1_A_0 c _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _)
            isplitl [HR7]; · iexact HR7
            isplitl [HR8]; · iexact HR8
            isplitl [HR9]; · iexact HR9
            isplitl [HR10]; · iexact HR10
            isplitl [HR11]; · iexact HR11
            isplitl [HR12]; · iexact HR12
            iexact HR13
          iexact Hg
        isplitl [Ho]; · iexact Ho
        isplitl [H0]; · iexact H0
        isplitl [H1]; · iexact H1
        iexists _; iexact H2
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0 sout1_C_1; (try dsimp only)
      by_cases hz : t.val = 0
      · exfalso; omega
      · rw [PhiS1_castSucc V c t, PhiS1_pos V c _ _ hz]
        iintro ⟨⟨⟨HR0, HR1, HR2, HR3, HR4, HS0, HS1, HR7, HR8, HR9, HR10, HR11, HR12, HR13⟩, Hg⟩, Ho, ⟨%d0, H0⟩, ⟨%d1, H1⟩, ⟨%d2, H2⟩⟩
        iapply ((kernelRun1_C c (grid1.coords t) _ _ _ _ _ _ _ _ _ _ (fun h => h0 ((hcond1_0 t).mp h)) ((hcond1_1 t).mpr h1) (iblk1 V c 0 t) (iblk1 V c 1 t) _ _).2.2.2 Set.univ _)
        isplitl [H0]; · iexact H0
        isplitl [H1]; · iexact H1
        isplitl [H2]; · iexists _; iexact H2
        isplitl [HS0]; · iexact HS0
        isplitl [HS1]; · iexact HS1
        iintro ⟨H0, H1, ⟨%e2, H2⟩, ⟨%es0, HS0⟩, ⟨%es1, HS1⟩⟩
        isplitl [HR0 HR1 HR2 HR3 HR4 HS0 HS1 HR7 HR8 HR9 HR10 HR11 HR12 HR13 Hg]
        · isplitl [HR0 HR1 HR2 HR3 HR4 HS0 HS1 HR7 HR8 HR9 HR10 HR11 HR12 HR13]
          · isplitl [HR0]; · iexact HR0
            isplitl [HR1]; · iexact HR1
            isplitl [HR2]; · iexact HR2
            isplitl [HR3]; · iexact HR3
            isplitl [HR4]; · iexact HR4
            isplitl [HS0]
            · unfold owns; iexists _; isplitr
              swap; · iexact HS0
              ipureintro; exact View.read_writes_of_cover _ _ _ _ _ (scover1_C_0 c _ _ _ _ _ _ _ _ _ _ _ _ _ _ _ _ _)
            isplitl [HS1]
            · unfold owns; iexists _; isplitr
              swap; · iexact HS1
              ipureintro; exact View.read_writes_of_cover _ _ _ _ _ (scover1_C_1 c _ _ _ _ _ _ _ _ _ _ _ _ _ _ _ _ _)
            isplitl [HR7]; · iexact HR7
            isplitl [HR8]; · iexact HR8
            isplitl [HR9]; · iexact HR9
            isplitl [HR10]; · iexact HR10
            isplitl [HR11]; · iexact HR11
            isplitl [HR12]; · iexact HR12
            iexact HR13
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0 sout1_B_1; (try dsimp only)
      by_cases hz : t.val = 0
      · exfalso; omega
      · rw [PhiS1_castSucc V c t, PhiS1_pos V c _ _ hz]
        iintro ⟨⟨⟨HR0, HR1, HR2, HR3, HR4, HS0, HS1, HR7, HR8, HR9, HR10, HR11, HR12, HR13⟩, Hg⟩, Ho, ⟨%d0, H0⟩, ⟨%d1, H1⟩, ⟨%d2, H2⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) _ _).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HR0 HR1 HR2 HR3 HR4 HS0 HS1 HR7 HR8 HR9 HR10 HR11 HR12 HR13 Hg]
        · isplitl [HR0 HR1 HR2 HR3 HR4 HS0 HS1 HR7 HR8 HR9 HR10 HR11 HR12 HR13]
          · isplitl [HR0]; · iexact HR0
            isplitl [HR1]; · iexact HR1
            isplitl [HR2]; · iexact HR2
            isplitl [HR3]; · iexact HR3
            isplitl [HR4]; · iexact HR4
            isplitl [HS0]
            · unfold owns; iexists _; isplitr
              swap; · iexact HS0
              ipureintro; exact View.read_writes_of_cover _ _ _ _ _ (scover1_B_0 c _ _ _ _ _ _ _ _ _ _ _ _ _ _ _ _ _)
            isplitl [HS1]
            · unfold owns; iexists _; isplitr
              swap; · iexact HS1
              ipureintro; exact View.read_writes_of_cover _ _ _ _ _ (scover1_B_1 c _ _ _ _ _ _ _ _ _ _ _ _ _ _ _ _ _)
            isplitl [HR7]; · iexact HR7
            isplitl [HR8]; · iexact HR8
            isplitl [HR9]; · iexact HR9
            isplitl [HR10]; · iexact HR10
            isplitl [HR11]; · iexact HR11
            isplitl [HR12]; · iexact HR12
            iexact HR13
          iexact Hg
        isplitl [Ho]; · iexact Ho
        isplitl [H0]; · iexact H0
        isplitl [H1]; · iexact H1
        iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: what the scratch buffers hold is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HS0, HS1, HR7, HR8, HR9, HR10, HR11, HR12, HR13⟩, Hg⟩
  isplitl [HR0 HR1 HR2 HR3 HR4 HS0 HS1 HR7 HR8 HR9 HR10 HR11 HR12 HR13]
  · isplitl [HR0]; · iexact HR0
    isplitl [HR1]; · iexact HR1
    isplitl [HR2]; · iexact HR2
    isplitl [HR3]; · iexact HR3
    isplitl [HR4]; · iexact HR4
    isplitl [HS0]
    · iexists _; iexact HS0
    isplitl [HS1]
    · iexists _; iexact HS1
    isplitl [HR7]; · iexact HR7
    isplitl [HR8]; · iexact HR8
    isplitl [HR9]; · iexact HR9
    isplitl [HR10]; · iexact HR10
    isplitl [HR11]; · iexact HR11
    isplitl [HR12]; · iexact HR12
    iexact HR13
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Region

end Cert.KernelIdeal.Fr

end
-- ==== Proof.KernelIdeal.Region2.lean ====
/- The last matrix product with the residual added (out = ov·Woᵀ + x, a row block of ov against the whole of Woᵀ, plus the same row block of x, per grid point), as one pipelined region of the program: what each of its windows holds at a grid
    point, what the body leaves in the output window's buffer, the body's Hoare triple, and the proof data the
    pipeline's frame theorem takes — all stated at a PARAMETER `V`, the contents of the core's buffers when the
    region is entered. -/
import proofs.«145297_j7275674600023_1_alg».proof.Proof.Gen.KernelIdeal.Launch
import proofs.«145297_j7275674600023_1_alg».proof.Proof.Gen.KernelIdeal.Skeleton
import proofs.«145297_j7275674600023_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with extents in the thousands is decided by a structural
-- recursion one step per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The windows' blocks -/

/-- The block of window `w` at grid point `t`: the window's index map applied to the point selects a
    sub-rectangle of the window's array, read here off the entry contents `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0: at every grid point its current staging buffer holds the window's block at that point,
    whether the pipeline fetched it there or kept it from an earlier point (then the block index has not moved
    since the fetch). Holds for any proof data whose array is `V`'s and whose body leaves the input in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1: at every grid point its current staging buffer holds the window's block at that point,
    whether the pipeline fetched it there or kept it from an earlier point (then the block index has not moved
    since the fetch). Holds for any proof data whose array is `V`'s and whose body leaves the input in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2: at every grid point its current staging buffer holds the window's block at that point,
    whether the pipeline fetched it there or kept it from an earlier point (then the block index has not moved
    since the fetch). Holds for any proof data whose array is `V`'s and whose body leaves the input in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole staging buffer -/

abbrev r2_0 : Rect S512x1024 := Rect.unit (s := S512x1024) ![0, 0] S512x1024.size inb_S512x1024_S512x1024_0_0
abbrev r2_1 : Rect S1024x2048 := Rect.unit (s := S1024x2048) ![0, 0] S1024x2048.size inb_S1024x2048_S1024x2048_0_0
abbrev r2_2 : Rect S512x2048 := Rect.unit (s := S512x2048) ![0, 0] S512x2048.size inb_S512x2048_S512x2048_0_0
abbrev r2_3 : Rect S512x2048 := Rect.unit (s := S512x2048) ![0, 0] S512x2048.size inb_S512x2048_S512x2048_0_0

/-! ## What the body leaves in the output window's buffer -/

/-- The output buffer after the body, as a function of the input buffers: the body's single store covers the
    whole buffer with the payload computed from the loaded inputs. -/
def out2_3 (x0 : Vec F S512x1024 .bf16) (x1 : Vec F S1024x2048 .bf16) (x2 : Vec F S512x2048 .f32) : Vec F S512x2048 .f32 :=
  View.canon [⟨r2_3, k2_pay1 (View.ld x0 r2_0) (View.ld x1 r2_1) (View.ld x2 r2_2)⟩]

/-- The one store's rectangle is the whole buffer, so every index of the buffer lies in it. -/
theorem cover2_3 (p0 : Vec F S512x2048 .f32) (y : S512x2048.Idx) :
    ∃ pc ∈ ([⟨r2_3, p0⟩] : List (View.Piece (Elt F) S512x2048 .f32)), y ∈ pc.1.set :=
  View.cover_of_tiled [⟨r2_3, p0⟩] S512x2048.size (by rfl) y

/-! ## The body's triple -/

set_option maxHeartbeats 1000000 in
/-- The body run on whole staging buffers — the inputs' at known contents, the output's at anything — ends with
    the inputs' unchanged and the output's at `out2_3` of the inputs: the body is a sequence of whole-buffer
    loads followed by one whole-buffer store (it also loads the output buffer, a value it never uses). -/
theorem sound_kernel2 (c : Dev nD) (E : Set ℕ) (i : grid2.Coords) (arg1 : Memref sig .tc .vmem S512x1024 .bf16) (harg1 : arg1.IsWhole) (arg2 : Memref sig .tc .vmem S1024x2048 .bf16) (harg2 : arg2.IsWhole) (arg3 : Memref sig .tc .vmem S512x2048 .f32) (harg3 : arg3.IsWhole) (arg4 : Memref sig .tc .vmem S512x2048 .f32) (harg4 : arg4.IsWhole)
    (x0 : Vec F S512x1024 .bf16) (x1 : Vec F S1024x2048 .bf16) (x2 : Vec F S512x2048 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__combine_kernel i arg1 harg1 arg2 harg2 arg3 harg3 arg4 harg4) K := by
  simp only [cc2__combine_kernel_eq_skeleton]; unfold cc2__combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The region's proof data on core `c`: the windows' arrays as the region finds them; after the body at point
    `t` every input buffer still at its block and the output buffer at `out2_3` of the input blocks; the
    invariant carried between points is the region-independent one (the other scoped buffers and the generator
    register, untouched); full shares; nothing owed to another core. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`: the invariant, the core's debts, and each window's current staging
    buffer at what the pipeline put there, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns: the same, each buffer at what the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the invariant and
    the debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KernelIdeal.Main.lean ====
/- The program's whole run. @main is six segments: a stretch of host operations before each of the three pipelined
   regions. The contents of a core's buffers at the seven segment boundaries are written as a fold from the launch
   memory (a host stretch applies its operations; a region replaces its windows' arrays by what its write-backs
   leave and keeps every other buffer); each region's proof data is taken at its entry contents; the segments are
   chained into the run of @main; and every argument array is read back through the fold to its launch contents. -/
import proofs.«145297_j7275674600023_1_alg».proof.Proof.Gen.KernelIdeal.Launch
import proofs.«145297_j7275674600023_1_alg».proof.Proof.Gen.KernelIdeal.Skeleton
import proofs.«145297_j7275674600023_1_alg».proof.Proof.Gen.KernelIdeal.Points
import proofs.«145297_j7275674600023_1_alg».proof.Proof.KernelIdeal.Region0
import proofs.«145297_j7275674600023_1_alg».proof.Proof.KernelIdeal.Region1
import proofs.«145297_j7275674600023_1_alg».proof.Proof.KernelIdeal.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with extents in the thousands is decided by a structural
-- recursion one step per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)

/-- After the host stretch `hostOps0`: what region 0 is entered from. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- At region 0's exit: each of its windows' arrays at what the pipeline leaves there (an input as entered, an
    output with every write-back folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references. -/
abbrev V2 : (c : Dev nD) → (b : Ref sig .tc) → Buf (Elt F) ((c : Thread nD τ).loc b) := fun c b => W2 m ρ c b
/-- At region 0's exit its arrays hold what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1`: what region 1 is entered from. -/
abbrev W3 : Dev nD → Valuation τ sig (Elt F) := fun c => StableHlo.after hostOps1 (W2 m ρ c)
/-- The same, read at the TensorCore's references. -/
abbrev V3 : (c : Dev nD) → (b : Ref sig .tc) → Buf (Elt F) ((c : Thread nD τ).loc b) := fun c b => W3 m ρ c b
/-- At region 1's exit: each of its windows' arrays at what the pipeline leaves there (an input as entered, an
    output with every write-back folded in), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, read at the TensorCore's references. -/
abbrev V4 : (c : Dev nD) → (b : Ref sig .tc) → Buf (Elt F) ((c : Thread nD τ).loc b) := fun c b => W4 m ρ c b
/-- At region 1's exit its arrays hold what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2`: what region 2 is entered from. -/
abbrev W5 : Dev nD → Valuation τ sig (Elt F) := fun c => StableHlo.after hostOps2 (W4 m ρ c)
/-- The same, read at the TensorCore's references. -/
abbrev V5 : (c : Dev nD) → (b : Ref sig .tc) → Buf (Elt F) ((c : Thread nD τ).loc b) := fun c b => W5 m ρ c b
/-- At region 2's exit: each of its windows' arrays at what the pipeline leaves there (an input as entered, an
    output with every write-back folded in), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same, read at the TensorCore's references. -/
abbrev V6 : (c : Dev nD) → (b : Ref sig .tc) → Buf (Elt F) ((c : Thread nD τ).loc b) := fun c b => W6 m ρ c b
/-- At region 2's exit its arrays hold what the pipeline leaves, and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The arguments end as launched

No host operation writes an argument array, and no region writes one either: a region either stages it through an
input window (never written back) or does not touch it. So the fold, read at an argument's buffer, walks back to the
launch memory — stated at every boundary, each the one before it and one more step. -/

/-- A reference no operation of a host stretch writes keeps its contents across the stretch: each operation writes
    one named buffer, distinct from the reference. -/
local macro "host_keeps" : tactic => `(tactic| (
  simp only [hostOps0, hostOps1, hostOps2, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ### `main_arg0` (staged by region 2 through an input window, never written back; the other regions do not touch it) -/

theorem W1_main_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by host_keeps))
    _ = m ((c : Thread nD τ).loc main_arg0) := rfl
theorem W2_main_arg0 (c : Dev nD) : W2 m ρ c (Proc.devRef .tc main_arg0) = m ((c : Thread nD τ).loc main_arg0) :=
  (W2_of_ne m ρ c main_arg0 (by decide)).trans (W1_main_arg0 m ρ c)
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by host_keeps))
    _ = m ((c : Thread nD τ).loc main_arg0) := W2_main_arg0 m ρ c
theorem W4_main_arg0 (c : Dev nD) : W4 m ρ c (Proc.devRef .tc main_arg0) = m ((c : Thread nD τ).loc main_arg0) :=
  (W4_of_ne m ρ c main_arg0 (by decide)).trans (W3_main_arg0 m ρ c)
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by host_keeps))
    _ = m ((c : Thread nD τ).loc main_arg0) := W4_main_arg0 m ρ c
theorem W6_main_arg0 (c : Dev nD) : W6 m ρ c (Proc.devRef .tc main_arg0) = m ((c : Thread nD τ).loc main_arg0) :=
  ((W6_arr m ρ c 2).trans (((dat2 (V5 m ρ) c).arrAt_in 2 rfl _).trans (A_eq2 (V5 m ρ) c 2))).trans (W5_main_arg0 m ρ c)

/-! ### `main_arg1` (no region touches it) -/

theorem W1_main_arg1 (c : Dev nD) : W1 m ρ c (Proc.devRef .tc main_arg1) = m ((c : Thread nD τ).loc main_arg1) :=
  calc W1 m ρ c (Proc.devRef .tc main_arg1)
    _ = W0 m ρ c (Proc.devRef .tc main_arg1) := StableHlo.after_of_forall_not_mem (b := Proc.devRef .tc main_arg1) _ _ (List.forall_iff_forall_mem.mp (by host_keeps))
    _ = m ((c : Thread nD τ).loc main_arg1) := rfl
theorem W2_main_arg1 (c : Dev nD) : W2 m ρ c (Proc.devRef .tc main_arg1) = m ((c : Thread nD τ).loc main_arg1) :=
  (W2_of_ne m ρ c main_arg1 (by decide)).trans (W1_main_arg1 m ρ c)
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by host_keeps))
    _ = m ((c : Thread nD τ).loc main_arg1) := W2_main_arg1 m ρ c
theorem W4_main_arg1 (c : Dev nD) : W4 m ρ c (Proc.devRef .tc main_arg1) = m ((c : Thread nD τ).loc main_arg1) :=
  (W4_of_ne m ρ c main_arg1 (by decide)).trans (W3_main_arg1 m ρ c)
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_forall_not_mem (b := Proc.devRef .tc main_arg1) _ _ (List.forall_iff_forall_mem.mp (by host_keeps))
    _ = m ((c : Thread nD τ).loc main_arg1) := W4_main_arg1 m ρ c
theorem W6_main_arg1 (c : Dev nD) : W6 m ρ c (Proc.devRef .tc main_arg1) = m ((c : Thread nD τ).loc main_arg1) :=
  (W6_of_ne m ρ c main_arg1 (by decide)).trans (W5_main_arg1 m ρ c)

/-! ### `main_arg2` (no region touches it) -/

theorem W1_main_arg2 (c : Dev nD) : W1 m ρ c (Proc.devRef .tc main_arg2) = m ((c : Thread nD τ).loc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by host_keeps))
    _ = m ((c : Thread nD τ).loc main_arg2) := rfl
theorem W2_main_arg2 (c : Dev nD) : W2 m ρ c (Proc.devRef .tc main_arg2) = m ((c : Thread nD τ).loc main_arg2) :=
  (W2_of_ne m ρ c main_arg2 (by decide)).trans (W1_main_arg2 m ρ c)
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by host_keeps))
    _ = m ((c : Thread nD τ).loc main_arg2) := W2_main_arg2 m ρ c
theorem W4_main_arg2 (c : Dev nD) : W4 m ρ c (Proc.devRef .tc main_arg2) = m ((c : Thread nD τ).loc main_arg2) :=
  (W4_of_ne m ρ c main_arg2 (by decide)).trans (W3_main_arg2 m ρ c)
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_forall_not_mem (b := Proc.devRef .tc main_arg2) _ _ (List.forall_iff_forall_mem.mp (by host_keeps))
    _ = m ((c : Thread nD τ).loc main_arg2) := W4_main_arg2 m ρ c
theorem W6_main_arg2 (c : Dev nD) : W6 m ρ c (Proc.devRef .tc main_arg2) = m ((c : Thread nD τ).loc main_arg2) :=
  (W6_of_ne m ρ c main_arg2 (by decide)).trans (W5_main_arg2 m ρ c)

/-! ### `main_arg3` (no region touches it) -/

theorem W1_main_arg3 (c : Dev nD) : W1 m ρ c (Proc.devRef .tc main_arg3) = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by host_keeps))
    _ = m ((c : Thread nD τ).loc main_arg3) := rfl
theorem W2_main_arg3 (c : Dev nD) : W2 m ρ c (Proc.devRef .tc main_arg3) = m ((c : Thread nD τ).loc main_arg3) :=
  (W2_of_ne m ρ c main_arg3 (by decide)).trans (W1_main_arg3 m ρ c)
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by host_keeps))
    _ = m ((c : Thread nD τ).loc main_arg3) := W2_main_arg3 m ρ c
theorem W4_main_arg3 (c : Dev nD) : W4 m ρ c (Proc.devRef .tc main_arg3) = m ((c : Thread nD τ).loc main_arg3) :=
  (W4_of_ne m ρ c main_arg3 (by decide)).trans (W3_main_arg3 m ρ c)
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_forall_not_mem (b := Proc.devRef .tc main_arg3) _ _ (List.forall_iff_forall_mem.mp (by host_keeps))
    _ = m ((c : Thread nD τ).loc main_arg3) := W4_main_arg3 m ρ c
theorem W6_main_arg3 (c : Dev nD) : W6 m ρ c (Proc.devRef .tc main_arg3) = m ((c : Thread nD τ).loc main_arg3) :=
  (W6_of_ne m ρ c main_arg3 (by decide)).trans (W5_main_arg3 m ρ c)

/-! ### `main_arg4` (no region touches it) -/

theorem W1_main_arg4 (c : Dev nD) : W1 m ρ c (Proc.devRef .tc main_arg4) = m ((c : Thread nD τ).loc main_arg4) :=
  calc W1 m ρ c (Proc.devRef .tc main_arg4)
    _ = W0 m ρ c (Proc.devRef .tc main_arg4) := StableHlo.after_of_forall_not_mem (b := Proc.devRef .tc main_arg4) _ _ (List.forall_iff_forall_mem.mp (by host_keeps))
    _ = m ((c : Thread nD τ).loc main_arg4) := rfl
theorem W2_main_arg4 (c : Dev nD) : W2 m ρ c (Proc.devRef .tc main_arg4) = m ((c : Thread nD τ).loc main_arg4) :=
  (W2_of_ne m ρ c main_arg4 (by decide)).trans (W1_main_arg4 m ρ c)
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := StableHlo.after_of_forall_not_mem (b := Proc.devRef .tc main_arg4) _ _ (List.forall_iff_forall_mem.mp (by host_keeps))
    _ = m ((c : Thread nD τ).loc main_arg4) := W2_main_arg4 m ρ c
theorem W4_main_arg4 (c : Dev nD) : W4 m ρ c (Proc.devRef .tc main_arg4) = m ((c : Thread nD τ).loc main_arg4) :=
  (W4_of_ne m ρ c main_arg4 (by decide)).trans (W3_main_arg4 m ρ c)
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_forall_not_mem (b := Proc.devRef .tc main_arg4) _ _ (List.forall_iff_forall_mem.mp (by host_keeps))
    _ = m ((c : Thread nD τ).loc main_arg4) := W4_main_arg4 m ρ c
theorem W6_main_arg4 (c : Dev nD) : W6 m ρ c (Proc.devRef .tc main_arg4) = m ((c : Thread nD τ).loc main_arg4) :=
  (W6_of_ne m ρ c main_arg4 (by decide)).trans (W5_main_arg4 m ρ c)

/-! ## The proof data family and the thread state -/

/-- The prefetched tables' admissible contents: no region has a table. -/
abbrev adm : (p : Fin 3) → (pcfgs (F := F) p).Adm := fun p => (cfgs p).toPCfg_adm
/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and its debts,
    which are none. -/
abbrev R (c : Dev nD) : sProp 𝕄 := iprop((∃ r, prngReg c r) ∗ ∃ W, owes (c : Thread nD τ) (0 : CellTallies nD τ sig Unit) W)
/-- A host stretch as a segment: from every unscoped buffer held at `W` to every unscoped buffer held at the
    stretch's operations applied to `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator
    register at some state. -/
abbrev Tₙ (c : Dev nD) : sProp 𝕄 := iprop(StableHlo.held (c : Thread nD τ) (Pipeline.ucRefs τ sig) (W6 m ρ c) ∗ ∃ r, prngReg c r)

/-! ## The regions as segments -/

-- applying a library lemma stated over the pinned configuration needs unification to unfold plain definitions in a
-- metavariable's type
set_option backward.isDefEq.respectTransparency.types false in
/-- REGION 0 over the thread state: entered from every unscoped buffer at `W1`, left at `W2`. Its windows'
    arrays are split out of the unscoped buffers at entry and put back at the exit contents; the generator register and the other
    scoped buffers are the region's invariant, unchanged throughout; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration needs unification to unfold plain definitions in a
-- metavariable's type
set_option backward.isDefEq.respectTransparency.types false in
/-- REGION 1 over the thread state: entered from every unscoped buffer at `W3`, left at `W4`. Its windows'
    arrays are split out of the unscoped buffers at entry and put back at the exit contents; the generator register and the other
    scoped buffers enter the region's own invariant at the first point (through the region-independent one) and
    come back from it at the last; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (fun w => A_eq1 (V3 m ρ) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    have h := hin1 (V3 m ρ) c
    unfold Pipeline.ΦA at h
    iintro ⟨Hp, -, Hr⟩
    iapply h
    isplitl [Hr]; · iexact Hr
    iexact Hp
  hout c := by
    rw [Pipeline.ownSems0_none, show (pdats m ρ 1 c).Φ (Fin.last _) = (dat1 (V3 m ρ) c).Φ (Fin.last cfg1.N) from rfl]
    have h := hout1 (V3 m ρ) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration needs unification to unfold plain definitions in a
-- metavariable's type
set_option backward.isDefEq.respectTransparency.types false in
/-- REGION 2 over the thread state: entered from every unscoped buffer at `W5`, left at `W6`. Its windows'
    arrays are split out of the unscoped buffers at entry and put back at the exit contents; the generator register and the other
    scoped buffers are the region's invariant, unchanged throughout; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order: a host stretch from its boundary's contents, then the region it leads to. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- @main is the run of the segments: it is the chain of its items, and the segments' run unfolds to that chain. -/
theorem main_run (c : Dev nD) : main (F := F) c = Pipeline.Seg.run (segs m ρ) := (main_chain c).trans (by chain_rfl)

-- the launch theorem's implicit arguments are found by unifying its conclusion with this one, which needs unfolding
-- plain definitions in a metavariable's type
set_option backward.isDefEq.respectTransparency.types false in
/-- THE RUN. From any memory with zero counters, every weakly fair execution of @main on the TensorCores terminates
    without a fault, and in every final state each core's unscoped buffers hold the last boundary's contents `W6`:
    the launch over the six segments, whose thread states chain by construction, the last one read against the final
    state. -/
theorem run_all : θ_run defs (onTc (τ := τ) (main (F := F))) ⟨m, fun _ => 0, ρ⟩ (fun r => ∀ c : Dev nD, ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- THE FRAME: every run terminates without a fault and every argument array ends at its launch contents — the run's
    final buffers are `W6`, which at each argument is the launch memory. -/
theorem frame : θ_run defs (onTc (τ := τ) (main (F := F))) ⟨m, fun _ => 0, ρ⟩ (fun r => ∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4)) :=
  (θ_run defs _ _).mono (fun r h c =>
    ⟨(h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c)⟩) (run_all m ρ)

end Cert.KernelIdeal.Fr

end
-- ==== Proof.LibPlainDot.lean ====
/-
  A plain matrix product — an [M, K] operand times a [K, N] operand, the left one contracted on its second axis
  and the right one on its first, no batch axis — read at the entry (r, c) over the extended reals: the sum over
  k of the left operand at (r, k) times the right operand at (k, c). Stated once for the on-chip product
  accumulated into a zero splat and once for the host's dot_general, for any dimension record that is the plain
  one, so that both sides of a comparison land on the same sum over `Fin K`.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The contraction index of the plain product has one axis, of extent `K`. -/
theorem contr_rank : (DotDims.plain M K N).contr.rank = 1 := rfl
theorem contr_size : (DotDims.plain M K N).contr.size ⟨0, by rw [contr_rank]; exact Nat.one_pos⟩ = K := rfl

/-- The one-coordinate contraction index with coordinate `k`. -/
abbrev cidx (k : Fin K) : (DotDims.plain M K N).contr.Idx := (contrEquiv1 (DotDims.plain M K N) K contr_rank contr_size).symm k

/-- The left operand is read at row `r`, column `k`. -/
theorem lhsIdx_eq (r : Fin M) (c : Fin N) (k : Fin K) :
    (DotDims.plain M K N).lhsIdx (ix2 r c) (cidx k) = ix2 r k := by
  funext a
  apply Fin.ext
  match a with
  | ⟨0, _⟩ => rfl
  | ⟨1, _⟩ =>
    exact ((DotDims.plain M K N).lhsIdx_val_of_single rfl (ix2 r c) (cidx k)).trans
      (contrEquiv1_symm_val (DotDims.plain M K N) K contr_rank contr_size k)

/-- The right operand is read at row `k`, column `c`. -/
theorem rhsIdx_eq (r : Fin M) (c : Fin N) (k : Fin K) :
    (DotDims.plain M K N).rhsIdx (ix2 r c) (cidx k) = ix2 k c := by
  funext a
  apply Fin.ext
  match a with
  | ⟨0, _⟩ =>
    exact ((DotDims.plain M K N).rhsIdx_val_of_single rfl (ix2 r c) (cidx k)).trans
      (contrEquiv1_symm_val (DotDims.plain M K N) K contr_rank contr_size k)
  | ⟨1, _⟩ => rfl

/-- The contraction sum of the plain product, re-indexed over `Fin K`. -/
theorem sum_eq (l : (⟨2, ![M, K]⟩ : Shape).Idx → EReal) (r : (⟨2, ![K, N]⟩ : Shape).Idx → EReal) (p : Fin M) (c : Fin N) :
    (∑ q : (DotDims.plain M K N).contr.Idx, l ((DotDims.plain M K N).lhsIdx (ix2 p c) q) * r ((DotDims.plain M K N).rhsIdx (ix2 p c) q))
      = ∑ k : Fin K, l (ix2 p k) * r (ix2 k c) := by
  rw [← Equiv.sum_comp (contrEquiv1 (DotDims.plain M K N) K contr_rank contr_size).symm]
  refine Finset.sum_congr rfl fun k _ => ?_
  rw [lhsIdx_eq p c k, rhsIdx_eq p c k]

/-- The on-chip product accumulated into the zero splat, at entry `(p, c)`: the plain sum. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    FloatOps.matmul d prec l r (constant (F := Ideal) ⟨2, ![M, N]⟩ .f32 0x00000000#32) (ix2 p c) = ∑ k : Fin K, l (ix2 p k) * r (ix2 k c) := by
  subst hd
  rw [Ideal.matmul_constant_zero_apply]
  exact sum_eq l r p c

/-- The host's dot_general at entry `(p, c)`: the same plain sum, whatever the precision and the schedule key. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂) (p : Fin M) (c : Fin N) :
    FloatOps.dotGeneral d prec sched l r (ix2 p c) = ∑ k : Fin K, l (ix2 p k) * r (ix2 k c) := by
  subst hd
  rw [Ideal.dotGeneral_apply]
  exact sum_eq l r p c

end Cert.PlainDot

end
-- ==== Proof.KPayDot.lean ====
/-
  What the two projection kernels store, read at an entry over the extended reals.

  The first kernel's block is the plain product of a [512, 2048] block of `x` with the whole [2048, 512]
  transposed weight: entry (p, c) is ∑ k, a (p, k) · b (k, c).  The last kernel's block is the plain product of a
  [512, 1024] block with the whole [1024, 2048] transposed output weight, plus the residual block: entry (p, c)
  is (∑ k, a (p, k) · b (k, c)) + x (p, c).
-/
import proofs.«145297_j7275674600023_1_alg».proof.Proof.Gen.KernelIdeal.Skeleton
import proofs.«145297_j7275674600023_1_alg».proof.Proof.LibPlainDot
import Idealize.ShloMosaic.Lib.ValueIdx
import Idealize.ShloMosaic.Lib.Pipeline.Value

noncomputable section

namespace Cert.KPay

open Idealize.ShloMosaic Idealize.ShloMosaic.ValueIdx Cert.KernelIdeal Cert.KernelIdeal.Gen

open scoped BigOperators

/-- The projection kernel's stored block at (p, c): the inner product of row p of the left block with column c
    of the right operand. -/
theorem k0_pay1_apply (a : Vec Ideal S512x2048 .bf16) (b : Vec Ideal S2048x512 .bf16) (p : Fin 512) (c : Fin 512) :
    k0_pay1 (F := Ideal) a b (ix2 p c) = ∑ k : Fin 2048, a (ix2 p k) * b (ix2 k c) := by
  unfold k0_pay1
  rw [shapeCast_self, shapeCast_self]
  exact Cert.PlainDot.matmul_zero_apply _ rfl none a b p c

/-- The combining kernel's stored block at (p, c): the inner product plus the residual entry. -/
theorem k2_pay1_apply (a : Vec Ideal S512x1024 .bf16) (b : Vec Ideal S1024x2048 .bf16) (x : Vec Ideal S512x2048 .f32)
    (p : Fin 512) (c : Fin 2048) :
    k2_pay1 (F := Ideal) a b x (ix2 p c) = (∑ k : Fin 1024, a (ix2 p k) * b (ix2 k c)) + x (ix2 p c) := by
  unfold k2_pay1
  rw [shapeCast_self, shapeCast_self]
  exact congrArg (· + x (ix2 p c)) (Cert.PlainDot.matmul_zero_apply _ rfl none a b p c)

end Cert.KPay

end
-- ==== Proof.LibRealLaw.lean ====
/-
  Extended reals that are real numbers, and the one law this certificate rests on.

  Both programs score a user against every point of interest by the inner product of the user's preference
  vector `u` (256 entries) with the point's region embedding `r`, scaled by `a`.  One program scales the
  preference vector first and then takes the inner product, `∑ k, (u k * a) * r k`; the other takes the inner
  product and scales the result, `a * ∑ k, u k * r k`.  On the extended reals a factor moves across a sum only
  when no term is infinite, so the law is stated for entries that are real numbers; it is then the ring identity
  `∑ k, (u k * a) * r k = a * ∑ k, u k * r k` in `ℝ`.

  The rest of the file says which operations keep an extended real a real number: products, sums over a finite
  index set, maxima, and the ideal quotient by a divisor that is at least one.
-/
import Idealize.ShloMosaic.PureOps.Ideal
import Idealize.ShloMosaic.PureOps.Ideal.Laws

noncomputable section

namespace Cert.Scores

open Idealize.ShloMosaic

/-- The extended real `x` is a real number (neither infinity). -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

/-- The maximum of a real number and one is a real number that is not zero. -/
theorem max_one_eq (s : ℝ) : max (s : EReal) 1 = ((max s 1 : ℝ) : EReal) := by
  have h := (EReal.coe_strictMono.monotone).map_max (a := s) (b := (1 : ℝ))
  rw [h]; rfl

/-- The ideal quotient of a real number by the maximum of a real number and one is a real number: the divisor is
    a real number at least one, so it is not zero and the quotient is the product with its reciprocal. -/
theorem IsReal.div_max_one {x s : EReal} (hx : IsReal x) (hs : IsReal s) : IsReal (Ideal.div x (max s 1)) := by
  obtain ⟨s', rfl⟩ := hs
  rw [max_one_eq, Ideal.div_coe (ne_of_gt (lt_of_lt_of_le one_pos (le_max_right s' 1)))]
  exact hx.mul (isReal_coe _)

/-- THE LAW.  For real entries, scaling the first factor of every product by `a` scales the inner product by `a`. -/
theorem scaled_inner {n : Nat} (u r : Fin n → EReal) (a : EReal)
    (hu : ∀ k, IsReal (u k)) (hr : ∀ k, IsReal (r k)) (ha : IsReal a) :
    ∑ k : Fin n, (u k * a) * r k = a * ∑ k : Fin n, u k * r k := by
  choose u' hu' using hu
  choose r' hr' using hr
  obtain ⟨a', rfl⟩ := ha
  have hl : ∀ k : Fin n, (u k * (a' : EReal)) * r k = ((u' k * a' * r' k : ℝ) : EReal) := fun k => by
    rw [hu' k, hr' k, EReal.coe_mul, EReal.coe_mul]
  have hr2 : ∀ k : Fin n, u k * r k = ((u' k * r' k : ℝ) : EReal) := fun k => by
    rw [hu' k, hr' k, EReal.coe_mul]
  rw [Finset.sum_congr rfl fun k _ => hl k, Finset.sum_congr rfl fun k _ => hr2 k, ← coe_sum, ← coe_sum,
    ← EReal.coe_mul, Finset.mul_sum]
  exact congrArg _ (Finset.sum_congr rfl fun k _ => by ring)

end Cert.Scores

end
-- ==== Proof.ValR0.lean ====
/-
  The first product's array after its region, over the extended reals: every entry is a real number when the two
  operand arrays hold real numbers.  What a grid point writes back is the plain product of its row block of the
  left array with the whole right array; each entry is a finite sum of products of entries of the two arrays; the
  written blocks cover the array.
-/
import proofs.«145297_j7275674600023_1_alg».proof.Proof.KernelIdeal.Region0
import proofs.«145297_j7275674600023_1_alg».proof.Proof.KPayDot
import proofs.«145297_j7275674600023_1_alg».proof.Proof.LibRealLaw
import Idealize.ShloMosaic.Lib.Pipeline.Value
import Idealize.ShloMosaic.Lib.ValueIdx

set_option maxRecDepth 16384

noncomputable section

namespace Cert.KVal

open Idealize.ShloMosaic Idealize.ShloMosaic.TcCoe Idealize.ShloMosaic.ValueIdx Idealize.SL.Sem
open Cert.KernelIdeal Cert.KernelIdeal.Gen Cert.KernelIdeal.Fr Cert.Scores
open Idealize.ShloMosaic.Pipeline (Dat)

open scoped BigOperators

variable (V : (c : Dev nD) → (b : Ref sig .tc) → Buf (Elt Ideal) ((c : Thread nD τ).loc b))

theorem hz2 : (![0, 0] : Fin 2 → Nat) = fun _ => 0 := funext fun a => by fin_cases a <;> rfl

/-- What grid point `t` writes back: the product of its two blocks. -/
theorem flushed0 (c : Dev nD) (t : Fin cfg0.N) :
    (dat0 V c).flushed 2 t = k0_pay1 (iblk0 V c 0 t) (iblk0 V c 1 t) := by
  show (cfg0.win 2).cut (grid0.coords t) ((dat0 V c).after 2 t) = _
  rw [after0_2]
  unfold out0_2
  rw [View.canon_unit_zero hz2]
  simp only [View.ld_unit_zero (S := S512x2048) hz2, View.ld_unit_zero (S := S2048x512) hz2]
  rfl

/-- A block's entry is an entry of its array. -/
theorem iblk0_0_real (c : Dev nD) (t : Fin cfg0.N) (h0 : ∀ i : S4096x2048.Idx, IsReal ((V c main_v0 : S4096x2048.Idx → EReal) i))
    (z : S512x2048.Idx) : IsReal ((iblk0 V c 0 t : S512x2048.Idx → EReal) z) := by
  unfold iblk0
  rw [View.read_apply]
  exact h0 _

theorem iblk0_1_real (c : Dev nD) (t : Fin cfg0.N) (h1 : ∀ i : S2048x512.Idx, IsReal ((V c main_v2 : S2048x512.Idx → EReal) i))
    (z : S2048x512.Idx) : IsReal ((iblk0 V c 1 t : S2048x512.Idx → EReal) z) := by
  unfold iblk0
  rw [View.read_apply]
  exact h1 _

/-- Every entry a point writes back is a real number. -/
theorem flushed0_real (c : Dev nD) (t : Fin cfg0.N) (h0 : ∀ i : S4096x2048.Idx, IsReal ((V c main_v0 : S4096x2048.Idx → EReal) i))
    (h1 : ∀ i : S2048x512.Idx, IsReal ((V c main_v2 : S2048x512.Idx → EReal) i)) (y : S512x512.Idx) :
    IsReal (((dat0 V c).flushed 2 t : S512x512.Idx → EReal) y) := by
  rw [flushed0]
  obtain ⟨p, q, rfl⟩ : ∃ (p : Fin 512) (q : Fin 512), y = ix2 p q := ⟨y 0, y 1, eq_ix2 y⟩
  rw [Cert.KPay.k0_pay1_apply]
  exact IsReal.sum _ fun k => (iblk0_0_real V c t h0 _).mul (iblk0_1_real V c t h1 _)

/-- An index of the product array is in point `t`'s block iff each coordinate is in the block's range. -/
theorem mem_blk0 (t : Fin cfg0.N) (i : S4096x512.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v3).slice (win0_2.rect t)).set ↔ _
  rw [View.set_slice_whole, Rect.mem_set_unit]
  exact Iff.rfl

/-- Every row block is some point's. -/
theorem idx_onto0 : ∀ q0 : Fin 8, ∃ t : Fin cfg0.N, win0_2.index t = ![q0.val, 0] :=
  (by decide +kernel : ∀ q0 : Fin 8, ∃ t : Fin grid0.N, win0_2.index t = ![q0.val, 0])

/-- The written blocks cover the array: row `r` is in the block of the point with block index `r / 512`. -/
theorem cover0 (i : S4096x512.Idx) : ∃ t : Fin cfg0.N, (cfg0.win 2).flush t = true ∧ i ∈ ((cfg0.win 2).blk t).view.set := by
  have hi0 : (i 0).val < 4096 := (i 0).isLt
  have hi1 : (i 1).val < 512 := (i 1).isLt
  obtain ⟨t, ht⟩ := idx_onto0 ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 512 ≤ (i 1).val ∧ (i 1).val < win0_2.index t (1 : Fin 2) * 512 + 512; omega

/-- THE PRODUCT ARRAY after the region holds only real numbers. -/
theorem arr0_real (c : Dev nD) (h0 : ∀ i : S4096x2048.Idx, IsReal ((V c main_v0 : S4096x2048.Idx → EReal) i))
    (h1 : ∀ i : S2048x512.Idx, IsReal ((V c main_v2 : S2048x512.Idx → EReal) i)) (i : S4096x512.Idx) :
    IsReal (((dat0 V c).arrAt 2 cfg0.N : S4096x512.Idx → EReal) i) :=
  (dat0 V c).arrAt_forall_of_cover 2 (fun _ v => IsReal v) (fun t _ y => flushed0_real V c t h0 h1 y) cover0 i

end Cert.KVal

end
-- ==== Proof.KernelIdeal.Region1Value.lean ====
import proofs.«145297_j7275674600023_1_alg».proof.Proof.KernelIdeal.Region1
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: what the scratch buffers and the output hold, as values

The pieces the three runs found, read back: at a first column tile the running maximum and the running sum are
re-initialised (to the −∞ splat and the zero splat) and then updated from those; at every other tile they are updated
from what the tile before left; at a last column tile the output block is the final running sum divided by itself.
The update loads the running maximum twice before storing it, so the sum's update names it twice. -/

theorem hz1 : (![0, 0] : Fin 2 → Nat) = fun _ => 0 := funext fun a => by fin_cases a <;> rfl

/-! ## A middle column tile: one covering store into each scratch buffer, its loads reading the whole buffers -/

theorem sout1_B_0_eq (c : Dev nD) (i : grid1.Coords) (arg2 : Memref sig .tc .vmem S2048x64 .bf16) (harg2 : arg2.IsWhole) (arg3 : Memref sig .tc .vmem S64x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond1_0 i) (hc1 : ¬cond1_1 i)
    (x0 : Vec F S2048x64 .bf16) (x1 : Vec F S64x1024 .bf16) (xs0 : Vec F S2048x1 .f32) (xs1 : Vec F S2048x1 .f32) :
    sout1_B_0 c i arg2 harg2 arg3 harg3 arg4 harg4 arg5 harg5 arg6 harg6 hc0 hc1 x0 x1 xs0 xs1 = k1_pay7 x0 x1 xs0 := by
  unfold sout1_B_0
  rw [View.read_writes_eq_canon _ _ _ (scover1_B_0 c i arg2 harg2 arg3 harg3 arg4 harg4 arg5 harg5 arg6 harg6 hc0 hc1 x0 x1 xs0 xs1)]
  unfold kernelRun1_B
  dsimp only
  sl_unfold_words
  rw [View.canon_unit_zero (S := S2048x1) hz1]
  simp only [View.readAt_eq_ld, harg2.read_unread, harg3.read_unread, harg5.read_unread, harg6.read_unread, View.ld_unit_zero (S := S2048x64) hz1, View.ld_unit_zero (S := S64x1024) hz1, View.ld_unit_zero (S := S2048x1) hz1]

theorem sout1_B_1_eq (c : Dev nD) (i : grid1.Coords) (arg2 : Memref sig .tc .vmem S2048x64 .bf16) (harg2 : arg2.IsWhole) (arg3 : Memref sig .tc .vmem S64x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond1_0 i) (hc1 : ¬cond1_1 i)
    (x0 : Vec F S2048x64 .bf16) (x1 : Vec F S64x1024 .bf16) (xs0 : Vec F S2048x1 .f32) (xs1 : Vec F S2048x1 .f32) :
    sout1_B_1 c i arg2 harg2 arg3 harg3 arg4 harg4 arg5 harg5 arg6 harg6 hc0 hc1 x0 x1 xs0 xs1 = k1_pay6 x0 x1 xs0 xs0 xs1 := by
  unfold sout1_B_1
  rw [View.read_writes_eq_canon _ _ _ (scover1_B_1 c i arg2 harg2 arg3 harg3 arg4 harg4 arg5 harg5 arg6 harg6 hc0 hc1 x0 x1 xs0 xs1)]
  unfold kernelRun1_B
  dsimp only
  sl_unfold_words
  rw [View.canon_unit_zero (S := S2048x1) hz1]
  simp only [View.readAt_eq_ld, harg2.read_unread, harg3.read_unread, harg5.read_unread, harg6.read_unread, View.ld_unit_zero (S := S2048x64) hz1, View.ld_unit_zero (S := S64x1024) hz1, View.ld_unit_zero (S := S2048x1) hz1]

/-! ## A last column tile: the same update, then the output block from the sum just stored -/

theorem sout1_C_0_eq (c : Dev nD) (i : grid1.Coords) (arg2 : Memref sig .tc .vmem S2048x64 .bf16) (harg2 : arg2.IsWhole) (arg3 : Memref sig .tc .vmem S64x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond1_0 i) (hc1 : cond1_1 i)
    (x0 : Vec F S2048x64 .bf16) (x1 : Vec F S64x1024 .bf16) (xs0 : Vec F S2048x1 .f32) (xs1 : Vec F S2048x1 .f32) :
    sout1_C_0 c i arg2 harg2 arg3 harg3 arg4 harg4 arg5 harg5 arg6 harg6 hc0 hc1 x0 x1 xs0 xs1 = k1_pay7 x0 x1 xs0 := by
  unfold sout1_C_0
  rw [View.read_writes_eq_canon _ _ _ (scover1_C_0 c i arg2 harg2 arg3 harg3 arg4 harg4 arg5 harg5 arg6 harg6 hc0 hc1 x0 x1 xs0 xs1)]
  unfold kernelRun1_C
  dsimp only
  sl_unfold_words
  rw [View.canon_unit_zero (S := S2048x1) hz1]
  simp only [View.readAt_eq_ld, harg2.read_unread, harg3.read_unread, harg5.read_unread, harg6.read_unread, View.ld_unit_zero (S := S2048x64) hz1, View.ld_unit_zero (S := S64x1024) hz1, View.ld_unit_zero (S := S2048x1) hz1]

theorem sout1_C_1_eq (c : Dev nD) (i : grid1.Coords) (arg2 : Memref sig .tc .vmem S2048x64 .bf16) (harg2 : arg2.IsWhole) (arg3 : Memref sig .tc .vmem S64x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond1_0 i) (hc1 : cond1_1 i)
    (x0 : Vec F S2048x64 .bf16) (x1 : Vec F S64x1024 .bf16) (xs0 : Vec F S2048x1 .f32) (xs1 : Vec F S2048x1 .f32) :
    sout1_C_1 c i arg2 harg2 arg3 harg3 arg4 harg4 arg5 harg5 arg6 harg6 hc0 hc1 x0 x1 xs0 xs1 = k1_pay6 x0 x1 xs0 xs0 xs1 := by
  unfold sout1_C_1
  rw [View.read_writes_eq_canon _ _ _ (scover1_C_1 c i arg2 harg2 arg3 harg3 arg4 harg4 arg5 harg5 arg6 harg6 hc0 hc1 x0 x1 xs0 xs1)]
  unfold kernelRun1_C
  dsimp only
  sl_unfold_words
  rw [View.canon_unit_zero (S := S2048x1) hz1]
  simp only [View.readAt_eq_ld, harg2.read_unread, harg3.read_unread, harg5.read_unread, harg6.read_unread, View.ld_unit_zero (S := S2048x64) hz1, View.ld_unit_zero (S := S64x1024) hz1, View.ld_unit_zero (S := S2048x1) hz1]

/-- The output block is the quotient of the running sum just stored (read back whole) by itself. -/
theorem out1_C_2_eq (c : Dev nD) (i : grid1.Coords) (arg2 : Memref sig .tc .vmem S2048x64 .bf16) (harg2 : arg2.IsWhole) (arg3 : Memref sig .tc .vmem S64x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond1_0 i) (hc1 : cond1_1 i)
    (x0 : Vec F S2048x64 .bf16) (x1 : Vec F S64x1024 .bf16) (xs0 : Vec F S2048x1 .f32) (xs1 : Vec F S2048x1 .f32) :
    out1_C_2 c i arg2 harg2 arg3 harg3 arg4 harg4 arg5 harg5 arg6 harg6 hc0 hc1 x0 x1 xs0 xs1 = k1_pay1 (sout1_C_1 c i arg2 harg2 arg3 harg3 arg4 harg4 arg5 harg5 arg6 harg6 hc0 hc1 x0 x1 xs0 xs1) := by
  unfold out1_C_2 sout1_C_1
  rw [View.read_writes_eq_canon _ _ _ (cover1_C_2 c i arg2 harg2 arg3 harg3 arg4 harg4 arg5 harg5 arg6 harg6 hc0 hc1 x0 x1 xs0 xs1), View.read_writes_eq_canon _ _ _ (scover1_C_1 c i arg2 harg2 arg3 harg3 arg4 harg4 arg5 harg5 arg6 harg6 hc0 hc1 x0 x1 xs0 xs1)]
  unfold kernelRun1_C
  dsimp only
  sl_unfold_words
  simp only [View.canon_unit_zero (S := S2048x1) hz1, View.readCov_unit_zero (S := S2048x1) _ hz1]

/-! ## A first column tile: the re-initialising store, read back by the update's loads, then the update's store -/

theorem sout1_A_0_eq (c : Dev nD) (i : grid1.Coords) (arg2 : Memref sig .tc .vmem S2048x64 .bf16) (harg2 : arg2.IsWhole) (arg3 : Memref sig .tc .vmem S64x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond1_0 i) (hc1 : ¬cond1_1 i)
    (x0 : Vec F S2048x64 .bf16) (x1 : Vec F S64x1024 .bf16) :
    sout1_A_0 c i arg2 harg2 arg3 harg3 arg4 harg4 arg5 harg5 arg6 harg6 hc0 hc1 x0 x1 = k1_pay7 x0 x1 k1_pay2 := by
  unfold sout1_A_0
  rw [View.read_writes_eq_canon _ _ _ (scover1_A_0 c i arg2 harg2 arg3 harg3 arg4 harg4 arg5 harg5 arg6 harg6 hc0 hc1 x0 x1)]
  unfold kernelRun1_A
  dsimp only
  sl_unfold_words
  rw [View.canon_cons_unit_zero (S := S2048x1) hz1, View.readCov_unit_zero (S := S2048x1) _ hz1]
  simp only [View.readAt_eq_ld, harg2.read_unread, harg3.read_unread, View.ld_unit_zero (S := S2048x64) hz1, View.ld_unit_zero (S := S64x1024) hz1]

theorem sout1_A_1_eq (c : Dev nD) (i : grid1.Coords) (arg2 : Memref sig .tc .vmem S2048x64 .bf16) (harg2 : arg2.IsWhole) (arg3 : Memref sig .tc .vmem S64x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond1_0 i) (hc1 : ¬cond1_1 i)
    (x0 : Vec F S2048x64 .bf16) (x1 : Vec F S64x1024 .bf16) :
    sout1_A_1 c i arg2 harg2 arg3 harg3 arg4 harg4 arg5 harg5 arg6 harg6 hc0 hc1 x0 x1 = k1_pay6 x0 x1 k1_pay2 k1_pay2 k1_pay3 := by
  unfold sout1_A_1
  rw [View.read_writes_eq_canon _ _ _ (scover1_A_1 c i arg2 harg2 arg3 harg3 arg4 harg4 arg5 harg5 arg6 harg6 hc0 hc1 x0 x1)]
  unfold kernelRun1_A
  dsimp only
  sl_unfold_words
  rw [View.canon_cons_unit_zero (S := S2048x1) hz1, View.readCov_unit_zero (S := S2048x1) _ hz1, View.readCov_unit_zero (S := S2048x1) _ hz1]
  simp only [View.readAt_eq_ld, harg2.read_unread, harg3.read_unread, View.ld_unit_zero (S := S2048x64) hz1, View.ld_unit_zero (S := S64x1024) hz1]

/-! ## Point by point -/

section Region
variable (V : (c : Dev nD) → (b : Ref sig .tc) → Buf (Elt F) ((c : Thread nD τ).loc b))

/-- At a first column tile the running maximum and sum are the update of the re-initialised pair. -/
theorem outsAt1_first (c : Dev nD) (t : Fin cfg1.N) (h : t.val % 4 = 0) :
    (outsAt1 V c t.val t.isLt).2 = (k1_pay7 (iblk1 V c 0 t) (iblk1 V c 1 t) k1_pay2, k1_pay6 (iblk1 V c 0 t) (iblk1 V c 1 t) k1_pay2 k1_pay2 k1_pay3) := by
  have h1 : ¬t.val % 4 = 3 := by omega
  rw [outsAt1_A V c t h h1]
  dsimp only
  rw [sout1_A_0_eq, sout1_A_1_eq]

/-- At every other tile they are the update of what the tile before left. -/
theorem outsAt1_next (c : Dev nD) (t : Fin cfg1.N) (h : t.val % 4 ≠ 0) :
    (outsAt1 V c t.val t.isLt).2 = (k1_pay7 (iblk1 V c 0 t) (iblk1 V c 1 t) (outsAt1 V c (t.val - 1) (Nat.lt_of_le_of_lt (Nat.sub_le _ _) t.isLt)).2.1, k1_pay6 (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.1 (outsAt1 V c (t.val - 1) (Nat.lt_of_le_of_lt (Nat.sub_le _ _) t.isLt)).2.2) := by
  by_cases h1 : t.val % 4 = 3
  · rw [outsAt1_C V c t h h1]
    dsimp only
    rw [sout1_C_0_eq, sout1_C_1_eq]
  · rw [outsAt1_B V c t h h1]
    dsimp only
    rw [sout1_B_0_eq, sout1_B_1_eq]

/-- At a last column tile the output block is the running sum just left, divided by itself. -/
theorem outsAt1_out (c : Dev nD) (t : Fin cfg1.N) (h : t.val % 4 = 3) :
    (outsAt1 V c t.val t.isLt).1 = k1_pay1 (outsAt1 V c t.val t.isLt).2.2 := by
  have h0 : ¬t.val % 4 = 0 := by omega
  rw [outsAt1_C V c t h0 h]
  dsimp only
  exact out1_C_2_eq ..

end Region

end Cert.KernelIdeal.Fr

end
-- ==== Proof.LibLaneSum.lean ====
/-
  A float sum along ONE axis of a vector, read over the extended reals at an index given by coordinates: it is the
  finite sum over that axis's coordinate of the source at the index with the coordinate put back. Three forms:
  along the last axis of a matrix `[a, b]` (each row's sum), along the last axis of a rank-3 array `[a, c, b]`
  (each row's sum, slab by slab), and along the first axis of a matrix `[a, b]` (each column's sum). Each is the
  general one-axis law with the re-inserted index written by coordinates.
-/
import Idealize.ShloMosaic.PureOps.Ideal.Laws
import Idealize.ShloMosaic.Lib.ValueIdx

namespace Cert.LaneSum

open Idealize.ShloMosaic Idealize.ShloMosaic.ValueIdx

variable {φ : FTy}

/-- The sum of row `i` of a matrix: over the column coordinate. -/
theorem sum_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ d : Fin b, src (ix2 i d) := by
  refine (Ideal.multiReduction_add_single src acc h hφ hacc (ix1 i)).trans ?_
  refine Finset.sum_congr rfl fun d _ => ?_
  exact congrArg src (funext fun ax => Fin.ext (by match ax with | ⟨0, _⟩ => rfl | ⟨1, _⟩ => rfl))

/-- The sum of row `(i, j)` of a rank-3 array: over the last coordinate. -/
theorem sum_last3 {a c b : ℕ} (src : FVec Ideal ⟨3, ![a, c, b]⟩ φ) (acc : BitVec φ.bits)
    (h : (⟨3, ![a, c, b]⟩ : Shape).Reduces [2] ⟨2, ![a, c]⟩) (hφ : FKind.Formats φ) (hacc : acc = FKind.add.neutral φ hφ)
    (i : Fin a) (j : Fin c) :
    multiReduction .add [2] ⟨2, ![a, c]⟩ src acc h hφ hacc (ix2 i j) = ∑ d : Fin b, src (ix3 i j d) := by
  refine (Ideal.multiReduction_add_single src acc h hφ hacc (ix2 i j)).trans ?_
  refine Finset.sum_congr rfl fun d _ => ?_
  exact congrArg src (funext fun ax => Fin.ext (by match ax with | ⟨0, _⟩ => rfl | ⟨1, _⟩ => rfl | ⟨2, _⟩ => rfl))

/-- The sum of column `j` of a matrix: over the row coordinate. -/
theorem sum_first2 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun ax => Fin.ext (by match ax with | ⟨0, _⟩ => rfl | ⟨1, _⟩ => rfl))

end Cert.LaneSum
-- ==== Proof.LibColumn.lean ====
/-
  Two layout operations read at an index given by coordinates, for a column kept after a sum along the rows'
  entries (`keepdims`): a vector `[a]` cast to the column `[a, 1]`, and a column `[a, 1]` broadcast along a new
  second axis to `[a, b]`. Both are instances of the general "layout operation read at an index" lemmas with the
  coordinates' arithmetic discharged, in the same form as the row versions the index library already has.
-/
import Idealize.ShloMosaic.Lib.Pipeline.Value
import Idealize.ShloMosaic.Lib.ValueIdx

namespace Cert.GraphConv.Column

open Idealize.ShloMosaic Idealize.ShloMosaic.ValueIdx

variable {α : Type}

/-- A vector `[a]` cast to the column `[a, 1]` reads, at `(i, u)`, the operand at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.GraphConv.Column
-- ==== Proof.LibOnlineSoftmax.lean ====
/-
  The online softmax row sum over the extended reals, one row and one column tile at a time.

  A row keeps a running maximum `m` (−∞ before the first tile, a real afterwards) and a running sum `l`
  (zero before the first tile).  A tile of real scores `s j` updates them to
    m' = max m (max_j s j),      l' = exp (m − m') · l + ∑ j, exp (s j − m').
  Whatever the scores are, as long as they are real numbers and the tile is not empty, `m'` is a real number
  and `l'` is a POSITIVE real number: `exp (m − m')` is `exp (−∞) = 0` or the exponential of a real, and every
  `exp (s j − m')` is the exponential of a real, hence positive.  So the quotient `l' / l'` the kernel stores at
  the last tile is exactly one.
-/
import Idealize.ShloMosaic.PureOps.Ideal
import Idealize.ShloMosaic.PureOps.Ideal.Laws
import proofs.«145297_j7275674600023_1_alg».proof.Proof.LibRealLaw

noncomputable section

namespace Cert.SoftRow

open Idealize.ShloMosaic Cert.Scores

open scoped BigOperators

/-- A running maximum: −∞ (no tile seen yet) or a real number. -/
def BotOrReal (m : EReal) : Prop := m = ⊥ ∨ IsReal m

/-- A running sum: a real number that is not negative. -/
def NonnegReal (l : EReal) : Prop := ∃ r : ℝ, l = (r : EReal) ∧ 0 ≤ r

/-- A positive real number. -/
def PosReal (l : EReal) : Prop := ∃ r : ℝ, l = (r : EReal) ∧ 0 < r

theorem PosReal.nonneg {l : EReal} (h : PosReal l) : NonnegReal l := by
  obtain ⟨r, hr, hp⟩ := h; exact ⟨r, hr, le_of_lt hp⟩

theorem PosReal.isReal {l : EReal} (h : PosReal l) : IsReal l := by
  obtain ⟨r, hr, _⟩ := h; exact ⟨r, hr⟩

theorem botOrReal_bot : BotOrReal ⊥ := Or.inl rfl

theorem nonnegReal_zero : NonnegReal 0 := ⟨0, rfl, le_refl _⟩

theorem botOrReal_of_isReal {m : EReal} (h : IsReal m) : BotOrReal m := Or.inr h

theorem exp_coe (r : ℝ) : Ideal.exp (r : EReal) = ((Real.exp r : ℝ) : EReal) := rfl

theorem exp_bot : Ideal.exp ⊥ = 0 := rfl

/-- The maximum of two real numbers is a real number. -/
theorem isReal_max {x y : EReal} (hx : IsReal x) (hy : IsReal y) : IsReal (max x y) := by
  obtain ⟨a, rfl⟩ := hx
  obtain ⟨b, rfl⟩ := hy
  exact ⟨max a b, ((EReal.coe_strictMono.monotone).map_max (a := a) (b := b)).symm⟩

/-- The difference of two real numbers is a real number. -/
theorem isReal_sub {x y : EReal} (hx : IsReal x) (hy : IsReal y) : IsReal (x - y) := by
  obtain ⟨a, rfl⟩ := hx
  obtain ⟨b, rfl⟩ := hy
  exact ⟨a - b, (EReal.coe_sub a b).symm⟩

/-- The exponential of a real number is a positive real number. -/
theorem posReal_exp {x : EReal} (hx : IsReal x) : PosReal (Ideal.exp x) := by
  obtain ⟨a, rfl⟩ := hx
  exact ⟨Real.exp a, exp_coe a, Real.exp_pos a⟩

/-- The maximum of a tile of real scores, folded from −∞, is a real number when the tile is not empty. -/
theorem fold_max_isReal {n : ℕ} (hn : 0 < n) (f : Fin n → EReal) (hf : ∀ j, IsReal (f j)) :
    IsReal ((Finset.univ : Finset (Fin n)).fold max ⊥ f) := by
  have h1 : ∀ s : Finset (Fin n), s.fold max ⊥ f = ⊥ ∨ IsReal (s.fold max ⊥ f) := by
    intro s
    induction s using Finset.induction_on with
    | empty => exact Or.inl (Finset.fold_empty)
    | insert a s ha ih =>
      rw [Finset.fold_insert ha]
      rcases ih with h | h
      · right; rw [h, max_bot_right]; exact hf a
      · right; exact isReal_max (hf a) h
  rcases h1 Finset.univ with h | h
  · exfalso
    have hle : f ⟨0, hn⟩ ≤ (Finset.univ : Finset (Fin n)).fold max ⊥ f :=
      (Finset.le_fold_max (f ⟨0, hn⟩)).mpr (Or.inr ⟨⟨0, hn⟩, Finset.mem_univ _, le_refl _⟩)
    obtain ⟨x, hx⟩ := hf ⟨0, hn⟩
    rw [h, hx] at hle
    exact absurd hle (not_le.mpr (EReal.bot_lt_coe x))
  · exact h

/-- The new running maximum is a real number. -/
theorem newMax_isReal {m r : EReal} (hm : BotOrReal m) (hr : IsReal r) : IsReal (max m r) := by
  rcases hm with h | h
  · rw [h, max_bot_left]; exact hr
  · exact isReal_max h hr

/-- The rescaling factor `exp (m − m')` of the old sum is a real number that is not negative. -/
theorem nonnegReal_rescale {m m' : EReal} (hm : BotOrReal m) (hm' : IsReal m') : NonnegReal (Ideal.exp (m - m')) := by
  rcases hm with h | h
  · obtain ⟨b, rfl⟩ := hm'
    rw [h, EReal.bot_sub, exp_bot]
    exact nonnegReal_zero
  · exact (posReal_exp (isReal_sub h hm')).nonneg

/-- The sum of a non-empty tile of positive real numbers is a positive real number. -/
theorem posReal_sum {n : ℕ} (hn : 0 < n) (f : Fin n → EReal) (hf : ∀ j, PosReal (f j)) : PosReal (∑ j : Fin n, f j) := by
  choose g hg hp using hf
  refine ⟨∑ j : Fin n, g j, ?_, ?_⟩
  · rw [coe_sum]; exact Finset.sum_congr rfl fun j _ => hg j
  · exact Finset.sum_pos (fun j _ => hp j) ⟨⟨0, hn⟩, Finset.mem_univ _⟩

/-- The new running sum `a · l + p` with `a`, `l` real and not negative and `p` real and positive is a positive real. -/
theorem posReal_update {a l p : EReal} (ha : NonnegReal a) (hl : NonnegReal l) (hp : PosReal p) : PosReal (a * l + p) := by
  obtain ⟨a', rfl, ha0⟩ := ha
  obtain ⟨l', rfl, hl0⟩ := hl
  obtain ⟨p', rfl, hp0⟩ := hp
  refine ⟨a' * l' + p', ?_, ?_⟩
  · rw [EReal.coe_add, EReal.coe_mul]
  · exact add_pos_of_nonneg_of_pos (mul_nonneg ha0 hl0) hp0

/-- ONE TILE.  From a running maximum that is −∞ or real and a running sum that is real and not negative, a
    non-empty tile of real scores leaves a real maximum and a positive real sum. -/
theorem tile_step {n : ℕ} (hn : 0 < n) (s : Fin n → EReal) (hs : ∀ j, IsReal (s j)) {m l : EReal}
    (hm : BotOrReal m) (hl : NonnegReal l) :
    IsReal (max m ((Finset.univ : Finset (Fin n)).fold max ⊥ s))
      ∧ PosReal (Ideal.exp (m - max m ((Finset.univ : Finset (Fin n)).fold max ⊥ s)) * l
          + ∑ j : Fin n, Ideal.exp (s j - max m ((Finset.univ : Finset (Fin n)).fold max ⊥ s))) := by
  have hm' : IsReal (max m ((Finset.univ : Finset (Fin n)).fold max ⊥ s)) :=
    newMax_isReal hm (fold_max_isReal hn s hs)
  exact ⟨hm', posReal_update (nonnegReal_rescale hm hm') hl
    (posReal_sum hn _ fun j => posReal_exp (isReal_sub (hs j) hm'))⟩

/-- The quotient of a positive real number by itself is one. -/
theorem div_self_of_posReal {l : EReal} (hl : PosReal l) : Ideal.div l l = 1 := by
  obtain ⟨r, rfl, hr⟩ := hl
  rw [Ideal.div_coe (ne_of_gt hr), ← EReal.coe_mul, mul_one_div_cancel (ne_of_gt hr)]
  rfl

end Cert.SoftRow

end
-- ==== Proof.KPaySoft.lean ====
/-
  The softmax row-sum kernel's stored values, read at a row over the extended reals.

  A tile of scores is the plain product of a [2048, 64] block of queries with a [64, 1024] block of transposed
  keys, scaled: entry (r, j) is (∑ d, q (r, d) · k (d, j)) · c with c the scale literal, a real number.  The
  kernel keeps per row a running maximum and a running sum in two [2048, 1] columns and updates them as
    max' r = max (max r) (max_j score (r, j)),
    sum' r = exp (max r − max' r) · sum r + ∑ j, exp (score (r, j) − max' r);
  at the first tile it first resets them to −∞ and 0, and at the last tile it stores sum' / sum'.
  For real queries and keys one tile turns a maximum that is −∞ or real and a sum that is real and not negative
  into a real maximum and a POSITIVE real sum, so the stored quotient is one in every row.
-/
import proofs.«145297_j7275674600023_1_alg».proof.Proof.Gen.KernelIdeal.Skeleton
import proofs.«145297_j7275674600023_1_alg».proof.Proof.LibPlainDot
import proofs.«145297_j7275674600023_1_alg».proof.Proof.LibLaneSum
import proofs.«145297_j7275674600023_1_alg».proof.Proof.LibColumn
import proofs.«145297_j7275674600023_1_alg».proof.Proof.LibOnlineSoftmax
import Idealize.ShloMosaic.Lib.ValueIdx
import Idealize.ShloMosaic.Lib.Pipeline.Value

noncomputable section

namespace Cert.KPay

open Idealize.ShloMosaic Idealize.ShloMosaic.ValueIdx Cert.KernelIdeal Cert.KernelIdeal.Gen Cert.Scores Cert.SoftRow

open scoped BigOperators

/-- The −∞ word denotes the bottom of the extended reals. -/
theorem ofBits_neg_inf : Ideal.ofBits .f32 0xFF800000#32 = ⊥ := by simp [Ideal.ofBits, Ideal.ieee]

/-- The scale literal denotes a real number. -/
theorem isReal_scale : IsReal (Ideal.ofBits .f32 0x3E000000#32) := by
  refine ⟨(1 : ℝ) / 8, ?_⟩
  simp [Ideal.ofBits, Ideal.ieee, -EReal.coe_mul]; norm_num

/-- A lane maximum of a matrix, read at a row: the fold of `max` from the accumulator's value over the row. -/
theorem laneMax2 {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (FloatOps.ofBits φ acc) (fun d => src (ix2 i d)) := by
  refine (Ideal.multiReduction_maximumf_single src acc h hφ hacc (ix1 i)).trans ?_
  refine Finset.fold_congr fun d _ => ?_
  exact congrArg src (funext fun ax => Fin.ext (by match ax with | ⟨0, _⟩ => rfl | ⟨1, _⟩ => rfl))

/-- The score tile at (r, j). -/
def score (q : Vec Ideal S2048x64 .bf16) (k : Vec Ideal S64x1024 .bf16) (r : Fin 2048) (j : Fin 1024) : EReal :=
  (∑ d : Fin 64, q (ix2 r d) * k (ix2 d j)) * Ideal.ofBits .f32 0x3E000000#32

theorem k1_pay4_apply (q : Vec Ideal S2048x64 .bf16) (k : Vec Ideal S64x1024 .bf16) (r : Fin 2048) (j : Fin 1024) :
    k1_pay4 (F := Ideal) q k (ix2 r j) = score q k r j := by
  unfold k1_pay4 score
  rw [shapeCast_self, shapeCast_self]
  exact congrArg (· * Ideal.ofBits .f32 0x3E000000#32) (Cert.PlainDot.matmul_zero_apply _ rfl none q k r j)

/-- Real queries and keys give real scores. -/
theorem isReal_score (q : Vec Ideal S2048x64 .bf16) (k : Vec Ideal S64x1024 .bf16) (hq : ∀ i, IsReal (q i)) (hk : ∀ i, IsReal (k i))
    (r : Fin 2048) (j : Fin 1024) : IsReal (score q k r j) :=
  (IsReal.sum _ fun d => (hq _).mul (hk _)).mul isReal_scale

/-- The new running maximum of row r. -/
def newMax (q : Vec Ideal S2048x64 .bf16) (k : Vec Ideal S64x1024 .bf16) (m : EReal) (r : Fin 2048) : EReal :=
  max m ((Finset.univ : Finset (Fin 1024)).fold max ⊥ (fun j => score q k r j))

theorem k1_pay5_apply (q : Vec Ideal S2048x64 .bf16) (k : Vec Ideal S64x1024 .bf16) (m : Vec Ideal S2048x1 .f32) (r : Fin 2048) :
    k1_pay5 (F := Ideal) q k m (ix2 r (0 : Fin 1)) = newMax q k (m (ix2 r (0 : Fin 1))) r := by
  unfold k1_pay5 newMax
  refine congrArg (max (m (ix2 r (0 : Fin 1)))) ?_
  refine (Cert.GraphConv.Column.shapeCast_a_a1_apply _ _ r (0 : Fin 1)).trans ?_
  refine (laneMax2 _ _ _ _ _ r).trans ?_
  rw [Ideal.ofBits_def, ofBits_neg_inf]
  exact Finset.fold_congr fun j _ => k1_pay4_apply q k r j

theorem k1_pay7_apply (q : Vec Ideal S2048x64 .bf16) (k : Vec Ideal S64x1024 .bf16) (m : Vec Ideal S2048x1 .f32) (r : Fin 2048) :
    k1_pay7 (F := Ideal) q k m (ix2 r (0 : Fin 1)) = newMax q k (m (ix2 r (0 : Fin 1))) r := by
  unfold k1_pay7
  rw [shapeCast_self]
  exact k1_pay5_apply q k m r

/-- The new running sum of row r, from the old maximum (read twice by the kernel) and the old sum. -/
theorem k1_pay6_apply (q : Vec Ideal S2048x64 .bf16) (k : Vec Ideal S64x1024 .bf16) (m m2 l : Vec Ideal S2048x1 .f32) (r : Fin 2048) :
    k1_pay6 (F := Ideal) q k m m2 l (ix2 r (0 : Fin 1))
      = Ideal.exp (m2 (ix2 r (0 : Fin 1)) - newMax q k (m (ix2 r (0 : Fin 1))) r) * l (ix2 r (0 : Fin 1))
        + ∑ j : Fin 1024, Ideal.exp (score q k r j - newMax q k (m (ix2 r (0 : Fin 1))) r) := by
  unfold k1_pay6
  rw [shapeCast_self]
  refine congrArg₂ (· + ·) ?_ ?_
  · exact congrArg (fun z => Ideal.exp (m2 (ix2 r (0 : Fin 1)) - z) * l (ix2 r (0 : Fin 1))) (k1_pay5_apply q k m r)
  · refine (Cert.GraphConv.Column.shapeCast_a_a1_apply _ _ r (0 : Fin 1)).trans ?_
    refine (Cert.LaneSum.sum_last2 _ _ _ _ _ r).trans ?_
    refine Finset.sum_congr rfl fun j _ => ?_
    refine congrArg₂ (fun a b => Ideal.exp (a - b)) (k1_pay4_apply q k r j) ?_
    exact (Cert.GraphConv.Column.broadcastTo_a1_ab_apply _ _ r j).trans (k1_pay5_apply q k m r)

/-- The reset values: −∞ in every row of the maximum, zero in every row of the sum. -/
theorem k1_pay2_apply (y : S2048x1.Idx) : k1_pay2 (F := Ideal) y = ⊥ := by
  unfold k1_pay2
  rw [shapeCast_self]
  exact ofBits_neg_inf

theorem k1_pay3_apply (y : S2048x1.Idx) : k1_pay3 (F := Ideal) y = 0 := by
  unfold k1_pay3
  rw [shapeCast_self]
  exact Ideal.ofBits_zero_f32

/-- ONE TILE, all rows: real blocks turn a maximum column of −∞-or-real entries and a sum column of nonnegative
    real entries into a real maximum column and a positive real sum column. -/
theorem tile (q : Vec Ideal S2048x64 .bf16) (k : Vec Ideal S64x1024 .bf16) (hq : ∀ i, IsReal (q i)) (hk : ∀ i, IsReal (k i))
    (m l : Vec Ideal S2048x1 .f32) (hm : ∀ y, BotOrReal (m y)) (hl : ∀ y, NonnegReal (l y)) :
    (∀ y, IsReal (k1_pay7 (F := Ideal) q k m y)) ∧ (∀ y, PosReal (k1_pay6 (F := Ideal) q k m m l y)) := by
  have key : ∀ r : Fin 2048, IsReal (newMax q k (m (ix2 r (0 : Fin 1))) r)
      ∧ PosReal (Ideal.exp (m (ix2 r (0 : Fin 1)) - newMax q k (m (ix2 r (0 : Fin 1))) r) * l (ix2 r (0 : Fin 1))
          + ∑ j : Fin 1024, Ideal.exp (score q k r j - newMax q k (m (ix2 r (0 : Fin 1))) r)) := fun r =>
    tile_step (by norm_num) (fun j => score q k r j) (fun j => isReal_score q k hq hk r j) (hm _) (hl _)
  refine ⟨fun y => ?_, fun y => ?_⟩
  · obtain ⟨r, u, rfl⟩ : ∃ (r : Fin 2048) (u : Fin 1), y = ix2 r u := ⟨y 0, y 1, eq_ix2 y⟩
    obtain rfl : u = 0 := Subsingleton.elim _ _
    rw [k1_pay7_apply]; exact (key r).1
  · obtain ⟨r, u, rfl⟩ : ∃ (r : Fin 2048) (u : Fin 1), y = ix2 r u := ⟨y 0, y 1, eq_ix2 y⟩
    obtain rfl : u = 0 := Subsingleton.elim _ _
    rw [k1_pay6_apply]; exact (key r).2

/-- The reset columns satisfy the tile's hypotheses. -/
theorem reset_max (y : S2048x1.Idx) : BotOrReal (k1_pay2 (F := Ideal) y) := by rw [k1_pay2_apply]; exact botOrReal_bot
theorem reset_sum (y : S2048x1.Idx) : NonnegReal (k1_pay3 (F := Ideal) y) := by rw [k1_pay3_apply]; exact nonnegReal_zero

/-- The stored quotient of a positive real sum column by itself is one in every row. -/
theorem k1_pay1_one (l : Vec Ideal S2048x1 .f32) (hl : ∀ y, PosReal (l y)) (y : S2048x1.Idx) : k1_pay1 (F := Ideal) l y = 1 := by
  unfold k1_pay1
  exact div_self_of_posReal (hl y)

end Cert.KPay

end
-- ==== Proof.ValR1.lean ====
/-
  The row-sum array after the softmax region, over the extended reals: every entry is one when the query array and
  the transposed key array hold real numbers.

  The region visits each row block at four consecutive grid points, one per column tile of the keys.  The two
  carried columns hold, after every grid point, a real running maximum and a POSITIVE real running sum: the first
  point of a row block starts from the reset columns (−∞ and 0), every other point from what the point before
  left, and one tile of real scores turns either into a real maximum and a positive real sum.  At the last point of
  a row block the kernel stores sum / sum = 1 into its output block and the pipeline writes that block back; the
  sixteen row blocks cover the array.
-/
import proofs.«145297_j7275674600023_1_alg».proof.Proof.KernelIdeal.Region1
import proofs.«145297_j7275674600023_1_alg».proof.Proof.KernelIdeal.Region1Value
import proofs.«145297_j7275674600023_1_alg».proof.Proof.KPaySoft
import Idealize.ShloMosaic.Lib.Pipeline.Value
import Idealize.ShloMosaic.Lib.ValueIdx

set_option maxRecDepth 16384

noncomputable section

namespace Cert.KVal

open Idealize.ShloMosaic Idealize.ShloMosaic.TcCoe Idealize.ShloMosaic.ValueIdx Idealize.SL.Sem
open Cert.KernelIdeal Cert.KernelIdeal.Gen Cert.KernelIdeal.Fr Cert.Scores Cert.SoftRow
open Idealize.ShloMosaic.Pipeline (Dat)

open scoped BigOperators

variable (V : (c : Dev nD) → (b : Ref sig .tc) → Buf (Elt Ideal) ((c : Thread nD τ).loc b))

/-- A block's entry is an entry of its array. -/
theorem iblk1_0_real (c : Dev nD) (t : Fin cfg1.N) (hq : ∀ i : S32768x64.Idx, IsReal ((V c main_v5 : S32768x64.Idx → EReal) i))
    (z : S2048x64.Idx) : IsReal ((iblk1 V c 0 t : S2048x64.Idx → EReal) z) := by
  unfold iblk1
  rw [View.read_apply]
  exact hq _

theorem iblk1_1_real (c : Dev nD) (t : Fin cfg1.N) (hk : ∀ i : S64x4096.Idx, IsReal ((V c main_v7 : S64x4096.Idx → EReal) i))
    (z : S64x1024.Idx) : IsReal ((iblk1 V c 1 t : S64x1024.Idx → EReal) z) := by
  unfold iblk1
  rw [View.read_apply]
  exact hk _

/-- THE CARRIED COLUMNS after every grid point: a real maximum and a positive real sum in every row. -/
theorem carried (c : Dev nD) (hq : ∀ i : S32768x64.Idx, IsReal ((V c main_v5 : S32768x64.Idx → EReal) i))
    (hk : ∀ i : S64x4096.Idx, IsReal ((V c main_v7 : S64x4096.Idx → EReal) i)) :
    ∀ (n : ℕ) (hn : n < cfg1.N), (∀ y, IsReal ((outsAt1 V c n hn).2.1 y)) ∧ (∀ y, PosReal ((outsAt1 V c n hn).2.2 y)) := by
  intro n
  induction n with
  | zero =>
    intro hn
    rw [outsAt1_first V c ⟨0, hn⟩ (Nat.zero_mod 4)]
    exact Cert.KPay.tile _ _ (iblk1_0_real V c ⟨0, hn⟩ hq) (iblk1_1_real V c ⟨0, hn⟩ hk) _ _ Cert.KPay.reset_max Cert.KPay.reset_sum
  | succ n ih =>
    intro hn
    by_cases h : (n + 1) % 4 = 0
    · rw [outsAt1_first V c ⟨n + 1, hn⟩ h]
      exact Cert.KPay.tile _ _ (iblk1_0_real V c ⟨n + 1, hn⟩ hq) (iblk1_1_real V c ⟨n + 1, hn⟩ hk) _ _ Cert.KPay.reset_max Cert.KPay.reset_sum
    · have hp := ih (Nat.lt_of_succ_lt hn)
      rw [outsAt1_next V c ⟨n + 1, hn⟩ h]
      exact Cert.KPay.tile _ _ (iblk1_0_real V c ⟨n + 1, hn⟩ hq) (iblk1_1_real V c ⟨n + 1, hn⟩ hk) _ _
        (fun y => botOrReal_of_isReal (hp.1 y)) (fun y => (hp.2 y).nonneg)

/-- What a writing grid point writes back: the stored quotient, one in every row. -/
theorem flushed1_one (c : Dev nD) (t : Fin cfg1.N) (hf : (cfg1.win 2).flush t = true)
    (hq : ∀ i : S32768x64.Idx, IsReal ((V c main_v5 : S32768x64.Idx → EReal) i))
    (hk : ∀ i : S64x4096.Idx, IsReal ((V c main_v7 : S64x4096.Idx → EReal) i)) (y : S2048x1.Idx) :
    (((dat1 V c).flushed 2 t : S2048x1.Idx → EReal) y : EReal) = (1 : EReal) := by
  have h3 : t.val % 4 = 3 := (flush1_2 t).mp hf
  have e : (dat1 V c).flushed 2 t = (outsAt1 V c t.val t.isLt).1 := by
    show (cfg1.win 2).cut (grid1.coords t) ((dat1 V c).after 2 t) = _
    rw [after1_2]
    rfl
  rw [e, outsAt1_out V c t h3]
  exact Cert.KPay.k1_pay1_one _ (carried V c hq hk t.val t.isLt).2 y

/-- An index of the row-sum array is in point `t`'s block iff each coordinate is in the block's range. -/
theorem mem_blk1 (t : Fin cfg1.N) (i : S32768x1.Idx) :
    i ∈ ((cfg1.win 2).blk t).view.set ↔ ∀ a : Fin 2, win1_2.index t a * S2048x1.size a ≤ (i a).val ∧ (i a).val < win1_2.index t a * S2048x1.size a + S2048x1.size a := by
  show i ∈ ((View.whole main_v8).slice (win1_2.rect t)).set ↔ _
  rw [View.set_slice_whole, Rect.mem_set_unit]
  exact Iff.rfl

/-- Every row block is written back by some grid point. -/
theorem idx_onto1 : ∀ q0 : Fin 16, ∃ t : Fin cfg1.N, (cfg1.win 2).flush t = true ∧ win1_2.index t = ![q0.val, 0] :=
  (by decide +kernel : ∀ q0 : Fin 16, ∃ t : Fin grid1.N, win1_2.flush t = true ∧ win1_2.index t = ![q0.val, 0])

/-- The written blocks cover the array. -/
theorem cover1 (i : S32768x1.Idx) : ∃ t : Fin cfg1.N, (cfg1.win 2).flush t = true ∧ i ∈ ((cfg1.win 2).blk t).view.set := by
  have hi0 : (i 0).val < 32768 := (i 0).isLt
  have hi1 : (i 1).val < 1 := (i 1).isLt
  obtain ⟨t, hf, ht⟩ := idx_onto1 ⟨(i 0).val / 2048, by omega⟩
  have q0 : win1_2.index t (0 : Fin 2) = (i 0).val / 2048 := congrFun ht 0
  have q1 : win1_2.index t (1 : Fin 2) = 0 := congrFun ht 1
  refine ⟨t, hf, ?_⟩
  rw [mem_blk1]
  intro a
  match a with
  | ⟨0, _⟩ => show win1_2.index t (0 : Fin 2) * 2048 ≤ (i 0).val ∧ (i 0).val < win1_2.index t (0 : Fin 2) * 2048 + 2048; omega
  | ⟨1, _⟩ => show win1_2.index t (1 : Fin 2) * 1 ≤ (i 1).val ∧ (i 1).val < win1_2.index t (1 : Fin 2) * 1 + 1; omega

/-- THE ROW-SUM ARRAY after the region holds one in every entry. -/
theorem arr1_one (c : Dev nD) (hq : ∀ i : S32768x64.Idx, IsReal ((V c main_v5 : S32768x64.Idx → EReal) i))
    (hk : ∀ i : S64x4096.Idx, IsReal ((V c main_v7 : S64x4096.Idx → EReal) i)) (i : S32768x1.Idx) :
    (((dat1 V c).arrAt 2 cfg1.N : S32768x1.Idx → EReal) i : EReal) = (1 : EReal) :=
  (dat1 V c).arrAt_forall_of_cover 2 (fun _ v => (v : EReal) = (1 : EReal)) (fun t hf y => flushed1_one V c t hf hq hk y) cover1 i

end Cert.KVal

end
-- ==== Proof.ValR2.lean ====
/-
  The last product's array after its region, over the extended reals, as ONE function of its three operand arrays:
  entry (a, d) is (∑ k, L (a, k) · R (k, d)) + X (a, d).  Grid point `t` handles the row block `t`: its left and
  residual blocks are rows 512·t … 512·t + 511 of L and X, its right block is the whole of R, and it writes back the
  same rows of the result; the eight row blocks cover the array.
-/
import proofs.«145297_j7275674600023_1_alg».proof.Proof.KernelIdeal.Region2
import proofs.«145297_j7275674600023_1_alg».proof.Proof.KPayDot
import Idealize.ShloMosaic.Lib.Pipeline.Value
import Idealize.ShloMosaic.Lib.ValueIdx

set_option maxRecDepth 16384

noncomputable section

namespace Cert.KVal

open Idealize.ShloMosaic Idealize.ShloMosaic.TcCoe Idealize.ShloMosaic.ValueIdx Idealize.SL.Sem
open Cert.KernelIdeal Cert.KernelIdeal.Gen Cert.KernelIdeal.Fr
open Idealize.ShloMosaic.Pipeline (Dat)

open scoped BigOperators

variable (V : (c : Dev nD) → (b : Ref sig .tc) → Buf (Elt Ideal) ((c : Thread nD τ).loc b))

theorem hz2' : (![0, 0] : Fin 2 → Nat) = fun _ => 0 := funext fun a => by fin_cases a <;> rfl

/-- The result as one function of the left operand L, the right operand R and the residual X. -/
def Out2 (L : S4096x1024.Idx → EReal) (R : S1024x2048.Idx → EReal) (X : S4096x2048.Idx → EReal) : S4096x2048.Idx → EReal :=
  fun i => (∑ k : Fin 1024, L (ix2 (i 0) k) * R (ix2 k (i 1))) + X i

/-- What grid point `t` writes back: the product of its left block with the right operand, plus its residual block. -/
theorem flushed2 (c : Dev nD) (t : Fin cfg2.N) :
    (dat2 V c).flushed 3 t = k2_pay1 (iblk2 V c 0 t) (iblk2 V c 1 t) (iblk2 V c 2 t) := by
  show (cfg2.win 3).cut (grid2.coords t) ((dat2 V c).after 3 t) = _
  rw [after2_3]
  unfold out2_3
  rw [View.canon_unit_zero hz2']
  simp only [View.ld_unit_zero (S := S512x1024) hz2', View.ld_unit_zero (S := S1024x2048) hz2', View.ld_unit_zero (S := S512x2048) hz2']
  rfl

/-- The printed index maps, decided over the grid: the left, residual and result windows are at row block `t`,
    column block 0; the right window is the whole array. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- WHAT POINT `t` WRITES BACK is block `t` of `Out2` of the operand arrays as the region finds them. -/
theorem flushed2_eq (c : Dev nD) (t : Fin cfg2.N) :
    (dat2 V c).flushed 3 t = ((cfg2.win 3).blk t).view.read (Elt Ideal)
      (Out2 (V c main_v21 : S4096x1024.Idx → EReal) (V c main_v23 : S1024x2048.Idx → EReal) (V c main_arg0 : S4096x2048.Idx → EReal)) := by
  rw [flushed2]
  obtain ⟨e00, e01, e10, e11, e20, e21, e30, e31⟩ := idx_facts2 t
  funext y
  obtain ⟨p, q, rfl⟩ : ∃ (p : Fin 512) (q : Fin 2048), y = ix2 p q := ⟨y 0, y 1, eq_ix2 y⟩
  rw [Cert.KPay.k2_pay1_apply, View.read_apply]
  unfold Out2 iblk2
  simp only [View.read_apply]
  have hp : p.val < 512 := p.isLt
  have hq : q.val < 2048 := q.isLt
  have hL : ∀ k : Fin 1024, ((cfg2.win 0).blk t).view.emb (ix2 p k)
      = (ix2 (((cfg2.win 3).blk t).view.emb (ix2 p q) 0) k : S4096x1024.Idx) := fun k => by
    funext a; apply Fin.ext
    match a with
    | ⟨0, _⟩ => show win2_0.index t (0 : Fin 2) * 512 + 1 * p.val = win2_3.index t (0 : Fin 2) * 512 + 1 * p.val; omega
    | ⟨1, _⟩ => show win2_0.index t (1 : Fin 2) * 1024 + 1 * k.val = k.val; omega
  have hR : ∀ k : Fin 1024, ((cfg2.win 1).blk t).view.emb (ix2 k q)
      = (ix2 k (((cfg2.win 3).blk t).view.emb (ix2 p q) 1) : S1024x2048.Idx) := fun k => by
    funext a; apply Fin.ext
    match a with
    | ⟨0, _⟩ => show win2_1.index t (0 : Fin 2) * 1024 + 1 * k.val = k.val; omega
    | ⟨1, _⟩ => show win2_1.index t (1 : Fin 2) * 2048 + 1 * q.val = win2_3.index t (1 : Fin 2) * 2048 + 1 * q.val; omega
  have hX : ((cfg2.win 2).blk t).view.emb (ix2 p q) = ((cfg2.win 3).blk t).view.emb (ix2 p q) := by
    funext a; apply Fin.ext
    match a with
    | ⟨0, _⟩ => show win2_2.index t (0 : Fin 2) * 512 + 1 * p.val = win2_3.index t (0 : Fin 2) * 512 + 1 * p.val; omega
    | ⟨1, _⟩ => show win2_2.index t (1 : Fin 2) * 2048 + 1 * q.val = win2_3.index t (1 : Fin 2) * 2048 + 1 * q.val; omega
  rw [hX]
  exact congrArg (· + _) (Finset.sum_congr rfl fun k _ => by rw [hL k, hR k]; rfl)

/-- An index of the result array is in point `t`'s block iff each coordinate is in the block's range. -/
theorem mem_blk2 (t : Fin cfg2.N) (i : S4096x2048.Idx) :
    i ∈ ((cfg2.win 3).blk t).view.set ↔ ∀ a : Fin 2, win2_3.index t a * S512x2048.size a ≤ (i a).val ∧ (i a).val < win2_3.index t a * S512x2048.size a + S512x2048.size a := by
  show i ∈ ((View.whole main_v24).slice (win2_3.rect t)).set ↔ _
  rw [View.set_slice_whole, Rect.mem_set_unit]
  exact Iff.rfl

theorem idx_onto2 : ∀ q0 : Fin 8, ∃ t : Fin cfg2.N, win2_3.index t = ![q0.val, 0] :=
  (by decide +kernel : ∀ q0 : Fin 8, ∃ t : Fin grid2.N, win2_3.index t = ![q0.val, 0])

/-- The written blocks cover the array. -/
theorem cover2 (i : S4096x2048.Idx) : ∃ t : Fin cfg2.N, (cfg2.win 3).flush t = true ∧ i ∈ ((cfg2.win 3).blk t).view.set := by
  have hi0 : (i 0).val < 4096 := (i 0).isLt
  have hi1 : (i 1).val < 2048 := (i 1).isLt
  obtain ⟨t, ht⟩ := idx_onto2 ⟨(i 0).val / 512, by omega⟩
  have q0 : win2_3.index t (0 : Fin 2) = (i 0).val / 512 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 2048 ≤ (i 1).val ∧ (i 1).val < win2_3.index t (1 : Fin 2) * 2048 + 2048; omega

/-- THE RESULT ARRAY after the region is `Out2` of the operand arrays the region found. -/
theorem arr2_eq (c : Dev nD) :
    (dat2 V c).arrAt 3 cfg2.N
      = Out2 (V c main_v21 : S4096x1024.Idx → EReal) (V c main_v23 : S1024x2048.Idx → EReal) (V c main_arg0 : S4096x2048.Idx → EReal) :=
  (dat2 V c).arrAt_eq_of_cover 3 _ (fun t _ => flushed2_eq V c t) cover2

end Cert.KVal

end
-- ==== Proof.Spec.lean ====
/-
  The shared specification of the result.

  When every score is a real number, each row of the softmax sums to one, so the attention weights drop out of
  the result: entry `(a, d)` of the output is the inner product of the mean value vector, repeated once per
  head (`vm (k mod 128)` for `k` below `8 · 128`), with row `d` of the output projection `wo`, plus the
  residual `x (a, d)`.  `G` is that array as a function of the residual input, the output projection and the
  mean value vector.
-/
import Idealize.ShloMosaic.PureOps.Ideal
import Idealize.ShloMosaic.Lib.ValueIdx

noncomputable section

open scoped BigOperators

namespace Cert.Spec

open Idealize.ShloMosaic Idealize.ShloMosaic.ValueIdx

/-- The output as a function of the residual input `x`, the output projection `wo` and the mean value vector
    `vm`: `G x wo vm (a, d) = (∑ k < 1024, vm (k mod 128) * wo (d, k)) + x (a, d)`. -/
def G (x : FVec Ideal ⟨2, ![4096, 2048]⟩ .f32) (wo : FVec Ideal ⟨2, ![2048, 1024]⟩ .f32)
    (vm : FVec Ideal ⟨1, ![128]⟩ .f32) : FVec Ideal ⟨2, ![4096, 2048]⟩ .f32 :=
  fun i => (∑ k : Fin 1024, vm (ix1 ⟨k.val % 128, Nat.mod_lt _ (by norm_num)⟩) * wo (ix2 (i 1) k)) + x i

end Cert.Spec

end
-- ==== Proof.KTail.lean ====
/-
  The host operations between the second and third kernel regions, read at an index.

  The row-sum array `s8` (`[32768, 1]`) is reshaped to `[4096, 8]`, laid along a new axis of `128` and reshaped
  to `[4096, 1024]`; the mean value vector (`[128]`) is laid down `8` rows, flattened to `[1024]` and laid down
  `4096` rows; the two are multiplied.  Every operation on the left is a re-indexing, so when `s8` is `1`
  everywhere the left factor is `1` everywhere.  On the right, flattening `[8, 128]` to `[1024]` puts entry
  `(r, c)` at `r · 128 + c`, so position `k` holds the mean value vector at `k mod 128`.  The product at
  `(a, k)` is therefore the mean value vector at `k mod 128`, and its contraction with the transposed output
  projection plus the residual is the specification `G`.  A narrowing change of format is the identity on
  extended reals.
-/
import proofs.«145297_j7275674600023_1_alg».proof.Proof.Gen.KernelIdeal
import proofs.«145297_j7275674600023_1_alg».proof.Proof.Spec
import proofs.«145297_j7275674600023_1_alg».proof.Proof.Gen.ReferenceIdeal.Read
import Idealize.ShloMosaic.Lib.ValueIdx
import Idealize.ShloMosaic.Lib.Pipeline.Value
import Idealize.ShloMosaic.Lib.ValueLayout

noncomputable section

open scoped BigOperators

namespace Cert.KTail

open Cert.KernelIdeal Cert.KernelIdeal.Gen Idealize.ShloMosaic Idealize.ShloMosaic.ValueIdx

/-- The mean value vector: the sum of the rows of `vals` from zero, divided by `4096`. -/
def vmeanK (vals : FVec Ideal S4096x128 .f32) : FVec Ideal S128 .f32 :=
  Host.divf (Host.reduceAdd vals (constant (F := Ideal) S_ .f32 0x00000000#32) reducesTo_S4096x128_S128_d0 h_S_)
    (broadcastInDim S128 ![] bcast_S_S128 (constant (F := Ideal) S_ .f32 0x45800000#32))

/-- The left operand of the last contraction: the row sums along the value axis times the mean value vector down
    the rows, as a `[4096, 1024]` array. -/
def ovK (s8 : FVec Ideal S32768x1 .f32) (vals : FVec Ideal S4096x128 .f32) : FVec Ideal S4096x1024 .bf16 :=
  truncf .bf16
    (mulf
      (shapeCast _ (broadcastInDim S4096x8x128 ![0, 1] bcast_S4096x8_S4096x8x128_0_1
        (shapeCast _ s8 shapeCasts_S32768x1_S4096x8)) shapeCasts_S4096x8x128_S4096x1024)
      (broadcastInDim S4096x1024 ![0, 1] bcast_S1x1024_S4096x1024_0_1
        (broadcastInDim S1x1024 ![1] bcast_S1024_S1x1024_1
          (shapeCast _ (broadcastInDim S8x128 ![0, 1] bcast_S1x128_S8x128_0_1
            (shapeCast _ (vmeanK vals) shapeCasts_S128_S1x128)) shapeCasts_S8x128_S1024))))
    bitsLt_bf16_f32

/-- The right operand of the last contraction: the transposed output projection. -/
def woTK (wo : FVec Ideal S2048x1024 .f32) : FVec Ideal S1024x2048 .bf16 :=
  truncf .bf16 (transpose S1024x2048 [1, 0] wo transposes_S2048x1024_S1024x2048_1_0) bitsLt_bf16_f32

/-! ## Re-indexings of an all-ones array are all ones -/

theorem shapeCast_one {s t : Shape} (x : s.Idx → EReal) (h : s.ShapeCasts t) (hx : ∀ i, x i = 1) (j : t.Idx) :
    shapeCast t x h j = 1 := hx _

theorem broadcastInDim_one {s t : Shape} (dims : Fin s.rank → Fin t.rank) (h : s.BroadcastsInDim t dims)
    (x : s.Idx → EReal) (hx : ∀ i, x i = 1) (j : t.Idx) : broadcastInDim t dims h x j = 1 := hx _

/-! ## The mean value vector down the rows, at `(a, k)` -/

/-- The flattened, row-repeated mean value vector at `(a, k)` is the mean value vector at `k mod 128`. -/
theorem right_apply (vm : FVec Ideal S128 .f32) (a : Fin 4096) (k : Fin 1024) :
    broadcastInDim S4096x1024 ![0, 1] bcast_S1x1024_S4096x1024_0_1
        (broadcastInDim S1x1024 ![1] bcast_S1024_S1x1024_1
          (shapeCast S1024 (broadcastInDim S8x128 ![0, 1] bcast_S1x128_S8x128_0_1
            (shapeCast S1x128 vm shapeCasts_S128_S1x128)) shapeCasts_S8x128_S1024)) (ix2 a k)
      = vm (ix1 ⟨k.val % 128, Nat.mod_lt _ (by norm_num)⟩) := by
  have hk : k.val < 1024 := k.isLt
  -- down the `4096` rows: row `a` reads the one row
  rw [broadcastInDim_apply ![0, 1] bcast_S1x1024_S4096x1024_0_1 _ (ix2 a k) (ix2 (⟨0, Nat.one_pos⟩ : Fin 1) k)
    (fun q => match q with
      | ⟨0, _⟩ => by show (0 : Nat) = if (1 : Nat) = 1 then 0 else a.val; rw [if_pos rfl]
      | ⟨1, _⟩ => by show k.val = if (1024 : Nat) = 1 then 0 else k.val; rw [if_neg (by decide)])]
  -- the one row is the flat vector
  rw [broadcastInDim_apply ![1] bcast_S1024_S1x1024_1 _ (ix2 (⟨0, Nat.one_pos⟩ : Fin 1) k) (ix1 k)
    (fun q => match q with
      | ⟨0, _⟩ => by show k.val = if (1024 : Nat) = 1 then 0 else k.val; rw [if_neg (by decide)])]
  -- position `k` of the flat vector is entry `(k / 128, k mod 128)`
  rw [shapeCast_apply _ shapeCasts_S8x128_S1024 (ix1 k)
    (ix2 (⟨k.val / 128, by omega⟩ : Fin 8) (⟨k.val % 128, Nat.mod_lt _ (by norm_num)⟩ : Fin 128))
    (by rewrite [Shape.rowMajor_val_two, Shape.rowMajor_val_one]
        show k.val / 128 * 128 + k.val % 128 = k.val
        omega)]
  -- every one of the `8` rows is the mean value vector
  rw [broadcastInDim_apply ![0, 1] bcast_S1x128_S8x128_0_1 _ _
    (ix2 (⟨0, Nat.one_pos⟩ : Fin 1) (⟨k.val % 128, Nat.mod_lt _ (by norm_num)⟩ : Fin 128))
    (fun q => match q with
      | ⟨0, _⟩ => by show (0 : Nat) = if (1 : Nat) = 1 then 0 else k.val / 128; rw [if_pos rfl]
      | ⟨1, _⟩ => by show k.val % 128 = if (128 : Nat) = 1 then 0 else k.val % 128; rw [if_neg (by decide)])]
  exact shapeCast_apply vm shapeCasts_S128_S1x128 _ (ix1 ⟨k.val % 128, Nat.mod_lt _ (by norm_num)⟩)
    (by rewrite [Shape.rowMajor_val_one, Shape.rowMajor_val_two]
        show k.val % 128 = 0 * 128 + k.val % 128
        omega)

/-- With all row sums one, the left operand at `(a, k)` is the mean value vector at `k mod 128`. -/
theorem ovK_apply (s8 : FVec Ideal S32768x1 .f32) (hs : ∀ i, s8 i = 1) (vals : FVec Ideal S4096x128 .f32)
    (a : Fin 4096) (k : Fin 1024) :
    ovK s8 vals (ix2 a k) = vmeanK vals (ix1 ⟨k.val % 128, Nat.mod_lt _ (by norm_num)⟩) := by
  show (shapeCast S4096x1024 (broadcastInDim S4096x8x128 ![0, 1] bcast_S4096x8_S4096x8x128_0_1
        (shapeCast S4096x8 s8 shapeCasts_S32768x1_S4096x8)) shapeCasts_S4096x8x128_S4096x1024) (ix2 a k)
      * (broadcastInDim S4096x1024 ![0, 1] bcast_S1x1024_S4096x1024_0_1
        (broadcastInDim S1x1024 ![1] bcast_S1024_S1x1024_1
          (shapeCast S1024 (broadcastInDim S8x128 ![0, 1] bcast_S1x128_S8x128_0_1
            (shapeCast S1x128 (vmeanK vals) shapeCasts_S128_S1x128)) shapeCasts_S8x128_S1024))) (ix2 a k) = _
  rw [shapeCast_one _ _ (broadcastInDim_one _ _ _ (shapeCast_one _ _ hs)), one_mul]
  exact right_apply (vmeanK vals) a k

/-- The transposed output projection at `(k, d)` is the projection at `(d, k)`. -/
theorem woTK_apply (wo : FVec Ideal S2048x1024 .f32) (k : Fin 1024) (d : Fin 2048) :
    woTK wo (ix2 k d) = wo (ix2 d k) :=
  transpose_apply [1, 0] wo transposes_S2048x1024_S1024x2048_1_0 (ix2 k d) (ix2 d k)
    (fun b => match b with | ⟨0, _⟩ => rfl | ⟨1, _⟩ => rfl)

/-- The contraction of the two operands plus the residual is the specification. -/
theorem tail_is_G (s8 : FVec Ideal S32768x1 .f32) (hs : ∀ i, s8 i = 1) (vals : FVec Ideal S4096x128 .f32)
    (wo : FVec Ideal S2048x1024 .f32) (x : FVec Ideal S4096x2048 .f32) :
    (fun i : S4096x2048.Idx => (∑ k : Fin 1024, ovK s8 vals (ix2 (i 0) k) * woTK wo (ix2 k (i 1))) + x i)
      = Cert.Spec.G x wo (vmeanK vals) := by
  funext i
  obtain ⟨a, d, rfl⟩ : ∃ (a : Fin 4096) (d : Fin 2048), i = ix2 a d := ⟨i 0, i 1, eq_ix2 i⟩
  show (∑ k : Fin 1024, ovK s8 vals (ix2 a k) * woTK wo (ix2 k d)) + x (ix2 a d)
    = (∑ k : Fin 1024, vmeanK vals (ix1 ⟨k.val % 128, Nat.mod_lt _ (by norm_num)⟩) * wo (ix2 d k)) + x (ix2 a d)
  refine congrArg (· + x (ix2 a d)) (Finset.sum_congr rfl fun k _ => ?_)
  rw [ovK_apply s8 hs vals a k, woTK_apply wo k d]

/-- The kernel program's mean value vector is the reference's: the same operations on the same array. -/
theorem vmeanK_eq_ref (vals : FVec Ideal S4096x128 .f32) :
    vmeanK vals = Cert.ReferenceIdeal.Read.val_main_v21 (F := Ideal) vals := by
  unfold vmeanK Cert.ReferenceIdeal.Read.val_main_v21 Cert.ReferenceIdeal.Read.val_main_v19
    Cert.ReferenceIdeal.Read.val_main_v20 Cert.ReferenceIdeal.Read.val_main_cst_4
    Cert.ReferenceIdeal.Read.val_main_cst_5
  rfl

end Cert.KTail

end
-- ==== Proof.KRun.lean ====
/-
  The idealized kernel program's result as a function of its arguments, over the extended reals.

  Walking the program's buffers from the launch memory: the first host stretch only changes formats (the identity
  here) and transposes the query weight; the first region's product array then holds real numbers when `x` and the
  query weight do; the second stretch reshapes it into the query rows and transposes the keys, all entries still
  real; the second region's row-sum array is then one everywhere; the third stretch forms the tiled mean of the
  value bank against that all-ones array and transposes the output weight; and the last region's result is the
  product of the two plus `x` — the specification `G`.
-/
import proofs.«145297_j7275674600023_1_alg».proof.Proof.KernelIdeal.Main
import proofs.«145297_j7275674600023_1_alg».proof.Proof.ValR0
import proofs.«145297_j7275674600023_1_alg».proof.Proof.ValR1
import proofs.«145297_j7275674600023_1_alg».proof.Proof.ValR2
import proofs.«145297_j7275674600023_1_alg».proof.Proof.KTail
import proofs.«145297_j7275674600023_1_alg».proof.Proof.Spec
import proofs.«145297_j7275674600023_1_alg».proof.Proof.LibRealLaw
import Idealize.ShloMosaic.Lib.StableHlo.Run
import Idealize.ShloMosaic.Lib.ValueIdx
import Idealize.ShloMosaic.Lib.Pipeline.Value

set_option maxRecDepth 16384

noncomputable section

namespace Cert.KVal

open Idealize.ShloMosaic Idealize.ShloMosaic.TcCoe Idealize.ShloMosaic.ValueIdx Idealize.SL.Sem Idealize.ShloMosaic.StableHlo
open Cert.KernelIdeal Cert.KernelIdeal.Gen Cert.KernelIdeal.Fr Cert.Scores
open Idealize.ShloMosaic.Pipeline (Dat)

open scoped BigOperators

variable (m : (ℓ : Loc nD τ sig) → Buf (Elt Ideal) ℓ) (ρ : Dev nD → PrngReg)

/-! ## The first host stretch -/

theorem V1_v0 (c : Dev nD) : @Eq (S4096x2048.Idx → EReal) (V1 m ρ c main_v0)
    (truncf (F := Ideal) .bf16 (m ((c : Thread nD τ).loc main_arg0) : S4096x2048.Idx → EReal) bitsLt_bf16_f32) := by
  show StableHlo.after hostOps0 (W0 m ρ c) (Proc.devRef .tc main_v0) = _
  after_results <;> rfl

theorem V1_v2 (c : Dev nD) : @Eq (S2048x512.Idx → EReal) (V1 m ρ c main_v2)
    (truncf (F := Ideal) .bf16 (transpose S2048x512 [1, 0] (m ((c : Thread nD τ).loc main_arg1) : S512x2048.Idx → EReal) transposes_S512x2048_S2048x512_1_0) bitsLt_bf16_f32) := by
  show StableHlo.after hostOps0 (W0 m ρ c) (Proc.devRef .tc main_v2) = _
  after_results <;> rfl

theorem V1_v0_real (c : Dev nD) (hx : ∀ i : S4096x2048.Idx, IsReal ((m ((c : Thread nD τ).loc main_arg0) : S4096x2048.Idx → EReal) i)) :
    ∀ i : S4096x2048.Idx, IsReal ((V1 m ρ c main_v0 : S4096x2048.Idx → EReal) i) := by
  rw [V1_v0]; intro i; exact hx i

theorem V1_v2_real (c : Dev nD) (hwq : ∀ i : S512x2048.Idx, IsReal ((m ((c : Thread nD τ).loc main_arg1) : S512x2048.Idx → EReal) i)) :
    ∀ i : S2048x512.Idx, IsReal ((V1 m ρ c main_v2 : S2048x512.Idx → EReal) i) := by
  rw [V1_v2]; intro i
  show IsReal (transpose S2048x512 [1, 0] (m ((c : Thread nD τ).loc main_arg1) : S512x2048.Idx → EReal) transposes_S512x2048_S2048x512_1_0 i)
  unfold transpose
  exact hwq _

/-! ## The first region: the product array holds real numbers -/

theorem W2_v3_real (c : Dev nD) (hx : ∀ i : S4096x2048.Idx, IsReal ((m ((c : Thread nD τ).loc main_arg0) : S4096x2048.Idx → EReal) i))
    (hwq : ∀ i : S512x2048.Idx, IsReal ((m ((c : Thread nD τ).loc main_arg1) : S512x2048.Idx → EReal) i)) :
    ∀ i : S4096x512.Idx, IsReal ((W2 m ρ c (Proc.devRef .tc main_v3) : S4096x512.Idx → EReal) i) := by
  intro i
  rw [show W2 m ρ c (Proc.devRef .tc main_v3) = (dat0 (V1 m ρ) c).arrAt 2 cfg0.N from W2_arr m ρ c 2]
  exact arr0_real (V1 m ρ) c (V1_v0_real m ρ c hx) (V1_v2_real m ρ c hwq) i

/-! ## The second host stretch -/

theorem V3_v5 (c : Dev nD) : @Eq (S32768x64.Idx → EReal) (V3 m ρ c main_v5)
    (truncf (F := Ideal) .bf16 (shapeCast S32768x64 (W2 m ρ c (Proc.devRef .tc main_v3) : S4096x512.Idx → EReal) shapeCasts_S4096x512_S32768x64) bitsLt_bf16_f32) := by
  show StableHlo.after hostOps1 (W2 m ρ c) (Proc.devRef .tc main_v5) = _
  after_results <;> rfl

theorem V3_v7 (c : Dev nD) : @Eq (S64x4096.Idx → EReal) (V3 m ρ c main_v7)
    (truncf (F := Ideal) .bf16 (transpose S64x4096 [1, 0] (W2 m ρ c (Proc.devRef .tc main_arg2) : S4096x64.Idx → EReal) transposes_S4096x64_S64x4096_1_0) bitsLt_bf16_f32) := by
  show StableHlo.after hostOps1 (W2 m ρ c) (Proc.devRef .tc main_v7) = _
  after_results <;> rfl

theorem V3_v5_real (c : Dev nD) (hx : ∀ i : S4096x2048.Idx, IsReal ((m ((c : Thread nD τ).loc main_arg0) : S4096x2048.Idx → EReal) i))
    (hwq : ∀ i : S512x2048.Idx, IsReal ((m ((c : Thread nD τ).loc main_arg1) : S512x2048.Idx → EReal) i)) :
    ∀ i : S32768x64.Idx, IsReal ((V3 m ρ c main_v5 : S32768x64.Idx → EReal) i) := by
  rw [V3_v5]; intro i
  show IsReal (shapeCast S32768x64 (W2 m ρ c (Proc.devRef .tc main_v3) : S4096x512.Idx → EReal) shapeCasts_S4096x512_S32768x64 i)
  unfold shapeCast
  exact W2_v3_real m ρ c hx hwq _

theorem V3_v7_real (c : Dev nD) (hkeys : ∀ i : S4096x64.Idx, IsReal ((m ((c : Thread nD τ).loc main_arg2) : S4096x64.Idx → EReal) i)) :
    ∀ i : S64x4096.Idx, IsReal ((V3 m ρ c main_v7 : S64x4096.Idx → EReal) i) := by
  rw [V3_v7, W2_main_arg2]; intro i
  show IsReal (transpose S64x4096 [1, 0] (m ((c : Thread nD τ).loc main_arg2) : S4096x64.Idx → EReal) transposes_S4096x64_S64x4096_1_0 i)
  unfold transpose
  exact hkeys _

/-! ## The second region: the row-sum array is one everywhere -/

theorem W4_v8_one (c : Dev nD) (hx : ∀ i : S4096x2048.Idx, IsReal ((m ((c : Thread nD τ).loc main_arg0) : S4096x2048.Idx → EReal) i))
    (hwq : ∀ i : S512x2048.Idx, IsReal ((m ((c : Thread nD τ).loc main_arg1) : S512x2048.Idx → EReal) i))
    (hkeys : ∀ i : S4096x64.Idx, IsReal ((m ((c : Thread nD τ).loc main_arg2) : S4096x64.Idx → EReal) i)) :
    ∀ i : S32768x1.Idx, @Eq EReal ((W4 m ρ c (Proc.devRef .tc main_v8) : S32768x1.Idx → EReal) i) 1 := by
  intro i
  rw [show W4 m ρ c (Proc.devRef .tc main_v8) = (dat1 (V3 m ρ) c).arrAt 2 cfg1.N from W4_arr m ρ c 2]
  exact arr1_one (V3 m ρ) c (V3_v5_real m ρ c hx hwq) (V3_v7_real m ρ c hkeys) i

/-! ## The third host stretch -/

theorem V5_v21 (c : Dev nD) : @Eq (S4096x1024.Idx → EReal) (V5 m ρ c main_v21)
    (Cert.KTail.ovK (W4 m ρ c (Proc.devRef .tc main_v8) : S32768x1.Idx → EReal) (W4 m ρ c (Proc.devRef .tc main_arg3) : S4096x128.Idx → EReal)) := by
  unfold Cert.KTail.ovK Cert.KTail.vmeanK
  show StableHlo.after hostOps2 (W4 m ρ c) (Proc.devRef .tc main_v21) = _
  after_results <;> rfl

theorem V5_v23 (c : Dev nD) : @Eq (S1024x2048.Idx → EReal) (V5 m ρ c main_v23)
    (Cert.KTail.woTK (W4 m ρ c (Proc.devRef .tc main_arg4) : S2048x1024.Idx → EReal)) := by
  unfold Cert.KTail.woTK
  show StableHlo.after hostOps2 (W4 m ρ c) (Proc.devRef .tc main_v23) = _
  after_results <;> rfl

/-! ## The last region: the result is the specification -/

theorem kernel_result (c : Dev nD) (hx : ∀ i : S4096x2048.Idx, IsReal ((m ((c : Thread nD τ).loc main_arg0) : S4096x2048.Idx → EReal) i))
    (hwq : ∀ i : S512x2048.Idx, IsReal ((m ((c : Thread nD τ).loc main_arg1) : S512x2048.Idx → EReal) i))
    (hkeys : ∀ i : S4096x64.Idx, IsReal ((m ((c : Thread nD τ).loc main_arg2) : S4096x64.Idx → EReal) i)) :
    @Eq (S4096x2048.Idx → EReal) (W6 m ρ c (Proc.devRef .tc main_v24))
      (Cert.Spec.G (m ((c : Thread nD τ).loc main_arg0) : S4096x2048.Idx → EReal) (m ((c : Thread nD τ).loc main_arg4) : S2048x1024.Idx → EReal)
          (Cert.ReferenceIdeal.Read.val_main_v21 (F := Ideal) (m ((c : Thread nD τ).loc main_arg3) : S4096x128.Idx → EReal))) := by
  rw [show W6 m ρ c (Proc.devRef .tc main_v24) = (dat2 (V5 m ρ) c).arrAt 3 cfg2.N from W6_arr m ρ c 3]
  rw [arr2_eq, V5_v21, V5_v23]
  rw [show (V5 m ρ c main_arg0 : S4096x2048.Idx → EReal) = m ((c : Thread nD τ).loc main_arg0) from W5_main_arg0 m ρ c]
  rw [show (W4 m ρ c (Proc.devRef .tc main_arg3) : S4096x128.Idx → EReal) = m ((c : Thread nD τ).loc main_arg3) from W4_main_arg3 m ρ c]
  rw [show (W4 m ρ c (Proc.devRef .tc main_arg4) : S2048x1024.Idx → EReal) = m ((c : Thread nD τ).loc main_arg4) from W4_main_arg4 m ρ c]
  rw [← Cert.KTail.vmeanK_eq_ref]
  exact Cert.KTail.tail_is_G _ (W4_v8_one m ρ c hx hwq hkeys) _ _ _

end Cert.KVal

end
-- ==== Proof.LibSoftmaxRowSum.lean ====
/-
  One row of a softmax over real scores sums to one.

  Take `n > 0` scores `v k` that are real numbers and any real number `M` (the program subtracts the row's
  maximum; the argument uses only that it is real).  Each `e k = exp (v k - M)` is then a positive real, their
  sum `S` is a positive real, each quotient `e k / S` is the real `e k / S`, and in the reals
  `∑ k, e k / S = (∑ k, e k) / S = S / S = 1`.

  The file also has the facts that feed this: the maximum of finitely many reals folded from `-∞` is a real
  when there is at least one of them, the constants of the program as extended reals, and the quotient of a real
  by a nonzero real.
-/
import Idealize.ShloMosaic.PureOps.Ideal
import Idealize.ShloMosaic.PureOps.Ideal.Laws
import proofs.«145297_j7275674600023_1_alg».proof.Proof.LibRealLaw

noncomputable section

open scoped BigOperators

namespace Cert.RefValue

open Idealize.ShloMosaic Cert.Scores

/-! ## Constants -/

/-- The pattern `0xFF800000` is `-∞`. -/
theorem ofBits_neg_inf : Ideal.ofBits .f32 0xFF800000#32 = ⊥ := by simp [Ideal.ofBits, Ideal.ieee]

/-- The pattern `0x42800000` is the real `64`. -/
theorem ofBits_64 : Ideal.ofBits .f32 0x42800000#32 = ((64 : ℝ) : EReal) := by
  simp [Ideal.ofBits, Ideal.ieee, -EReal.coe_mul]; norm_num

/-- The square root of `64` is a real number that is not zero. -/
theorem sqrt_64 : Ideal.sqrt (Ideal.ofBits .f32 0x42800000#32) = ((Real.sqrt 64 : ℝ) : EReal) := by
  rw [ofBits_64, Ideal.sqrt_coe, if_neg (by norm_num)]

theorem sqrt_64_ne_zero : Real.sqrt 64 ≠ 0 := ne_of_gt (Real.sqrt_pos.mpr (by norm_num))

/-! ## Reals under the operations of a softmax row -/

/-- The ideal quotient of a real by a nonzero real is a real. -/
theorem isReal_div_coe {x : EReal} (hx : IsReal x) {y : ℝ} (hy : y ≠ 0) : IsReal (Ideal.div x (y : EReal)) := by
  rw [Ideal.div_coe hy]
  exact hx.mul (isReal_coe _)

/-- The maximum of two reals is a real. -/
theorem isReal_max {x y : EReal} (hx : IsReal x) (hy : IsReal y) : IsReal (max x y) := by
  rcases max_choice x y with h | h <;> rw [h] <;> assumption

/-- The maximum of a nonempty finite family of reals, folded from `-∞`, is a real. -/
theorem isReal_fold_max {ι : Type} [DecidableEq ι] (v : ι → EReal) (hv : ∀ k, IsReal (v k)) (s : Finset ι)
    (hs : s.Nonempty) : IsReal (s.fold max ⊥ v) := by
  induction s using Finset.induction_on with
  | empty => exact absurd hs (by simp)
  | insert a s ha ih =>
    rw [Finset.fold_insert ha]
    rcases s.eq_empty_or_nonempty with h | h
    · rw [h, Finset.fold_empty, max_bot_right]; exact hv a
    · exact isReal_max (hv a) (ih h)

/-- A softmax row over real scores sums to one, with the additions from zero the program's sums carry. -/
theorem softmax_row_sum_one {n : Nat} (hn : 0 < n) (v : Fin n → EReal) (hv : ∀ k, IsReal (v k)) (M : EReal)
    (hM : IsReal M) :
    (0 : EReal) + ∑ k : Fin n, Ideal.div (Ideal.exp (v k - M)) (0 + ∑ j : Fin n, Ideal.exp (v j - M)) = 1 := by
  choose a ha using hv
  obtain ⟨m, rfl⟩ := hM
  haveI : Nonempty (Fin n) := ⟨⟨0, hn⟩⟩
  -- every exponential is the positive real `exp (a k - m)`
  have he : ∀ k : Fin n, Ideal.exp (v k - (m : EReal)) = ((Real.exp (a k - m) : ℝ) : EReal) := fun k => by
    rw [ha k, ← EReal.coe_sub, Ideal.exp_coe]
  -- their sum is a positive real
  have hS : (0 : EReal) + ∑ j : Fin n, Ideal.exp (v j - (m : EReal)) = ((∑ j : Fin n, Real.exp (a j - m) : ℝ) : EReal) := by
    rw [zero_add, coe_sum]; exact Finset.sum_congr rfl fun j _ => he j
  have hpos : 0 < ∑ j : Fin n, Real.exp (a j - m) := Finset.sum_pos (fun j _ => Real.exp_pos _) Finset.univ_nonempty
  rw [hS, zero_add]
  have hq : ∀ k : Fin n, Ideal.div (Ideal.exp (v k - (m : EReal))) ((∑ j : Fin n, Real.exp (a j - m) : ℝ) : EReal)
      = ((Real.exp (a k - m) / ∑ j : Fin n, Real.exp (a j - m) : ℝ) : EReal) := fun k => by
    rw [he k, Ideal.div_coe (ne_of_gt hpos), ← EReal.coe_mul, mul_one_div]
  rw [Finset.sum_congr rfl fun k _ => hq k, ← coe_sum, ← Finset.sum_div, div_self (ne_of_gt hpos)]
  rfl

end Cert.RefValue

end
-- ==== Proof.LibHostRowMax.lean ====
/-
  The host's one-operand reduction over the last axis of a rank-3 array, read at a row given by coordinates.

  An array `[B, m, n]` reduced over axis 2 with a commutative and associative body `f` has, at row `(b, q)`,
  the fold of `f` from the initial value's element over the row's `n` entries `x (b, q, k)`. This is the
  library's statement for a reduction over any single axis (the fold over the source indices that drop to
  the result index, re-indexed by the dropped axis's coordinate) with the inserted index computed for the
  literal axis 2 of a rank-3 shape: `(b, q)` with `k` inserted last is `(b, q, k)`.
-/
import Idealize.ShloMosaic.PureOps.Reduce
import Idealize.ShloMosaic.Lib.ValueIdx

namespace Cert.HostRowMax

open Idealize.ShloMosaic Idealize.ShloMosaic.ValueIdx

variable {α : Type}

/-- The row index `(b, q)` of a `[B, m]` result with coordinate `k` put back on the dropped last axis of
    `[B, m, n]` is `(b, q, k)`. -/
theorem lift_ix3 {B m n : Nat} (h : (⟨3, ![B, m, n]⟩ : Shape).Reduces [2] (⟨2, ![B, m]⟩ : Shape)) (b : Fin B) (q : Fin m)
    (k : Fin ((⟨3, ![B, m, n]⟩ : Shape).size 2)) : h.lift (ix2 b q) k = ix3 b q (⟨k.val, k.isLt⟩ : Fin n) := by
  funext c; apply Fin.ext
  fin_cases c <;> rfl

/-- A one-operand host reduction of a `[B, m, n]` array over its last axis, with a commutative and
    associative body, is at row `(b, q)` the fold of the body from the initial value's element over the
    row's entries. -/
theorem hostReduce_lastAxis3_apply {B m n : Nat} {u : Shape} (f : α → α → α) [Std.Commutative f] [Std.Associative f]
    (x : (⟨3, ![B, m, n]⟩ : Shape).Idx → α) (init : u.Idx → α)
    (h' : (⟨3, ![B, m, n]⟩ : Shape).ReducesTo [2] (⟨2, ![B, m]⟩ : Shape))
    (h : (⟨3, ![B, m, n]⟩ : Shape).Reduces [2] (⟨2, ![B, m]⟩ : Shape)) (hu : 0 < u.numel) (b : Fin B) (q : Fin m) :
    Host.reduce f x init h' hu (ix2 b q)
      = (Finset.univ : Finset (Fin n)).fold f (init (Shape.Idx.first hu)) (fun k => x (ix3 b q k)) := by
  rw [Host.reduce_eq_fold_single f x init h' h hu]
  have hf : (x ∘ h.lift (ix2 b q)) = fun k : Fin n => x (ix3 b q k) := funext fun k => congrArg x (lift_ix3 h b q k)
  exact congrArg (fun g => Finset.fold f (init (Shape.Idx.first hu)) g (Finset.univ : Finset (Fin n))) hf

end Cert.HostRowMax
-- ==== Proof.RefOne.lean ====
/-
  The attention weights of the reference sum to one along every row.

  The scores `main_v6` are sums of products of entries of the three real inputs divided by the nonzero real
  `√64`, so every score is a real number.  The row maximum `main_v9` is the maximum of `-∞` and the fold of
  `max` from `-∞` over the row's `4096` scores, a real number.  With `v k` the scores of row `(a, h)` and
  `M` its maximum, the program's `main_v13` is `exp (v k - M)`, `main_v14` is `0 + ∑ j, exp (v j - M)`,
  `main_v17` is their quotient and `main_v18` is `0 + ∑ k` of the quotients: the row lemma says this is `1`.
-/
import proofs.«145297_j7275674600023_1_alg».proof.Proof.Gen.ReferenceIdeal.Read
import proofs.«145297_j7275674600023_1_alg».proof.Proof.LibSoftmaxRowSum
import proofs.«145297_j7275674600023_1_alg».proof.Proof.LibHostRowMax
import Idealize.ShloMosaic.Lib.ValueIdx
import Idealize.ShloMosaic.Lib.Pipeline.Value
import Idealize.ShloMosaic.PureOps.Ideal.Laws

noncomputable section

open scoped BigOperators

namespace Cert.RefValue

open Cert.ReferenceIdeal Cert.ReferenceIdeal.Read Cert.ReferenceIdeal.Gen Idealize.ShloMosaic
  Idealize.ShloMosaic.ValueIdx Cert.Scores

variable (x0 : (⟨S4096x2048, .f32⟩ : BufTy).Contents (Elt Ideal))
  (x1 : (⟨S512x2048, .f32⟩ : BufTy).Contents (Elt Ideal))
  (x2 : (⟨S4096x64, .f32⟩ : BufTy).Contents (Elt Ideal))

/-! ## Every score is a real number -/

/-- The projected queries `x · Wqᵀ` are real: finite sums of products of reals. -/
theorem isReal_v1 (h0 : ∀ i, IsReal (x0 i)) (h1 : ∀ i, IsReal (x1 i)) (i : S4096x512.Idx) :
    IsReal (val_main_v1 (F := Ideal) x0 x1 i) := by
  rw [val_main_v1_apply]
  refine IsReal.sum _ fun k => (h0 _).mul ?_
  rw [val_main_v0_apply]; exact h1 _

/-- The raw scores `q · keysᵀ` are real. -/
theorem isReal_v3 (h0 : ∀ i, IsReal (x0 i)) (h1 : ∀ i, IsReal (x1 i)) (h2 : ∀ i, IsReal (x2 i))
    (i : S4096x8x4096.Idx) : IsReal (val_main_v3 (F := Ideal) x0 x1 x2 i) := by
  rw [val_main_v3_apply]
  refine IsReal.sum _ fun k => IsReal.mul ?_ (h2 _)
  rw [val_main_v2_apply]; exact isReal_v1 x0 x1 h0 h1 _

/-- The divisor of the scores is the real `√64` everywhere. -/
theorem v5_eq (i : S4096x8x4096.Idx) : val_main_v5 (F := Ideal) i = ((Real.sqrt 64 : ℝ) : EReal) := by
  rw [val_main_v5_apply, val_main_v4_apply, val_main_cst_apply]
  exact sqrt_64

/-- The scaled scores are real. -/
theorem isReal_v6 (h0 : ∀ i, IsReal (x0 i)) (h1 : ∀ i, IsReal (x1 i)) (h2 : ∀ i, IsReal (x2 i))
    (i : S4096x8x4096.Idx) : IsReal (val_main_v6 (F := Ideal) x0 x1 x2 i) := by
  rw [val_main_v6_apply, v5_eq]
  exact isReal_div_coe (isReal_v3 x0 x1 x2 h0 h1 h2 i) sqrt_64_ne_zero

/-! ## The row maximum is a real number -/

/-- The max-reduction at row `(a, h)` is the fold of `max` from `-∞` over the row's scores. -/
theorem v7_at (a : Fin 4096) (h : Fin 8) :
    val_main_v7 (F := Ideal) x0 x1 x2 (ix2 a h)
      = (Finset.univ : Finset (Fin 4096)).fold max ⊥ (fun k => val_main_v6 (F := Ideal) x0 x1 x2 (ix3 a h k)) := by
  unfold val_main_v7
  refine (Cert.HostRowMax.hostReduce_lastAxis3_apply (α := Ideal .f32) (B := 4096) (m := 8) (n := 4096)
    (FloatOps.maximumf (F := Ideal) (φ := .f32)) (val_main_v6 (F := Ideal) x0 x1 x2)
    (val_main_cst_0 (F := Ideal)) reducesTo_S4096x8x4096_S4096x8_d2 (by decide) h_S_ a h).trans ?_
  have hb : val_main_cst_0 (F := Ideal) (Shape.Idx.first h_S_) = ⊥ := ofBits_neg_inf
  rw [hb]
  rfl

theorem isReal_v9 (h0 : ∀ i, IsReal (x0 i)) (h1 : ∀ i, IsReal (x1 i)) (h2 : ∀ i, IsReal (x2 i))
    (a : Fin 4096) (h : Fin 8) : IsReal (val_main_v9 (F := Ideal) x0 x1 x2 (ix2 a h)) := by
  rw [val_main_v9_apply, val_main_v8_apply, val_main_cst_1_apply, v7_at]
  have hb : FloatOps.ofBits (F := Ideal) .f32 0xFF800000#32 = ⊥ := ofBits_neg_inf
  rw [hb]
  show IsReal (max ⊥ _)
  rw [max_bot_left]
  exact isReal_fold_max _ (fun k => isReal_v6 x0 x1 x2 h0 h1 h2 _) _ ⟨⟨0, by norm_num⟩, Finset.mem_univ _⟩

/-! ## The stages of the softmax at row `(a, h)` -/

/-- The exponentials: `exp` of the score minus the row's maximum. -/
theorem v13_at (a : Fin 4096) (h : Fin 8) (k : Fin 4096) :
    val_main_v13 (F := Ideal) x0 x1 x2 (ix3 a h k)
      = Ideal.exp (val_main_v6 (F := Ideal) x0 x1 x2 (ix3 a h k) - val_main_v9 (F := Ideal) x0 x1 x2 (ix2 a h)) := by
  rw [val_main_v13_apply, val_main_v12_apply, val_main_v11_apply, val_main_v10_apply]
  have e : idx_main_v10 (idx_main_v11 (ix3 a h k)) = ix2 a h := by
    funext d; match d with | ⟨0, _⟩ => rfl | ⟨1, _⟩ => rfl
  rw [e]; rfl

/-- The normalizer: zero plus the sum of the row's exponentials. -/
theorem v14_at (a : Fin 4096) (h : Fin 8) :
    val_main_v14 (F := Ideal) x0 x1 x2 (ix2 a h)
      = 0 + ∑ k : Fin 4096, val_main_v13 (F := Ideal) x0 x1 x2 (ix3 a h k) := by
  rw [val_main_v14_apply, val_main_cst_2_apply]
  have hz : FloatOps.ofBits (F := Ideal) .f32 0x00000000#32 = 0 := Ideal.ofBits_zero_f32
  rw [hz]
  refine congrArg (0 + ·) (Finset.sum_congr rfl fun k _ => congrArg _ ?_)
  funext d; match d with | ⟨0, _⟩ => rfl | ⟨1, _⟩ => rfl | ⟨2, _⟩ => rfl

/-- The attention weights: the exponential over the row's normalizer. -/
theorem v17_at (a : Fin 4096) (h : Fin 8) (k : Fin 4096) :
    val_main_v17 (F := Ideal) x0 x1 x2 (ix3 a h k)
      = Ideal.div (val_main_v13 (F := Ideal) x0 x1 x2 (ix3 a h k)) (val_main_v14 (F := Ideal) x0 x1 x2 (ix2 a h)) := by
  rw [val_main_v17_apply, val_main_v16_apply, val_main_v15_apply]
  have e : idx_main_v15 (idx_main_v16 (ix3 a h k)) = ix2 a h := by
    funext d; match d with | ⟨0, _⟩ => rfl | ⟨1, _⟩ => rfl
  rw [e]; rfl

/-- THE ROW SUM.  Under real inputs the attention weights of every row `(a, h)` sum to one. -/
theorem v18_at (h0 : ∀ i, IsReal (x0 i)) (h1 : ∀ i, IsReal (x1 i)) (h2 : ∀ i, IsReal (x2 i))
    (a : Fin 4096) (h : Fin 8) : val_main_v18 (F := Ideal) x0 x1 x2 (ix2 a h) = 1 := by
  rw [val_main_v18_apply, val_main_cst_3_apply]
  have hz : FloatOps.ofBits (F := Ideal) .f32 0x00000000#32 = 0 := Ideal.ofBits_zero_f32
  rw [hz]
  have hk : ∀ k : Fin 4096, val_main_v17 (F := Ideal) x0 x1 x2 (idx_main_v18 (ix2 a h) k)
      = Ideal.div (Ideal.exp (val_main_v6 (F := Ideal) x0 x1 x2 (ix3 a h k) - val_main_v9 (F := Ideal) x0 x1 x2 (ix2 a h)))
          (0 + ∑ j : Fin 4096, Ideal.exp (val_main_v6 (F := Ideal) x0 x1 x2 (ix3 a h j) - val_main_v9 (F := Ideal) x0 x1 x2 (ix2 a h))) := fun k => by
    have e : idx_main_v18 (ix2 a h) k = ix3 a h k := by
      funext d; match d with | ⟨0, _⟩ => rfl | ⟨1, _⟩ => rfl | ⟨2, _⟩ => rfl
    rw [e, v17_at, v14_at, v13_at]
    exact congrArg _ (congrArg (0 + ·) (Finset.sum_congr rfl fun j _ => v13_at x0 x1 x2 a h j))
  rw [Finset.sum_congr rfl fun k _ => hk k]
  exact softmax_row_sum_one (by norm_num) (fun k => val_main_v6 (F := Ideal) x0 x1 x2 (ix3 a h k))
    (fun k => isReal_v6 x0 x1 x2 h0 h1 h2 _) _ (isReal_v9 x0 x1 x2 h0 h1 h2 a h)

end Cert.RefValue

end
-- ==== Proof.Ref.lean ====
/-
  The reference computes the specification.

  Under real inputs every row of attention weights sums to one (`v18_at`), so the product of that sum with the
  mean value vector is the mean value vector itself: entry `(a, h·128 + c)` of the reshaped `[4096, 1024]` array
  is `1 * vmean c`, and column `k` of it reads `vmean (k mod 128)`.  The output is its product with the
  transposed output projection plus the residual, which is `Cert.Spec.G` term by term.
-/
import proofs.«145297_j7275674600023_1_alg».proof.Proof.RefOne
import proofs.«145297_j7275674600023_1_alg».proof.Proof.Spec

noncomputable section

open scoped BigOperators

namespace Cert.RefValue

open Cert.ReferenceIdeal Cert.ReferenceIdeal.Read Cert.ReferenceIdeal.Gen Idealize.ShloMosaic
  Idealize.ShloMosaic.ValueIdx Cert.Scores

/-- The row sums are one at every index of the `[4096, 8]` array. -/
theorem v18_one (x0 : (⟨S4096x2048, .f32⟩ : BufTy).Contents (Elt Ideal))
    (x1 : (⟨S512x2048, .f32⟩ : BufTy).Contents (Elt Ideal))
    (x2 : (⟨S4096x64, .f32⟩ : BufTy).Contents (Elt Ideal))
    (h0 : ∀ i, IsReal (x0 i)) (h1 : ∀ i, IsReal (x1 i)) (h2 : ∀ i, IsReal (x2 i)) (i : S4096x8.Idx) :
    val_main_v18 (F := Ideal) x0 x1 x2 i = 1 := by
  obtain ⟨a, h, rfl⟩ : ∃ (a : Fin 4096) (h : Fin 8), i = ix2 a h := ⟨i 0, i 1, eq_ix2 i⟩
  exact v18_at x0 x1 x2 h0 h1 h2 a h

/-- THE REFERENCE IS THE SPECIFICATION: under real `x`, `Wq` and `keys` the reference's result is `G` of the
    residual input, the output projection and the mean value vector `main_v21`. -/
theorem ref_is_G (x0 : (⟨S4096x2048, .f32⟩ : BufTy).Contents (Elt Ideal))
    (x1 : (⟨S512x2048, .f32⟩ : BufTy).Contents (Elt Ideal))
    (x2 : (⟨S4096x64, .f32⟩ : BufTy).Contents (Elt Ideal))
    (x3 : (⟨S4096x128, .f32⟩ : BufTy).Contents (Elt Ideal))
    (x4 : (⟨S2048x1024, .f32⟩ : BufTy).Contents (Elt Ideal))
    (h0 : ∀ i, Cert.Scores.IsReal (x0 i)) (h1 : ∀ i, Cert.Scores.IsReal (x1 i))
    (h2 : ∀ i, Cert.Scores.IsReal (x2 i)) :
    Cert.ReferenceIdeal.Read.val_main_v30 (F := Ideal) x0 x1 x2 x3 x4
      = Cert.Spec.G x0 x4 (Cert.ReferenceIdeal.Read.val_main_v21 (F := Ideal) x3) := by
  funext i
  rw [val_main_v30_apply, val_main_v29_apply]
  show (∑ k : Fin 1024, (val_main_v27 (F := Ideal) x0 x1 x2 x3) (lidx_main_v29 i k)
      * (val_main_v28 (F := Ideal) x4) (ridx_main_v29 i k)) + x0 i
    = (∑ k : Fin 1024, val_main_v21 (F := Ideal) x3 (ix1 ⟨k.val % 128, Nat.mod_lt _ (by norm_num)⟩) * x4 (ix2 (i 1) k)) + x0 i
  refine congrArg (· + x0 i) (Finset.sum_congr rfl fun k _ => ?_)
  rw [val_main_v28_apply, val_main_v27_apply, val_main_v26_apply, val_main_v24_apply, val_main_v22_apply,
    v18_one x0 x1 x2 h0 h1 h2, val_main_v25_apply, val_main_v23_apply]
  -- the transposed projection at `(k, d)` is the projection at `(d, k)`
  have e1 : idx_main_v28 (ridx_main_v29 i k) = ix2 (i 1) k := by
    funext d; match d with | ⟨0, _⟩ => rfl | ⟨1, _⟩ => rfl
  -- column `k` of the reshaped array reads the mean value vector at `k mod 128`
  have e2 : idx_main_v23 (idx_main_v25 (idx_main_v27 (lidx_main_v29 i k)))
      = ix1 ⟨k.val % 128, Nat.mod_lt _ (by norm_num)⟩ := by
    funext d
    match d with
    | ⟨0, _⟩ => exact Fin.ext (by show ((i 0).val * 1024 + k.val) % 128 = k.val % 128; omega)
  rw [e1, e2]
  show (1 : EReal) * _ * _ = _
  rw [one_mul]
  rfl

end Cert.RefValue

end
-- ==== Proof.Finite.lean ====
/-
  From the precondition to real entries.

  The precondition is the conjunction, over the five inputs, of `all (|x| < +∞)`.  The conjunction is `1` only
  when each conjunct is; an `all` over every axis that is `1` had a `1` at every index; and `|x| < +∞` on
  the extended reals, with `|x| = max x (-x)`, fails at both infinities (`|±∞| = +∞`), so it holds only at
  a real number.  The first three inputs are the ones whose entries must be real.
-/
import proofs.«145297_j7275674600023_1_alg».proof.Pre_finite_inputs
import proofs.«145297_j7275674600023_1_alg».proof.Proof.Gen.Pre_finite_inputs
import proofs.«145297_j7275674600023_1_alg».proof.Proof.LibRealLaw
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx Cert.Scores Cert.Pre_finite_inputs Cert.Pre_finite_inputs.Gen

/-- The scalar shape has one index. -/
instance : Subsingleton S_.Idx := ⟨fun a b => funext fun d => d.elim0⟩

/-- The pattern `0x7F800000` is `+∞`. -/
theorem ofBits_inf : Ideal.ofBits .f32 0x7F800000#32 = ⊤ := by simp [Ideal.ofBits, Ideal.ieee]

/-- An extended real whose absolute value is below `+∞` is a real number. -/
theorem isReal_of_abs_lt_inf (x : EReal)
    (h : Ideal.cmp .olt (max x (-x)) (Ideal.ofBits .f32 0x7F800000#32) = 1#1) : IsReal x := by
  rw [ofBits_inf] at h
  induction x using EReal.rec with
  | bot => simp [Ideal.cmp] at h
  | top => simp [Ideal.cmp] at h
  | coe r => exact ⟨r, rfl⟩

/-- One conjunct: an `all (|x| < +∞)` that is `1` makes every entry of `x` a real number. -/
theorem isReal_of_all {s : Shape} {axes : List (Fin s.rank)} (x : FVec Ideal s .f32)
    (b : S_.BroadcastsInDim s (![] : Fin 0 → Fin s.rank)) (hr : s.ReducesTo axes S_) (hu : 0 < S_.numel)
    (e : Host.reduce IntOp.andi
        (cmpf .olt (Host.absf x) (broadcastInDim s ![] b (constant (F := Ideal) S_ .f32 0x7F800000#32)))
        (constantI S_ 1 1#1) hr hu ix0 = 1#1) (i : s.Idx) : IsReal (x i) :=
  isReal_of_abs_lt_inf (x i) (Host.reduce_andi_all _ _ hr hu ix0 e i)

/-- THE PRECONDITION DECODED: when the printed predicate is `1`, the first three inputs have real entries. -/
theorem reals_of_fn (x0 : (⟨Cert.Pre_finite_inputs.S4096x2048, .f32⟩ : BufTy).Contents (Elt Ideal))
    (x1 : (⟨Cert.Pre_finite_inputs.S512x2048, .f32⟩ : BufTy).Contents (Elt Ideal))
    (x2 : (⟨Cert.Pre_finite_inputs.S4096x64, .f32⟩ : BufTy).Contents (Elt Ideal))
    (x3 : (⟨Cert.Pre_finite_inputs.S4096x128, .f32⟩ : BufTy).Contents (Elt Ideal))
    (x4 : (⟨Cert.Pre_finite_inputs.S2048x1024, .f32⟩ : BufTy).Contents (Elt Ideal))
    (h : Cert.Pre_finite_inputs.fn (F := Ideal) x0 x1 x2 x3 x4 = (fun _ => 1#1)) :
    (∀ i, Cert.Scores.IsReal (x0 i)) ∧ (∀ i, Cert.Scores.IsReal (x1 i)) ∧ (∀ i, Cert.Scores.IsReal (x2 i)) := by
  have e := congrFun h ix0
  dsimp only [Cert.Pre_finite_inputs.fn, Cert.Pre_finite_inputs.fn_part1] at e
  change IntOp.andi (IntOp.andi (IntOp.andi (IntOp.andi _ _) _) _) _ = 1#1 at e
  rw [IntOp.andi_eq_one, IntOp.andi_eq_one, IntOp.andi_eq_one, IntOp.andi_eq_one] at e
  obtain ⟨⟨⟨⟨e0, e1⟩, e2⟩, -⟩, -⟩ := e
  exact ⟨isReal_of_all x0 _ _ _ e0, isReal_of_all x1 _ _ _ e1, isReal_of_all x2 _ _ _ e2⟩

end Cert.Finite

end
-- ==== Proof.lean ====
/-
  The certificate's claim.  The kernel projects the input onto queries, scores them against a bank of keys with a
  softmax whose weights it only ever sums along their own axis, and combines that sum with the column mean of a
  value bank through an output projection and a residual; the reference computes the same with the softmax
  materialized.  Over the extended reals, for finite inputs, a softmax's weights sum to exactly one — in the
  reference because ∑ eₙ / (∑ eₙ) = 1 for positive reals eₙ, in the kernel because the running sum of its online
  softmax stays a positive real and it stores that sum divided by itself — so both programs end at
  (∑ k, mean[k mod 128] · Wo[d, k]) + x[a, d].

  The three frames: the two kernel programs (read at the word level and at the extended reals) run region by
  region, each pipelined region from its body's run at every grid point, the second one carrying its two running
  columns between grid points; the reference is a straight line of host operations.  The idealization rewrote no
  operation, so there is nothing to preserve.
-/
import proofs.«145297_j7275674600023_1_alg».proof.Defs
import proofs.«145297_j7275674600023_1_alg».proof.Proof.Gen.Kernel
import proofs.«145297_j7275674600023_1_alg».proof.Proof.Gen.KernelIdeal
import proofs.«145297_j7275674600023_1_alg».proof.Proof.Gen.ReferenceIdeal
import proofs.«145297_j7275674600023_1_alg».proof.Proof.Gen.ReferenceIdeal.Run
import proofs.«145297_j7275674600023_1_alg».proof.Proof.Gen.ReferenceIdeal.Read
import proofs.«145297_j7275674600023_1_alg».proof.Proof.Gen.Pre_finite_inputs
import proofs.«145297_j7275674600023_1_alg».proof.Proof.Kernel.Main
import proofs.«145297_j7275674600023_1_alg».proof.Proof.KernelIdeal.Main
import proofs.«145297_j7275674600023_1_alg».proof.Proof.KRun
import proofs.«145297_j7275674600023_1_alg».proof.Proof.Ref
import proofs.«145297_j7275674600023_1_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs to the end, faults nowhere and leaves its arguments as launched. -/
theorem frame_kernel : Cert.frame_Kernel := fun m ρ _ => Cert.Kernel.Fr.frame m ρ

/-- So does the kernel program read over the extended reals. -/
theorem frame_kernelIdeal : Cert.frame_KernelIdeal := fun m ρ _ => Cert.KernelIdeal.Fr.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the specification `G` of the arguments: the kernel by walking its three regions, the
    reference by reading its operations one at a time; the inputs `x`, the query weight and the keys are real
    numbers by the precondition. -/
theorem algebraic : Cert.algebraic_KernelIdeal_ReferenceIdeal := by
  intro m g m' g' hpre hagree
  have hre := fun c : Dev Cert.KernelIdeal.nD => Cert.Finite.reals_of_fn _ _ _ _ _ (hpre c)
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg4))
      (Cert.ReferenceIdeal.Read.val_main_v21 (F := Ideal) (m ((c.tc : Thread Cert.KernelIdeal.nD Cert.KernelIdeal.τ).loc Cert.KernelIdeal.main_arg3))), ?_, ?_⟩
  · refine (θ_run Cert.KernelIdeal.defs _ _).mono (fun r h c => ?_) (Cert.KernelIdeal.Fr.run_all m g)
    have hb : ∀ b : Ref Cert.KernelIdeal.sig .tc, ¬ (Proc.devRef .tc b : DevRef Cert.KernelIdeal.τ Cert.KernelIdeal.sig).isScoped →
        r.2.mem ((c.tc : Thread Cert.KernelIdeal.nD Cert.KernelIdeal.τ).loc b) = Cert.KernelIdeal.Fr.W6 m g c (Proc.devRef .tc b) :=
      fun b hs => h c _ (Cert.KernelIdeal.Fr.mem_uc b hs)
    exact ⟨(hb Cert.KernelIdeal.main_v24 (by decide)).trans (Cert.KVal.kernel_result m g c (hre c).1 (hre c).2.1 (hre c).2.2),
      (hb Cert.KernelIdeal.main_arg0 (by decide)).trans (Cert.KernelIdeal.Fr.W6_main_arg0 m g c),
      (hb Cert.KernelIdeal.main_arg1 (by decide)).trans (Cert.KernelIdeal.Fr.W6_main_arg1 m g c),
      (hb Cert.KernelIdeal.main_arg2 (by decide)).trans (Cert.KernelIdeal.Fr.W6_main_arg2 m g c),
      (hb Cert.KernelIdeal.main_arg3 (by decide)).trans (Cert.KernelIdeal.Fr.W6_main_arg3 m g c),
      (hb Cert.KernelIdeal.main_arg4 (by decide)).trans (Cert.KernelIdeal.Fr.W6_main_arg4 m g c)⟩
  · refine (θ_run Cert.ReferenceIdeal.defs _ _).mono (fun r h c => ⟨?_, (h c).2⟩) (Cert.ReferenceIdeal.Value.run (F := Ideal) m' g')
    obtain ⟨e0, e1, e2, e3, e4⟩ := hagree c
    rw [(h c).1, Cert.ReferenceIdeal.Read.val_main_v30_eq, e0, e1, e2, e3, e4]
    exact Cert.RefValue.ref_is_G _ _ _ _ _ (hre c).1 (hre c).2.1 (hre c).2.2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
